-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x32 : Shape := ⟨2, ![1048576, 32]⟩
abbrev S_ : Shape := ⟨0, ![]⟩

class Facts : Prop where
  bcast_S_S1048576x32 : S_.BroadcastsInDim S1048576x32 (![] : Fin 0 → Fin S1048576x32.rank)
  reducesTo_S1048576x32_S_d0_1 : S1048576x32.ReducesTo [0, 1] S_
  h_S_ : 0 < S_.numel

variable [Facts]

def fn {F : FTy → Type} [FloatOps F] (main_arg0 : FVec F S1048576x32 .f32) (main_arg1 : FVec F S1048576x32 .f32) : IVec S_ 1 :=
  let main_v0 : FVec F S1048576x32 .f32 := Host.absf main_arg0
  let main_cst : FVec F S_ .f32 := constant S_ .f32 0x7F800000#32
  let main_v1 : FVec F S1048576x32 .f32 := broadcastInDim S1048576x32 ![] bcast_S_S1048576x32 main_cst
  let main_v2 : IVec S1048576x32 1 := cmpf .olt main_v0 main_v1
  let main_c : IVec S_ 1 := constantI S_ 1 1#1
  let main_v3 : IVec S_ 1 := (fun x v => Host.reduce IntOp.andi x v reducesTo_S1048576x32_S_d0_1 h_S_) main_v2 main_c
  let main_v4 : FVec F S1048576x32 .f32 := Host.absf main_arg1
  let main_cst_0 : FVec F S_ .f32 := constant S_ .f32 0x7F800000#32
  let main_v5 : FVec F S1048576x32 .f32 := broadcastInDim S1048576x32 ![] bcast_S_S1048576x32 main_cst_0
  let main_v6 : IVec S1048576x32 1 := cmpf .olt main_v4 main_v5
  let main_c_1 : IVec S_ 1 := constantI S_ 1 1#1
  let main_v7 : IVec S_ 1 := (fun x v => Host.reduce IntOp.andi x v reducesTo_S1048576x32_S_d0_1 h_S_) main_v6 main_c_1
  let main_v8 : IVec S_ 1 := andi main_v3 main_v7
  main_v8
-- ==== Kernel.lean ====
abbrev S1048576x32 : Shape := ⟨2, ![1048576, 32]⟩
abbrev S10 : Shape := ⟨1, ![10]⟩
abbrev S1x10 : Shape := ⟨2, ![1, 10]⟩
abbrev S16384x32 : Shape := ⟨2, ![16384, 32]⟩
abbrev S16384 : Shape := ⟨1, ![16384]⟩
abbrev S16384x1 : Shape := ⟨2, ![16384, 1]⟩
abbrev S16384x10 : Shape := ⟨2, ![16384, 10]⟩
abbrev S_ : Shape := ⟨0, ![]⟩
abbrev S1x1 : Shape := ⟨2, ![1, 1]⟩
abbrev S1 : Shape := ⟨1, ![1]⟩

abbrev nBuf : Space → Nat
  | .hbm => 42
  | .vmem => 13
  | .smem => 0
  | _ => 0

abbrev bufTy : (tb : Table) → Fin (tcTables nBuf tb) → BufTy
  | .hbm, ⟨0, _⟩ => ⟨S1048576x32, .f32⟩
  | .hbm, ⟨1, _⟩ => ⟨S1048576x32, .f32⟩
  | .hbm, ⟨2, _⟩ => ⟨S10, .f32⟩
  | .hbm, ⟨3, _⟩ => ⟨S1x10, .f32⟩
  | .hbm, ⟨4, _⟩ => ⟨S10, .f32⟩
  | .hbm, ⟨5, _⟩ => ⟨S_, .f32⟩
  | .hbm, ⟨6, _⟩ => ⟨S10, .f32⟩
  | .hbm, ⟨7, _⟩ => ⟨S10, .f32⟩
  | .hbm, ⟨8, _⟩ => ⟨S_, .f32⟩
  | .hbm, ⟨9, _⟩ => ⟨S10, .f32⟩
  | .hbm, ⟨10, _⟩ => ⟨S10, .i1⟩
  | .hbm, ⟨11, _⟩ => ⟨S_, .f32⟩
  | .hbm, ⟨12, _⟩ => ⟨S_, .f32⟩
  | .hbm, ⟨13, _⟩ => ⟨S10, .f32⟩
  | .hbm, ⟨14, _⟩ => ⟨S10, .f32⟩
  | .hbm, ⟨15, _⟩ => ⟨S_, .f32⟩
  | .hbm, ⟨16, _⟩ => ⟨S10, .f32⟩
  | .hbm, ⟨17, _⟩ => ⟨S10, .i1⟩
  | .hbm, ⟨18, _⟩ => ⟨S_, .f32⟩
  | .hbm, ⟨19, _⟩ => ⟨S10, .f32⟩
  | .hbm, ⟨20, _⟩ => ⟨S10, .f32⟩
  | .hbm, ⟨21, _⟩ => ⟨S10, .f32⟩
  | .hbm, ⟨22, _⟩ => ⟨S_, .f32⟩
  | .hbm, ⟨23, _⟩ => ⟨S_, .f32⟩
  | .hbm, ⟨24, _⟩ => ⟨S10, .f32⟩
  | .hbm, ⟨25, _⟩ => ⟨S10, .f32⟩
  | .hbm, ⟨26, _⟩ => ⟨S10, .f32⟩
  | .hbm, ⟨27, _⟩ => ⟨S10, .f32⟩
  | .hbm, ⟨28, _⟩ => ⟨S_, .f32⟩
  | .hbm, ⟨29, _⟩ => ⟨S_, .f32⟩
  | .hbm, ⟨30, _⟩ => ⟨S10, .f32⟩
  | .hbm, ⟨31, _⟩ => ⟨S10, .f32⟩
  | .hbm, ⟨32, _⟩ => ⟨S_, .f32⟩
  | .hbm, ⟨33, _⟩ => ⟨S10, .f32⟩
  | .hbm, ⟨34, _⟩ => ⟨S10, .i1⟩
  | .hbm, ⟨35, _⟩ => ⟨S_, .f32⟩
  | .hbm, ⟨36, _⟩ => ⟨S_, .f32⟩
  | .hbm, ⟨37, _⟩ => ⟨S10, .f32⟩
  | .hbm, ⟨38, _⟩ => ⟨S10, .f32⟩
  | .hbm, ⟨39, _⟩ => ⟨S1x10, .f32⟩
  | .hbm, ⟨40, _⟩ => ⟨S1x1, .f32⟩
  | .hbm, ⟨41, _⟩ => ⟨S_, .f32⟩
  | .local _ .vmem, ⟨0, _⟩ => ⟨S16384x32, .f32⟩
  | .local _ .vmem, ⟨1, _⟩ => ⟨S16384x32, .f32⟩
  | .local _ .vmem, ⟨2, _⟩ => ⟨S16384x32, .f32⟩
  | .local _ .vmem, ⟨3, _⟩ => ⟨S16384x32, .f32⟩
  | .local _ .vmem, ⟨4, _⟩ => ⟨S1x10, .f32⟩
  | .local _ .vmem, ⟨5, _⟩ => ⟨S1x10, .f32⟩
  | .local _ .vmem, ⟨6, _⟩ => ⟨S16384x32, .f32⟩
  | .local _ .vmem, ⟨7, _⟩ => ⟨S16384x32, .f32⟩
  | .local _ .vmem, ⟨8, _⟩ => ⟨S16384x32, .f32⟩
  | .local _ .vmem, ⟨9, _⟩ => ⟨S16384x32, .f32⟩
  | .local _ .vmem, ⟨10, _⟩ => ⟨S1x10, .f32⟩
  | .local _ .vmem, ⟨11, _⟩ => ⟨S1x1, .f32⟩
  | .local _ .vmem, ⟨12, _⟩ => ⟨S1x1, .f32⟩
  | _, _ => ⟨S1048576x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_cst_4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_5 : Ref sig .tc := ⟨.hbm, 22, rfl⟩
abbrev main_call1_v0 : Ref sig .tc := ⟨.hbm, 23, rfl⟩
abbrev main_call1_v1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_6 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_7 : Ref sig .tc := ⟨.hbm, 32, rfl⟩
abbrev main_v18 : Ref sig .tc := ⟨.hbm, 33, rfl⟩
abbrev main_v19 : Ref sig .tc := ⟨.hbm, 34, rfl⟩
abbrev main_cst_8 : Ref sig .tc := ⟨.hbm, 35, rfl⟩
abbrev main_call2_v0 : Ref sig .tc := ⟨.hbm, 36, rfl⟩
abbrev main_call2_v1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S16384x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16384x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  inb_S1x10_S1x10_0_0 : ∀ a, (![0, 0] : Fin 2 → Nat) a + S1x10.size a ≤ S1x10.size a
  h_S1x10 : 0 < S1x10.numel
  shapeCasts_S1x10_S1x10 : S1x10.ShapeCasts S1x10
  inb_S16384x32_S16384x32_0_0 : ∀ a, (![0, 0] : Fin 2 → Nat) a + S16384x32.size a ≤ S16384x32.size a
  h_S16384x32 : 0 < S16384x32.numel
  reduces_S16384x32_S16384 : S16384x32.Reduces [1] S16384
  shapeCasts_S16384_S16384x1 : S16384.ShapeCasts S16384x1
  iota_S16384x10_d1_w32 : S16384x10.Iotas .tc 32 [1]
  broadcasts_S16384x1_S16384x10 : S16384x1.Broadcasts S16384x10
  natLt_1_32 : 1 < 32
  reduces_S16384x10_S10 : S16384x10.Reduces [0] S10
  shapeCasts_S10_S1x10 : S10.ShapeCasts S1x10
  shapeCasts_S1x10_S10 : S1x10.ShapeCasts S10
  bcast_S_S10 : S_.BroadcastsInDim S10 (![] : Fin 0 → Fin S10.rank)
  reducesTo_S10_S_d0 : S10.ReducesTo [0] S_
  h_S_ : 0 < S_.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x10_S16384x10 : S1x10.Broadcasts S16384x10
  reduces_S16384x10_S16384 : S16384x10.Reduces [1] S16384
  reduces_S16384x1_S1 : S16384x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x32.size a ≤ S1048576x32.size a
  hwx0_0 : ∀ i : grid0.Coords, EltTy.bits .f32 = 32 ∨ (Rect.block (s := S1048576x32) S16384x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x32.size a ≤ S1048576x32.size a
  hwx0_1 : ∀ i : grid0.Coords, EltTy.bits .f32 = 32 ∨ (Rect.block (s := S1048576x32) S16384x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x10.size a ≤ S1x10.size a
  hwx0_2 : ∀ i : grid0.Coords, EltTy.bits .f32 = 32 ∨ (Rect.block (s := S1x10) S1x10.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16384x32.size a ≤ S1048576x32.size a
  hwx1_0 : ∀ i : grid1.Coords, EltTy.bits .f32 = 32 ∨ (Rect.block (s := S1048576x32) S16384x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16384x32.size a ≤ S1048576x32.size a
  hwx1_1 : ∀ i : grid1.Coords, EltTy.bits .f32 = 32 ∨ (Rect.block (s := S1048576x32) S16384x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x10.size a ≤ S1x10.size a
  hwx1_2 : ∀ i : grid1.Coords, EltTy.bits .f32 = 32 ∨ (Rect.block (s := S1x10) S1x10.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

abbrev win0_0 : Pipeline.Window sig grid0 :=
  Pipeline.Window.ofSpec (Memref.whole main_arg0) S16384x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x10.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S16384x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S16384x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1048576x32 : Shape := ⟨2, ![1048576, 32]⟩
abbrev S10 : Shape := ⟨1, ![10]⟩
abbrev S_ : Shape := ⟨0, ![]⟩
abbrev S1048576 : Shape := ⟨1, ![1048576]⟩
abbrev S1048576x1 : Shape := ⟨2, ![1048576, 1]⟩

abbrev nBuf : Space → Nat
  | .hbm => 96
  | .vmem => 0
  | .smem => 0
  | _ => 0

abbrev bufTy : (tb : Table) → Fin (tcTables nBuf tb) → BufTy
  | .hbm, ⟨0, _⟩ => ⟨S1048576x32, .f32⟩
  | .hbm, ⟨1, _⟩ => ⟨S1048576x32, .f32⟩
  | .hbm, ⟨2, _⟩ => ⟨S10, .f32⟩
  | .hbm, ⟨3, _⟩ => ⟨S1048576x32, .f32⟩
  | .hbm, ⟨4, _⟩ => ⟨S1048576x32, .f32⟩
  | .hbm, ⟨5, _⟩ => ⟨S_, .f32⟩
  | .hbm, ⟨6, _⟩ => ⟨S1048576, .f32⟩
  | .hbm, ⟨7, _⟩ => ⟨S_, .f32⟩
  | .hbm, ⟨8, _⟩ => ⟨S1048576, .f32⟩
  | .hbm, ⟨9, _⟩ => ⟨S1048576, .f32⟩
  | .hbm, ⟨10, _⟩ => ⟨S_, .f32⟩
  | .hbm, ⟨11, _⟩ => ⟨S1048576, .f32⟩
  | .hbm, ⟨12, _⟩ => ⟨S1048576, .f32⟩
  | .hbm, ⟨13, _⟩ => ⟨S1048576, .f32⟩
  | .hbm, ⟨14, _⟩ => ⟨S1048576, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S1048576, .i32⟩
  | .hbm, ⟨19, _⟩ => ⟨S1048576, .i32⟩
  | .hbm, ⟨20, _⟩ => ⟨S_, .i32⟩
  | .hbm, ⟨21, _⟩ => ⟨S1048576, .i32⟩
  | .hbm, ⟨22, _⟩ => ⟨S1048576, .i32⟩
  | .hbm, ⟨23, _⟩ => ⟨S_, .f32⟩
  | .hbm, ⟨24, _⟩ => ⟨S10, .f32⟩
  | .hbm, ⟨25, _⟩ => ⟨S_, .i32⟩
  | .hbm, ⟨26, _⟩ => ⟨S1048576, .i32⟩
  | .hbm, ⟨27, _⟩ => ⟨S1048576, .i1⟩
  | .hbm, ⟨28, _⟩ => ⟨S_, .i32⟩
  | .hbm, ⟨29, _⟩ => ⟨S1048576, .i32⟩
  | .hbm, ⟨30, _⟩ => ⟨S1048576, .i32⟩
  | .hbm, ⟨31, _⟩ => ⟨S1048576, .i32⟩
  | .hbm, ⟨32, _⟩ => ⟨S1048576x1, .i32⟩
  | .hbm, ⟨33, _⟩ => ⟨S_, .f32⟩
  | .hbm, ⟨34, _⟩ => ⟨S1048576, .f32⟩
  | .hbm, ⟨35, _⟩ => ⟨S10, .f32⟩
  | .hbm, ⟨36, _⟩ => ⟨S_, .f32⟩
  | .hbm, ⟨37, _⟩ => ⟨S10, .f32⟩
  | .hbm, ⟨38, _⟩ => ⟨S10, .f32⟩
  | .hbm, ⟨39, _⟩ => ⟨S_, .f32⟩
  | .hbm, ⟨40, _⟩ => ⟨S10, .f32⟩
  | .hbm, ⟨41, _⟩ => ⟨S10, .i1⟩
  | .hbm, ⟨42, _⟩ => ⟨S_, .f32⟩
  | .hbm, ⟨43, _⟩ => ⟨S_, .f32⟩
  | .hbm, ⟨44, _⟩ => ⟨S10, .f32⟩
  | .hbm, ⟨45, _⟩ => ⟨S10, .f32⟩
  | .hbm, ⟨46, _⟩ => ⟨S_, .f32⟩
  | .hbm, ⟨47, _⟩ => ⟨S10, .f32⟩
  | .hbm, ⟨48, _⟩ => ⟨S10, .i1⟩
  | .hbm, ⟨49, _⟩ => ⟨S_, .f32⟩
  | .hbm, ⟨50, _⟩ => ⟨S10, .f32⟩
  | .hbm, ⟨51, _⟩ => ⟨S10, .f32⟩
  | .hbm, ⟨52, _⟩ => ⟨S10, .f32⟩
  | .hbm, ⟨53, _⟩ => ⟨S_, .f32⟩
  | .hbm, ⟨54, _⟩ => ⟨S_, .f32⟩
  | .hbm, ⟨55, _⟩ => ⟨S10, .f32⟩
  | .hbm, ⟨56, _⟩ => ⟨S10, .f32⟩
  | .hbm, ⟨57, _⟩ => ⟨S_, .i32⟩
  | .hbm, ⟨58, _⟩ => ⟨S1048576, .i32⟩
  | .hbm, ⟨59, _⟩ => ⟨S1048576, .i1⟩
  | .hbm, ⟨60, _⟩ => ⟨S_, .i32⟩
  | .hbm, ⟨61, _⟩ => ⟨S1048576, .i32⟩
  | .hbm, ⟨62, _⟩ => ⟨S1048576, .i32⟩
  | .hbm, ⟨63, _⟩ => ⟨S1048576, .i32⟩
  | .hbm, ⟨64, _⟩ => ⟨S1048576x1, .i32⟩
  | .hbm, ⟨65, _⟩ => ⟨S1048576, .f32⟩
  | .hbm, ⟨66, _⟩ => ⟨S1048576, .f32⟩
  | .hbm, ⟨67, _⟩ => ⟨S_, .f32⟩
  | .hbm, ⟨68, _⟩ => ⟨S_, .f32⟩
  | .hbm, ⟨69, _⟩ => ⟨S1048576, .f32⟩
  | .hbm, ⟨70, _⟩ => ⟨S1048576, .f32⟩
  | .hbm, ⟨71, _⟩ => ⟨S_, .f32⟩
  | .hbm, ⟨72, _⟩ => ⟨S1048576, .f32⟩
  | .hbm, ⟨73, _⟩ => ⟨S1048576, .i1⟩
  | .hbm, ⟨74, _⟩ => ⟨S_, .f32⟩
  | .hbm, ⟨75, _⟩ => ⟨S_, .f32⟩
  | .hbm, ⟨76, _⟩ => ⟨S1048576, .f32⟩
  | .hbm, ⟨77, _⟩ => ⟨S1048576, .f32⟩
  | .hbm, ⟨78, _⟩ => ⟨S1048576x32, .f32⟩
  | .hbm, ⟨79, _⟩ => ⟨S1048576x32, .f32⟩
  | .hbm, ⟨80, _⟩ => ⟨S_, .f32⟩
  | .hbm, ⟨81, _⟩ => ⟨S1048576x32, .f32⟩
  | .hbm, ⟨82, _⟩ => ⟨S1048576x32, .f32⟩
  | .hbm, ⟨83, _⟩ => ⟨S1048576x32, .f32⟩
  | .hbm, ⟨84, _⟩ => ⟨S1048576x32, .f32⟩
  | .hbm, ⟨85, _⟩ => ⟨S1048576x32, .f32⟩
  | .hbm, ⟨86, _⟩ => ⟨S1048576x32, .f32⟩
  | .hbm, ⟨87, _⟩ => ⟨S1048576x32, .f32⟩
  | .hbm, ⟨88, _⟩ => ⟨S_, .f32⟩
  | .hbm, ⟨89, _⟩ => ⟨S1048576, .f32⟩
  | .hbm, ⟨90, _⟩ => ⟨S_, .f32⟩
  | .hbm, ⟨91, _⟩ => ⟨S1048576, .f32⟩
  | .hbm, ⟨92, _⟩ => ⟨S1048576, .f32⟩
  | .hbm, ⟨93, _⟩ => ⟨S1048576, .f32⟩
  | .hbm, ⟨94, _⟩ => ⟨S_, .f32⟩
  | .hbm, ⟨95, _⟩ => ⟨S_, .f32⟩
  | _, _ => ⟨S1048576x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_c_3 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v9 : Ref sig .tc := ⟨.hbm, 22, rfl⟩
abbrev main_cst_4 : Ref sig .tc := ⟨.hbm, 23, rfl⟩
abbrev main_v10 : Ref sig .tc := ⟨.hbm, 24, rfl⟩
abbrev main_c_5 : Ref sig .tc := ⟨.hbm, 25, rfl⟩
abbrev main_v11 : Ref sig .tc := ⟨.hbm, 26, rfl⟩
abbrev main_v12 : Ref sig .tc := ⟨.hbm, 27, rfl⟩
abbrev main_c_6 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_7 : Ref sig .tc := ⟨.hbm, 33, rfl⟩
abbrev main_v17 : Ref sig .tc := ⟨.hbm, 34, rfl⟩
abbrev main_v18 : Ref sig .tc := ⟨.hbm, 35, rfl⟩
abbrev main_cst_8 : Ref sig .tc := ⟨.hbm, 36, rfl⟩
abbrev main_v19 : Ref sig .tc := ⟨.hbm, 37, rfl⟩
abbrev main_v20 : Ref sig .tc := ⟨.hbm, 38, rfl⟩
abbrev main_cst_9 : Ref sig .tc := ⟨.hbm, 39, rfl⟩
abbrev main_v21 : Ref sig .tc := ⟨.hbm, 40, rfl⟩
abbrev main_v22 : Ref sig .tc := ⟨.hbm, 41, rfl⟩
abbrev main_cst_10 : Ref sig .tc := ⟨.hbm, 42, rfl⟩
abbrev main_call1_v0 : Ref sig .tc := ⟨.hbm, 43, rfl⟩
abbrev main_call1_v1 : Ref sig .tc := ⟨.hbm, 44, rfl⟩
abbrev main_v23 : Ref sig .tc := ⟨.hbm, 45, rfl⟩
abbrev main_cst_11 : Ref sig .tc := ⟨.hbm, 46, rfl⟩
abbrev main_v24 : Ref sig .tc := ⟨.hbm, 47, rfl⟩
abbrev main_v25 : Ref sig .tc := ⟨.hbm, 48, rfl⟩
abbrev main_cst_12 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_13 : Ref sig .tc := ⟨.hbm, 53, rfl⟩
abbrev main_call2_v0 : Ref sig .tc := ⟨.hbm, 54, rfl⟩
abbrev main_call2_v1 : Ref sig .tc := ⟨.hbm, 55, rfl⟩
abbrev main_v29 : Ref sig .tc := ⟨.hbm, 56, rfl⟩
abbrev main_c_14 : Ref sig .tc := ⟨.hbm, 57, rfl⟩
abbrev main_v30 : Ref sig .tc := ⟨.hbm, 58, rfl⟩
abbrev main_v31 : Ref sig .tc := ⟨.hbm, 59, rfl⟩
abbrev main_c_15 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_16 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_17 : Ref sig .tc := ⟨.hbm, 71, rfl⟩
abbrev main_v41 : Ref sig .tc := ⟨.hbm, 72, rfl⟩
abbrev main_v42 : Ref sig .tc := ⟨.hbm, 73, rfl⟩
abbrev main_cst_18 : Ref sig .tc := ⟨.hbm, 74, rfl⟩
abbrev main_call3_v0 : Ref sig .tc := ⟨.hbm, 75, rfl⟩
abbrev main_call3_v1 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_19 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_20 : Ref sig .tc := ⟨.hbm, 88, rfl⟩
abbrev main_v53 : Ref sig .tc := ⟨.hbm, 89, rfl⟩
abbrev main_cst_21 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_22 : Ref sig .tc := ⟨.hbm, 94, rfl⟩
abbrev main_v57 : Ref sig .tc := ⟨.hbm, 95, rfl⟩

abbrev nD : Nat := 1
abbrev τ : Topo := Topo.v7x

variable {F : FTy → Type} [FloatOps F]

class Facts₀ : Prop where
  reducesTo_S1048576x32_S1048576_d1 : S1048576x32.ReducesTo [1] S1048576
  h_S_ : 0 < S_.numel
  bcast_S_S1048576 : S_.BroadcastsInDim S1048576 (![] : Fin 0 → Fin S1048576.rank)
  bcast_S_S10 : S_.BroadcastsInDim S10 (![] : Fin 0 → Fin S10.rank)
  bcast_S1048576_S1048576x1_0 : S1048576.BroadcastsInDim S1048576x1 (![0] : Fin 1 → Fin S1048576x1.rank)
  reducesTo_S1048576_S_d0 : S1048576.ReducesTo [0] S_
  bcast_S_S1048576x32 : S_.BroadcastsInDim S1048576x32 (![] : Fin 0 → Fin S1048576x32.rank)
  scatter_S10_S1048576x1_S1048576_n_0_0_1_wf : ScatterDims.WF S10 S1048576x1 S1048576 [] [0] [0] 1
  gather_S10_S1048576x1_S1048576_n_0_n_n_0_1_1_wf : GatherDims.WF S10 S1048576x1 S1048576 [] [0] [] [0] [] 1 ![1]

variable [Facts₀]

def scatter_S10_S1048576x1_S1048576_n_0_0_1 : ScatterDims S10 S1048576x1 S1048576 where
  updateWindowDims := []
  insertedWindowDims := [0]
  scatterDimsToOperandDims := [0]
  indexVectorDim := 1
  wf := scatter_S10_S1048576x1_S1048576_n_0_0_1_wf
def gather_S10_S1048576x1_S1048576_n_0_n_n_0_1_1 : GatherDims S10 S1048576x1 S1048576 where
  offsetDims := []
  collapsedSliceDims := [0]
  operandBatchingDims := []
  startIndicesBatchingDims := []
  startIndexMap := [0]
  indexVectorDim := 1
  sliceSizes := ![1]
  wf := gather_S10_S1048576x1_S1048576_n_0_n_n_0_1_1_wf

class Facts : Prop extends Facts₀ where

variable [Facts]
-- ==== Proof.KbShared.lean ====
/-
  What the two kernels' runs are stated over: the windows' blocks, the first-tile test, the staging and scratch memrefs.
-/
import proofs.«135723_j46686294508030_2_alg».proof.Proof.Gen.Kernel.Launch
import proofs.«135723_j46686294508030_2_alg».proof.Proof.Gen.Kernel.Skeleton
import proofs.«135723_j46686294508030_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Both kernels walk the 64 row tiles in order. Each keeps a running total in a scratch buffer of its own: the body
    clears it at the first tile (the one conditional, on the grid coordinate being zero), adds the tile's contribution,
    and copies the total into the output's staging buffer, which the pipeline writes back after the last tile. What
    follows names the pieces both bodies' runs are stated over. -/

section Blocks
variable (V : (c : Dev nD) → (b : Ref sig .tc) → Buf (Elt F) ((c : Thread nD τ).loc b))

/-- Window `w`'s block of the histogram kernel at tile `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every tile. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Window `w`'s block of the loss kernel at tile `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The weight table's window is fetched once, at the first tile; its block index never moves, so its buffer holds the
    table at every tile. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The bodies' one conditional: "this is the first tile" -/

abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val % 64 = 0 :=
  (by decide +kernel : ∀ t : Fin grid0.N, cond0 (grid0.coords t) ↔ t.val % 64 = 0)
abbrev cond1 (i : grid1.Coords) : Prop := (Scalar.cmpi .ne (Scalar.extui (Scalar.cmpi .eq (BitVec.ofNat 32 (i 0).val) 0#32)) 0#32) = 1#1
theorem hcond1 : ∀ t : Fin cfg1.N, cond1 (grid1.coords t) ↔ t.val % 64 = 0 :=
  (by decide +kernel : ∀ t : Fin grid1.N, cond1 (grid1.coords t) ↔ t.val % 64 = 0)

/-! ## The staging and scratch memrefs -/

abbrev ms0_0 (t : Fin cfg0.N) : Memref sig .tc .vmem S16384x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16384x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x10 .f32 := win0_2.stage (cfg0.slots t 2)
abbrev hs0_2 (t : Fin cfg0.N) : (ms0_2 t).IsWhole := hstage0_2 ((cfg0.slots t 2).cast nbuf0_2)
/-- The histogram kernel's running total. -/
abbrev scM0 : Memref sig .tc .vmem S1x10 .f32 := Memref.whole cc0_scratch0
abbrev VS0 : View sig .tc .vmem S1x10 .f32 := scM0.view
abbrev VO0 : View sig .tc .vmem S1x10 .f32 := (Memref.whole cc0_stg2_0 : Memref sig .tc .vmem S1x10 .f32).view

abbrev ms1_0 (t : Fin cfg1.N) : Memref sig .tc .vmem S16384x32 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x10 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
/-- The loss kernel's running total. -/
abbrev scM1 : Memref sig .tc .vmem S1x1 .f32 := Memref.whole cc1_scratch0
abbrev VS1 : View sig .tc .vmem S1x1 .f32 := scM1.view
abbrev VO1 : View sig .tc .vmem S1x1 .f32 := (Memref.whole cc1_stg3_0 : Memref sig .tc .vmem S1x1 .f32).view

/-! ## What a region's body may use besides its windows -/

/-- The core's scoped buffers that are neither a staging buffer nor the scratch of the histogram kernel, each at
    some contents. -/
def other0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_scratch0), ((c : Thread nD τ).loc cc1_scratch0) ↦{fullShare} f))
/-- The same for the loss kernel. -/
def other1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f))

theorem PhiA0_eq (c : Dev nD) :
    (Pipeline.ΦA spec0 c : sProp 𝕄) = iprop(((∃ d, owns (c : Thread nD τ) scM0 fullShare d) ∗ other0 c) ∗ (∃ r, prngReg c r)) := by
  unfold Pipeline.ΦA other0; rw [scopedRest0_eq]; simp only [scM0, owns_whole]; rfl

/-- The loss kernel's scoped rest with its scratch, last in the list, at `S`. -/
def chain1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ S)

theorem PhiA1_eq (c : Dev nD) :
    (Pipeline.ΦA spec1 c : sProp 𝕄) = iprop(chain1 c iprop(∃ d, owns (c : Thread nD τ) scM1 fullShare d) ∗ (∃ r, prngReg c r)) := by
  unfold Pipeline.ΦA chain1; rw [scopedRest1_eq]; simp only [scM1, owns_whole]; rfl

theorem chain1_split (c : Dev nD) (S : sProp 𝕄) : chain1 c S ⊢ iprop(other1 c ∗ S) := by
  unfold chain1 other1
  iintro ⟨H1, H2, H3, H4, H5, H6, HS⟩
  isplitr [HS]
  · isplitl [H1]; · iexact H1
    isplitl [H2]; · iexact H2
    isplitl [H3]; · iexact H3
    isplitl [H4]; · iexact H4
    isplitl [H5]; · iexact H5
    iexact H6
  · iexact HS

theorem chain1_join (c : Dev nD) (S : sProp 𝕄) : iprop(other1 c ∗ S) ⊢ chain1 c S := by
  unfold chain1 other1
  iintro ⟨⟨H1, H2, H3, H4, H5, H6⟩, HS⟩
  isplitl [H1]; · iexact H1
  isplitl [H2]; · iexact H2
  isplitl [H3]; · iexact H3
  isplitl [H4]; · iexact H4
  isplitl [H5]; · iexact H5
  isplitl [H6]; · iexact H6
  iexact HS

end Cert.Kernel.Fr

end
-- ==== Proof.KbRun0A.lean ====
/-
  The histogram kernel's body at the first tile: it clears its running total, adds the tile's counts and copies the
  total to the output's staging buffer. Stated on any whole staging memrefs; the stores it ends with are found by the run.
-/
import proofs.«135723_j46686294508030_2_alg».proof.Proof.KbShared
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first tile (the conditional taken) the body, given the two input blocks `x0`, `x1` and the output's buffer
    and the scratch at anything, runs to the end leaving the inputs as they were and the pieces `L2` (output) and
    `LS` (scratch) written. -/
noncomputable def kernelRun0_A (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc : cond0 i)
    (x0 : Vec F S16384x32 .f32) (x1 : Vec F S16384x32 .f32) :
    Σ' (L2 : List (View.Piece (Elt F) S1x10 .f32)), { LS : List (View.Piece (Elt F) S1x10 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS)) -∗ K ⟨⟩))
          ⊢ wp frame (wpE (defs₀ (F := F)) Variants.none c none) E (cc0__hist_kernel i arg1 harg1 arg2 harg2 arg3 harg3 arg4 harg4) K } := by
  refine ⟨?_, ?_, fun E K => ?run⟩
  case run =>
    simp only [cc0__hist_kernel_eq_skeleton]; unfold cc0__hist_kernel_skel
    unfold owns
    iintro ⟨⟨%f0, %hf0, H0⟩, ⟨%f1, %hf1, H1⟩, ⟨%d2, %f2, -, H2⟩, ⟨%ds, %fs, -, HS⟩, Hk⟩
    obtain rfl := harg1.eq_unread hf0; obtain rfl := harg2.eq_unread hf1
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS

end Cert.Kernel.Fr

end
-- ==== Proof.KbRun0B.lean ====
/-
  The histogram kernel's body at a later tile: the running total is what the tile before left.
-/
import proofs.«135723_j46686294508030_2_alg».proof.Proof.KbRun0A
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a later tile (the conditional not taken) the body, given the input blocks and the scratch at `xs`, runs to the end
    leaving the inputs as they were and the pieces `L2` (output) and `LS` (scratch) written. -/
noncomputable def kernelRun0_B (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc : ¬cond0 i)
    (x0 : Vec F S16384x32 .f32) (x1 : Vec F S16384x32 .f32) (xs : Vec F S1x10 .f32) :
    Σ' (L2 : List (View.Piece (Elt F) S1x10 .f32)), { LS : List (View.Piece (Elt F) S1x10 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS)) -∗ K ⟨⟩))
          ⊢ wp frame (wpE (defs₀ (F := F)) Variants.none c none) E (cc0__hist_kernel i arg1 harg1 arg2 harg2 arg3 harg3 arg4 harg4) K } := by
  refine ⟨?_, ?_, fun E K => ?run⟩
  case run =>
    simp only [cc0__hist_kernel_eq_skeleton]; unfold cc0__hist_kernel_skel
    unfold owns
    iintro ⟨⟨%f0, %hf0, H0⟩, ⟨%f1, %hf1, H1⟩, ⟨%d2, %f2, -, H2⟩, ⟨%fs, %hfs, HS⟩, Hk⟩
    obtain rfl := harg1.eq_unread hf0; obtain rfl := harg2.eq_unread hf1; obtain rfl := harg4.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS

end Cert.Kernel.Fr

end
-- ==== Proof.KbRun1A.lean ====
/-
  The loss kernel's body at the first tile: it clears its running total, adds the tile's weighted loss and copies the total to the output's staging buffer.
-/
import proofs.«135723_j46686294508030_2_alg».proof.Proof.KbRun0B
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first tile (the conditional taken) the body, given the two input blocks `x0`, `x1`, the weight table `x2` and the
    output's buffer at anything, runs to the end leaving the inputs as they were and the pieces `L3` (output) and `LS` (scratch) written. -/
noncomputable def kernelRun1_A (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc : cond1 i)
    (x0 : Vec F S16384x32 .f32) (x1 : Vec F S16384x32 .f32) (x2 : Vec F S1x10 .f32) :
    Σ' (L3 : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS)) -∗ K ⟨⟩))
          ⊢ wp frame (wpE (defs₀ (F := F)) Variants.none c none) E (cc1__loss_kernel i arg1 harg1 arg2 harg2 arg3 harg3 arg4 harg4 arg5 harg5) K } := by
  refine ⟨?_, ?_, fun E K => ?run⟩
  case run =>
    simp only [cc1__loss_kernel_eq_skeleton]; unfold cc1__loss_kernel_skel
    simp only [k1_part1_eq_skeleton]
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg1.eq_unread hf0; obtain rfl := harg2.eq_unread hf1; obtain rfl := harg3.eq_unread hf2
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS

end Cert.Kernel.Fr

end
-- ==== Proof.KbRun1B.lean ====
/-
  The loss kernel's body at a later tile: the running total is what the tile before left.
-/
import proofs.«135723_j46686294508030_2_alg».proof.Proof.KbRun1A
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a later tile (the conditional not taken) the body, given the two input blocks `x0`, `x1`, the weight table `x2`, the scratch at `xs` and the
    output's buffer at anything, runs to the end leaving the inputs as they were and the pieces `L3` (output) and `LS` (scratch) written. -/
noncomputable def kernelRun1_B (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc : ¬cond1 i)
    (x0 : Vec F S16384x32 .f32) (x1 : Vec F S16384x32 .f32) (x2 : Vec F S1x10 .f32) (xs : Vec F S1x1 .f32) :
    Σ' (L3 : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS)) -∗ K ⟨⟩))
          ⊢ wp frame (wpE (defs₀ (F := F)) Variants.none c none) E (cc1__loss_kernel i arg1 harg1 arg2 harg2 arg3 harg3 arg4 harg4 arg5 harg5) K } := by
  refine ⟨?_, ?_, fun E K => ?run⟩
  case run =>
    simp only [cc1__loss_kernel_eq_skeleton]; unfold cc1__loss_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg1.eq_unread hf0; obtain rfl := harg2.eq_unread hf1; obtain rfl := harg3.eq_unread hf2; obtain rfl := harg5.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS

end Cert.Kernel.Fr

end
-- ==== Proof.KbRegion0.lean ====
/-
  The histogram kernel as one region of the program: what its output's staging buffer and its running total hold after
  each tile, the invariant that carries the running total from tile to tile, and the body's obligation at every tile.
-/
import proofs.«135723_j46686294508030_2_alg».proof.Proof.KbRun1B
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## What each case leaves (its stores read back) -/

theorem cover0_A (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc : cond0 i) (x0 x1 : Vec F S16384x32 .f32) (y : S1x10.Idx) :
    ∃ pc ∈ (kernelRun0_A c i arg1 harg1 arg2 harg2 arg3 harg3 arg4 harg4 hc x0 x1).1, y ∈ pc.1.set :=
  View.cover_of_tiledL (kernelRun0_A c i arg1 harg1 arg2 harg2 arg3 harg3 arg4 harg4 hc x0 x1).1 S1x10.size (by sl_kernel_rfl) y
theorem scover0_A (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc : cond0 i) (x0 x1 : Vec F S16384x32 .f32) (y : S1x10.Idx) :
    ∃ pc ∈ (kernelRun0_A c i arg1 harg1 arg2 harg2 arg3 harg3 arg4 harg4 hc x0 x1).2.1, y ∈ pc.1.set :=
  View.cover_of_tiledL (kernelRun0_A c i arg1 harg1 arg2 harg2 arg3 harg3 arg4 harg4 hc x0 x1).2.1 S1x10.size (by sl_kernel_rfl) y
/-- The output's staging buffer and the running total after the first tile. -/
def out0_A (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc : cond0 i) (x0 x1 : Vec F S16384x32 .f32) : Vec F S1x10 .f32 :=
  VO0.read (Elt F) (VO0.writes (Elt F) VO0.junk (kernelRun0_A c i arg1 harg1 arg2 harg2 arg3 harg3 arg4 harg4 hc x0 x1).1)
def sout0_A (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc : cond0 i) (x0 x1 : Vec F S16384x32 .f32) : Vec F S1x10 .f32 :=
  VS0.read (Elt F) (VS0.writes (Elt F) VS0.junk (kernelRun0_A c i arg1 harg1 arg2 harg2 arg3 harg3 arg4 harg4 hc x0 x1).2.1)

theorem cover0_B (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc : ¬cond0 i) (x0 x1 : Vec F S16384x32 .f32) (xs : Vec F S1x10 .f32) (y : S1x10.Idx) :
    ∃ pc ∈ (kernelRun0_B c i arg1 harg1 arg2 harg2 arg3 harg3 arg4 harg4 hc x0 x1 xs).1, y ∈ pc.1.set :=
  View.cover_of_tiledL (kernelRun0_B c i arg1 harg1 arg2 harg2 arg3 harg3 arg4 harg4 hc x0 x1 xs).1 S1x10.size (by sl_kernel_rfl) y
theorem scover0_B (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc : ¬cond0 i) (x0 x1 : Vec F S16384x32 .f32) (xs : Vec F S1x10 .f32) (y : S1x10.Idx) :
    ∃ pc ∈ (kernelRun0_B c i arg1 harg1 arg2 harg2 arg3 harg3 arg4 harg4 hc x0 x1 xs).2.1, y ∈ pc.1.set :=
  View.cover_of_tiledL (kernelRun0_B c i arg1 harg1 arg2 harg2 arg3 harg3 arg4 harg4 hc x0 x1 xs).2.1 S1x10.size (by sl_kernel_rfl) y
/-- The same after a later tile, from the running total `xs` the tile before left. -/
def out0_B (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc : ¬cond0 i) (x0 x1 : Vec F S16384x32 .f32) (xs : Vec F S1x10 .f32) : Vec F S1x10 .f32 :=
  VO0.read (Elt F) (VO0.writes (Elt F) VO0.junk (kernelRun0_B c i arg1 harg1 arg2 harg2 arg3 harg3 arg4 harg4 hc x0 x1 xs).1)
def sout0_B (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc : ¬cond0 i) (x0 x1 : Vec F S16384x32 .f32) (xs : Vec F S1x10 .f32) : Vec F S1x10 .f32 :=
  VS0.read (Elt F) (VS0.writes (Elt F) VS0.junk (kernelRun0_B c i arg1 harg1 arg2 harg2 arg3 harg3 arg4 harg4 hc x0 x1 xs).2.1)

/-- Only tile 0 is a first tile. -/
theorem cond0_zero (t : Fin cfg0.N) (hz : t.val = 0) : cond0 (grid0.coords t) := (hcond0 t).mpr (by rw [hz])
theorem cond0_pos (t : Fin cfg0.N) (hz : t.val ≠ 0) : ¬cond0 (grid0.coords t) := fun h => by
  have h1 := (hcond0 t).mp h
  have hN : t.val < 64 := lt_of_lt_of_eq t.isLt (show cfg0.N = 64 from N_0)
  omega

/-! ## After each tile -/

/-- The output's staging buffer and the running total after tile `n`: tile 0 starts from a cleared total, tile `n + 1`
    from what tile `n` left. -/
def outsAt0 (c : Dev nD) : (n : ℕ) → n < cfg0.N → Vec F S1x10 .f32 × Vec F S1x10 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) (cond0_zero ⟨0, hn⟩ rfl) (iblk0 V c 0 ⟨0, hn⟩) (iblk0 V c 1 ⟨0, hn⟩),
              sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) (cond0_zero ⟨0, hn⟩ rfl) (iblk0 V c 0 ⟨0, hn⟩) (iblk0 V c 1 ⟨0, hn⟩))
  | n + 1, hn => (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (cond0_pos ⟨n + 1, hn⟩ (Nat.succ_ne_zero n)) (iblk0 V c 0 ⟨n + 1, hn⟩) (iblk0 V c 1 ⟨n + 1, hn⟩) (outsAt0 c n (Nat.lt_of_succ_lt hn)).2,
                  sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (cond0_pos ⟨n + 1, hn⟩ (Nat.succ_ne_zero n)) (iblk0 V c 0 ⟨n + 1, hn⟩) (iblk0 V c 1 ⟨n + 1, hn⟩) (outsAt0 c n (Nat.lt_of_succ_lt hn)).2)

theorem outsAt0_A (c : Dev nD) (t : Fin cfg0.N) (hz : t.val = 0) :
    outsAt0 V c t.val t.isLt = (out0_A c (grid0.coords t) (ms0_0 t) (hs0_0 t) (ms0_1 t) (hs0_1 t) (ms0_2 t) (hs0_2 t) scM0 (Memref.isWhole_whole _) (cond0_zero t hz) (iblk0 V c 0 t) (iblk0 V c 1 t),
      sout0_A c (grid0.coords t) (ms0_0 t) (hs0_0 t) (ms0_1 t) (hs0_1 t) (ms0_2 t) (hs0_2 t) scM0 (Memref.isWhole_whole _) (cond0_zero t hz) (iblk0 V c 0 t) (iblk0 V c 1 t)) := by
  obtain ⟨n, hn⟩ := t
  cases n with
  | zero => exact rfl
  | succ n => exact absurd hz (Nat.succ_ne_zero n)

theorem outsAt0_B (c : Dev nD) (t : Fin cfg0.N) (hz : t.val ≠ 0) :
    outsAt0 V c t.val t.isLt = (out0_B c (grid0.coords t) (ms0_0 t) (hs0_0 t) (ms0_1 t) (hs0_1 t) (ms0_2 t) (hs0_2 t) scM0 (Memref.isWhole_whole _) (cond0_pos t hz) (iblk0 V c 0 t) (iblk0 V c 1 t) (outsAt0 V c (t.val - 1) (Nat.lt_of_le_of_lt (Nat.sub_le _ _) t.isLt)).2,
      sout0_B c (grid0.coords t) (ms0_0 t) (hs0_0 t) (ms0_1 t) (hs0_1 t) (ms0_2 t) (hs0_2 t) scM0 (Memref.isWhole_whole _) (cond0_pos t hz) (iblk0 V c 0 t) (iblk0 V c 1 t) (outsAt0 V c (t.val - 1) (Nat.lt_of_le_of_lt (Nat.sub_le _ _) t.isLt)).2) := by
  obtain ⟨n, hn⟩ := t
  cases n with
  | zero => exact absurd rfl hz
  | succ n => exact rfl

/-- The invariant before tile `n`: before the first, the scoped buffers at anything; afterwards the running total at
    what the tile before left, the other scoped buffers at anything. -/
def PhiS0 (c : Dev nD) : (n : ℕ) → n ≤ cfg0.N → sProp 𝕄
  | 0, _ => Pipeline.ΦA spec0 c
  | n + 1, hn => iprop((owns (c : Thread nD τ) scM0 fullShare ((outsAt0 V c n hn).2) ∗ other0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare ((outsAt0 V c n hn).2) ∗ other0 c) ∗ (∃ r, prngReg c r)) := rfl
theorem PhiS0_pos (c : Dev nD) (n : ℕ) (h : n ≤ cfg0.N) (hz : n ≠ 0) :
    PhiS0 V c n h = iprop((owns (c : Thread nD τ) scM0 fullShare ((outsAt0 V c (n - 1) (by omega)).2) ∗ other0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 4800000 in
/-- The body at any tile: the inputs' buffers hold their blocks; at tile 0 the invariant hands over the scratch at
    anything, afterwards at what the tile before left; the run of the tile's case applies, and the scratch and the output's
    buffer come back at this tile's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2]
  by_cases hz : t.val = 0
  · rw [outsAt0_A V c t hz]
    unfold out0_A sout0_A; (try dsimp only)
    rw [PhiS0_castSucc V c t, PhiS0_zero V c _ _ hz, PhiA0_eq]
    iintro ⟨⟨⟨HS, Hoth⟩, Hg⟩, Ho, ⟨%d0, H0⟩, ⟨%d1, H1⟩, ⟨%d2, H2⟩⟩
    iapply ((kernelRun0_A c (grid0.coords t) _ _ _ _ _ _ _ _ (cond0_zero t hz) (iblk0 V c 0 t) (iblk0 V c 1 t)).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hoth Hg]
    · isplitl [HS Hoth]
      · isplitl [HS]
        · unfold owns; iexists _; isplitr
          swap; · iexact HS
          ipureintro; exact View.read_writes_of_cover _ _ _ _ _ (scover0_A c _ _ _ _ _ _ _ _ _ _ _ _)
        iexact Hoth
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_A c _ _ _ _ _ _ _ _ _ _ _ _)
  · rw [outsAt0_B V c t hz]
    unfold out0_B sout0_B; (try dsimp only)
    rw [PhiS0_castSucc V c t, PhiS0_pos V c _ _ hz]
    iintro ⟨⟨⟨HS, Hoth⟩, Hg⟩, Ho, ⟨%d0, H0⟩, ⟨%d1, H1⟩, ⟨%d2, H2⟩⟩
    iapply ((kernelRun0_B c (grid0.coords t) _ _ _ _ _ _ _ _ (cond0_pos t hz) (iblk0 V c 0 t) (iblk0 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hoth Hg]
    · isplitl [HS Hoth]
      · isplitl [HS]
        · unfold owns; iexists _; isplitr
          swap; · iexact HS
          ipureintro; exact View.read_writes_of_cover _ _ _ _ _ (scover0_B c _ _ _ _ _ _ _ _ _ _ _ _ _)
        iexact Hoth
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B c _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-- Before the first tile the invariant is the class's; after any tile it gives the class's back. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨⟨HS, Hoth⟩, Hg⟩
  isplitl [HS Hoth]
  · isplitl [HS]; · iexists _; iexact HS
    iexact Hoth
  iexact Hg

end Region0

end Cert.Kernel.Fr

end
-- ==== Proof.KbRegion1.lean ====
/-
  The loss kernel as one region of the program: what its output's staging buffer and its running total hold after each
  tile, the invariant that carries the running total, and the body's obligation at every tile.
-/
import proofs.«135723_j46686294508030_2_alg».proof.Proof.KbRun1B
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## What each case leaves (its stores read back) -/

theorem cover1_A (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc : cond1 i) (x0 x1 : Vec F S16384x32 .f32) (x2 : Vec F S1x10 .f32) (y : S1x1.Idx) :
    ∃ pc ∈ (kernelRun1_A c i arg1 harg1 arg2 harg2 arg3 harg3 arg4 harg4 arg5 harg5 hc x0 x1 x2).1, y ∈ pc.1.set :=
  View.cover_of_tiledL (kernelRun1_A c i arg1 harg1 arg2 harg2 arg3 harg3 arg4 harg4 arg5 harg5 hc x0 x1 x2).1 S1x1.size (by sl_kernel_rfl) y
theorem scover1_A (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc : cond1 i) (x0 x1 : Vec F S16384x32 .f32) (x2 : Vec F S1x10 .f32) (y : S1x1.Idx) :
    ∃ pc ∈ (kernelRun1_A c i arg1 harg1 arg2 harg2 arg3 harg3 arg4 harg4 arg5 harg5 hc x0 x1 x2).2.1, y ∈ pc.1.set :=
  View.cover_of_tiledL (kernelRun1_A c i arg1 harg1 arg2 harg2 arg3 harg3 arg4 harg4 arg5 harg5 hc x0 x1 x2).2.1 S1x1.size (by sl_kernel_rfl) y
/-- The output's staging buffer and the running total after the first tile. -/
def out1_A (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc : cond1 i) (x0 x1 : Vec F S16384x32 .f32) (x2 : Vec F S1x10 .f32) : Vec F S1x1 .f32 :=
  VO1.read (Elt F) (VO1.writes (Elt F) VO1.junk (kernelRun1_A c i arg1 harg1 arg2 harg2 arg3 harg3 arg4 harg4 arg5 harg5 hc x0 x1 x2).1)
def sout1_A (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc : cond1 i) (x0 x1 : Vec F S16384x32 .f32) (x2 : Vec F S1x10 .f32) : Vec F S1x1 .f32 :=
  VS1.read (Elt F) (VS1.writes (Elt F) VS1.junk (kernelRun1_A c i arg1 harg1 arg2 harg2 arg3 harg3 arg4 harg4 arg5 harg5 hc x0 x1 x2).2.1)

theorem cover1_B (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc : ¬cond1 i) (x0 x1 : Vec F S16384x32 .f32) (x2 : Vec F S1x10 .f32) (xs : Vec F S1x1 .f32) (y : S1x1.Idx) :
    ∃ pc ∈ (kernelRun1_B c i arg1 harg1 arg2 harg2 arg3 harg3 arg4 harg4 arg5 harg5 hc x0 x1 x2 xs).1, y ∈ pc.1.set :=
  View.cover_of_tiledL (kernelRun1_B c i arg1 harg1 arg2 harg2 arg3 harg3 arg4 harg4 arg5 harg5 hc x0 x1 x2 xs).1 S1x1.size (by sl_kernel_rfl) y
theorem scover1_B (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc : ¬cond1 i) (x0 x1 : Vec F S16384x32 .f32) (x2 : Vec F S1x10 .f32) (xs : Vec F S1x1 .f32) (y : S1x1.Idx) :
    ∃ pc ∈ (kernelRun1_B c i arg1 harg1 arg2 harg2 arg3 harg3 arg4 harg4 arg5 harg5 hc x0 x1 x2 xs).2.1, y ∈ pc.1.set :=
  View.cover_of_tiledL (kernelRun1_B c i arg1 harg1 arg2 harg2 arg3 harg3 arg4 harg4 arg5 harg5 hc x0 x1 x2 xs).2.1 S1x1.size (by sl_kernel_rfl) y
/-- The same after a later tile, from the running total `xs` the tile before left. -/
def out1_B (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc : ¬cond1 i) (x0 x1 : Vec F S16384x32 .f32) (x2 : Vec F S1x10 .f32) (xs : Vec F S1x1 .f32) : Vec F S1x1 .f32 :=
  VO1.read (Elt F) (VO1.writes (Elt F) VO1.junk (kernelRun1_B c i arg1 harg1 arg2 harg2 arg3 harg3 arg4 harg4 arg5 harg5 hc x0 x1 x2 xs).1)
def sout1_B (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc : ¬cond1 i) (x0 x1 : Vec F S16384x32 .f32) (x2 : Vec F S1x10 .f32) (xs : Vec F S1x1 .f32) : Vec F S1x1 .f32 :=
  VS1.read (Elt F) (VS1.writes (Elt F) VS1.junk (kernelRun1_B c i arg1 harg1 arg2 harg2 arg3 harg3 arg4 harg4 arg5 harg5 hc x0 x1 x2 xs).2.1)

/-- Only tile 0 is a first tile. -/
theorem cond1_zero (t : Fin cfg1.N) (hz : t.val = 0) : cond1 (grid1.coords t) := (hcond1 t).mpr (by rw [hz])
theorem cond1_pos (t : Fin cfg1.N) (hz : t.val ≠ 0) : ¬cond1 (grid1.coords t) := fun h => by
  have h1 := (hcond1 t).mp h
  have hN : t.val < 64 := lt_of_lt_of_eq t.isLt (show cfg1.N = 64 from N_1)
  omega

/-! ## After each tile -/

def outsAt1 (c : Dev nD) : (n : ℕ) → n < cfg1.N → Vec F S1x1 .f32 × Vec F S1x1 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) (cond1_zero ⟨0, hn⟩ rfl) (iblk1 V c 0 ⟨0, hn⟩) (iblk1 V c 1 ⟨0, hn⟩) (iblk1 V c 2 ⟨0, hn⟩),
              sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) (cond1_zero ⟨0, hn⟩ rfl) (iblk1 V c 0 ⟨0, hn⟩) (iblk1 V c 1 ⟨0, hn⟩) (iblk1 V c 2 ⟨0, hn⟩))
  | n + 1, hn => (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (cond1_pos ⟨n + 1, hn⟩ (Nat.succ_ne_zero n)) (iblk1 V c 0 ⟨n + 1, hn⟩) (iblk1 V c 1 ⟨n + 1, hn⟩) (iblk1 V c 2 ⟨n + 1, hn⟩) (outsAt1 c n (Nat.lt_of_succ_lt hn)).2,
                  sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (cond1_pos ⟨n + 1, hn⟩ (Nat.succ_ne_zero n)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (hz : t.val = 0) :
    outsAt1 V c t.val t.isLt = (out1_A c (grid1.coords t) (ms1_0 t) (hs1_0 t) (ms1_1 t) (hs1_1 t) (ms1_2 t) (hs1_2 t) (ms1_3 t) (hs1_3 t) scM1 (Memref.isWhole_whole _) (cond1_zero t hz) (iblk1 V c 0 t) (iblk1 V c 1 t) (iblk1 V c 2 t),
      sout1_A c (grid1.coords t) (ms1_0 t) (hs1_0 t) (ms1_1 t) (hs1_1 t) (ms1_2 t) (hs1_2 t) (ms1_3 t) (hs1_3 t) scM1 (Memref.isWhole_whole _) (cond1_zero t hz) (iblk1 V c 0 t) (iblk1 V c 1 t) (iblk1 V c 2 t)) := by
  obtain ⟨n, hn⟩ := t
  cases n with
  | zero => exact rfl
  | succ n => exact absurd hz (Nat.succ_ne_zero n)

theorem outsAt1_B (c : Dev nD) (t : Fin cfg1.N) (hz : t.val ≠ 0) :
    outsAt1 V c t.val t.isLt = (out1_B c (grid1.coords t) (ms1_0 t) (hs1_0 t) (ms1_1 t) (hs1_1 t) (ms1_2 t) (hs1_2 t) (ms1_3 t) (hs1_3 t) scM1 (Memref.isWhole_whole _) (cond1_pos t hz) (iblk1 V c 0 t) (iblk1 V c 1 t) (iblk1 V c 2 t) (outsAt1 V c (t.val - 1) (Nat.lt_of_le_of_lt (Nat.sub_le _ _) t.isLt)).2,
      sout1_B c (grid1.coords t) (ms1_0 t) (hs1_0 t) (ms1_1 t) (hs1_1 t) (ms1_2 t) (hs1_2 t) (ms1_3 t) (hs1_3 t) scM1 (Memref.isWhole_whole _) (cond1_pos t hz) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd rfl hz
  | succ n => exact rfl

/-- The invariant before tile `n`: before the first, the scoped buffers at anything; afterwards the running total at
    what the tile before left, the other scoped buffers at anything. -/
def PhiS1 (c : Dev nD) : (n : ℕ) → n ≤ cfg1.N → sProp 𝕄
  | 0, _ => Pipeline.ΦA spec1 c
  | n + 1, hn => iprop(chain1 c (owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(chain1 c (owns (c : Thread nD τ) scM1 fullShare ((outsAt1 V c n hn).2)) ∗ (∃ r, prngReg c r)) := rfl
theorem PhiS1_pos (c : Dev nD) (n : ℕ) (h : n ≤ cfg1.N) (hz : n ≠ 0) :
    PhiS1 V c n h = iprop(chain1 c (owns (c : Thread nD τ) scM1 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body's obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3]
  by_cases hz : t.val = 0
  · rw [outsAt1_A V c t hz]
    unfold out1_A sout1_A; (try dsimp only)
    rw [PhiS1_castSucc V c t, PhiS1_zero V c _ _ hz, PhiA1_eq]
    iintro ⟨⟨Hch, Hg⟩, Ho, ⟨%d0, H0⟩, ⟨%d1, H1⟩, ⟨%d2, H2⟩, ⟨%d3, H3⟩⟩
    ihave Hsp := (chain1_split c _) $$ Hch
    icases Hsp with ⟨Hoth, HS⟩
    iapply ((kernelRun1_A c (grid1.coords t) _ _ _ _ _ _ _ _ _ _ (cond1_zero t hz) (iblk1 V c 0 t) (iblk1 V c 1 t) (iblk1 V c 2 t)).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hoth Hg]
    · isplitl [HS Hoth]
      · iapply (chain1_join c _)
        isplitl [Hoth]; · iexact Hoth
        unfold owns; iexists _; isplitr
        swap; · iexact HS
        ipureintro; exact View.read_writes_of_cover _ _ _ _ _ (scover1_A c _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A c _ _ _ _ _ _ _ _ _ _ _ _ _ _ _)
  · rw [outsAt1_B V c t hz]
    unfold out1_B sout1_B; (try dsimp only)
    rw [PhiS1_castSucc V c t, PhiS1_pos V c _ _ hz]
    iintro ⟨⟨Hch, Hg⟩, Ho, ⟨%d0, H0⟩, ⟨%d1, H1⟩, ⟨%d2, H2⟩, ⟨%d3, H3⟩⟩
    ihave Hsp := (chain1_split c _) $$ Hch
    icases Hsp with ⟨Hoth, HS⟩
    iapply ((kernelRun1_B c (grid1.coords t) _ _ _ _ _ _ _ _ _ _ (cond1_pos t hz) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hoth Hg]
    · isplitl [HS Hoth]
      · iapply (chain1_join c _)
        isplitl [Hoth]; · iexact Hoth
        unfold owns; iexists _; isplitr
        swap; · iexact HS
        ipureintro; exact View.read_writes_of_cover _ _ _ _ _ (scover1_B c _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B c _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨Hch, Hg⟩
  isplitl [Hch]
  · ihave Hsp := (chain1_split c _) $$ Hch
    icases Hsp with ⟨Hoth, HS⟩
    iapply (chain1_join c _)
    isplitl [Hoth]; · iexact Hoth
    iexists _; iexact HS
  iexact Hg

end Region1

end Cert.Kernel.Fr

end
-- ==== Proof.KbRun.lean ====
/-
  The whole program as a run: the host stretches and the two kernel regions in @main's order, each entered from what the
  one before it left. Every weakly fair execution ends, nothing faulting, with every unscoped buffer at the contents
  obtained by folding @main's items over the launch memory (`W11`).
-/
import proofs.«135723_j46686294508030_2_alg».proof.Proof.KbRegion0
import proofs.«135723_j46686294508030_2_alg».proof.Proof.KbRegion1
import proofs.«135723_j46686294508030_2_alg».proof.Proof.Gen.Kernel.Regions
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between @main's items -/

/-- Core `c`'s buffers at launch; -/
abbrev W0 : Dev nD → Valuation τ sig (Elt F) := fun c b => m (c, b)
/-- after the constant table is written (the histogram region's entry); -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- at the histogram region's exit: its arrays at what the pipeline leaves, every other buffer as entered; -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- after each stretch of the ten-entry arithmetic between the regions; -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
abbrev W7 : Dev nD → Valuation τ sig (Elt F) := fun c => StableHlo.after hostOps1_4 (W6 m c)
abbrev W8 : Dev nD → Valuation τ sig (Elt F) := fun c => StableHlo.after hostOps1_5 (W7 m c)
/-- at the loss region's entry; -/
abbrev W9 : Dev nD → Valuation τ sig (Elt F) := fun c => StableHlo.after hostOps1_6 (W8 m c)
abbrev V9 : (c : Dev nD) → (b : Ref sig .tc) → Buf (Elt F) ((c : Thread nD τ).loc b) := fun c b => W9 m c b
/-- at its exit; -/
def W10 (c : Dev nD) : Valuation τ sig (Elt F) :=
  Pipeline.withArrays spec1 c (W9 m c) fun w => (dat1 (V9 m) c).arrAt w cfg1.N
theorem W10_arr (c : Dev nD) (w : Fin cfg1.W) :
    W10 m c (Proc.devRef .tc (Pipeline.arrRef spec1 w)) = (dat1 (V9 m) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb
abbrev V10 : (c : Dev nD) → (b : Ref sig .tc) → Buf (Elt F) ((c : Thread nD τ).loc b) := fun c b => W10 m c b
theorem hF1 (c : Dev nD) (w : Fin cfg1.W) : (dat1 (V9 m) c).arrAt w cfg1.N = V10 m c (Pipeline.arrRef spec1 w) :=
  (W10_arr m c w).symm
theorem hrest1 (c : Dev nD) : ∀ b, b ∉ Finset.univ.image (Pipeline.arrRef spec1) → V10 m c b = V9 m c b :=
  fun b hb => W10_of_ne m c b fun w e => hb (Finset.mem_image.mpr ⟨w, Finset.mem_univ _, e⟩)
/-- and at the end, after the result is reshaped to a scalar. -/
abbrev W11 : Dev nD → Valuation τ sig (Elt F) := fun c => StableHlo.after hostOps2 (W10 m c)

/-! ## No item writes an argument array -/

theorem W11_arg (c : Dev nD) (r : Ref sig .tc) (h0 : r ∉ hostOps0_W) (h1 : r ∉ hostOps1_W) (h2 : r ∉ hostOps1_1_W) (h3 : r ∉ hostOps1_2_W)
    (h4 : r ∉ hostOps1_3_W) (h5 : r ∉ hostOps1_4_W) (h6 : r ∉ hostOps1_5_W) (h7 : r ∉ hostOps1_6_W) (h8 : r ∉ hostOps2_W)
    (hr0 : ∀ w, Pipeline.arrRef spec0 w ≠ r ∨ (cfg0.win w).isOut = false) (hr1 : ∀ w, Pipeline.arrRef spec1 w ≠ r ∨ (cfg1.win w).isOut = false) :
    W11 m c (Proc.devRef .tc r) = m ((c : Thread nD τ).loc r) := by
  have e11 : W11 m c (Proc.devRef .tc r) = W10 m c (Proc.devRef .tc r) := StableHlo.after_of_writes_sub hostOps2 _ hostOps2_writes h8
  have e10 : W10 m c (Proc.devRef .tc r) = W9 m c (Proc.devRef .tc r) := by
    by_cases hw : ∃ w, Pipeline.arrRef spec1 w = r
    · obtain ⟨w, rfl⟩ := hw
      have hin : (cfg1.win w).isOut = false := (hr1 w).resolve_left (fun h => h rfl)
      exact (W10_arr m c w).trans (((dat1 (V9 m) c).arrAt_in w hin _).trans (A_eq1 (V9 m) c w))
    · exact W10_of_ne m c r fun w e => hw ⟨w, e⟩
  have e9 : W9 m c (Proc.devRef .tc r) = W8 m c (Proc.devRef .tc r) := StableHlo.after_of_writes_sub hostOps1_6 _ hostOps1_6_writes h7
  have e8 : W8 m c (Proc.devRef .tc r) = W7 m c (Proc.devRef .tc r) := StableHlo.after_of_writes_sub hostOps1_5 _ hostOps1_5_writes h6
  have e7 : W7 m c (Proc.devRef .tc r) = W6 m c (Proc.devRef .tc r) := StableHlo.after_of_writes_sub hostOps1_4 _ hostOps1_4_writes h5
  have e6 : W6 m c (Proc.devRef .tc r) = W5 m c (Proc.devRef .tc r) := StableHlo.after_of_writes_sub hostOps1_3 _ hostOps1_3_writes h4
  have e5 : W5 m c (Proc.devRef .tc r) = W4 m c (Proc.devRef .tc r) := StableHlo.after_of_writes_sub hostOps1_2 _ hostOps1_2_writes h3
  have e4 : W4 m c (Proc.devRef .tc r) = W3 m c (Proc.devRef .tc r) := StableHlo.after_of_writes_sub hostOps1_1 _ hostOps1_1_writes h2
  have e3 : W3 m c (Proc.devRef .tc r) = W2 m c (Proc.devRef .tc r) := StableHlo.after_of_writes_sub hostOps1 _ hostOps1_writes h1
  have e2 : W2 m c (Proc.devRef .tc r) = W1 m c (Proc.devRef .tc r) := by
    by_cases hw : ∃ w, Pipeline.arrRef spec0 w = r
    · obtain ⟨w, rfl⟩ := hw
      have hin : (cfg0.win w).isOut = false := (hr0 w).resolve_left (fun h => h rfl)
      exact (W2_arr m c w).trans (((dat0 (V1 m) c).arrAt_in w hin _).trans (A_eq0 (V1 m) c w))
    · exact W2_of_ne m c r fun w e => hw ⟨w, e⟩
  have e1 : W1 m c (Proc.devRef .tc r) = W0 m c (Proc.devRef .tc r) := StableHlo.after_of_writes_sub hostOps0 _ hostOps0_writes h0
  exact e11.trans (e10.trans (e9.trans (e8.trans (e7.trans (e6.trans (e5.trans (e4.trans (e3.trans (e2.trans (e1.trans rfl))))))))))

theorem W11_main_arg0 (c : Dev nD) : W11 m c (Proc.devRef .tc main_arg0) = m ((c : Thread nD τ).loc main_arg0) :=
  W11_arg m c main_arg0 (by decide) (by decide) (by decide) (by decide) (by decide) (by decide) (by decide) (by decide) (by decide) (by decide) (by decide)
theorem W11_main_arg1 (c : Dev nD) : W11 m c (Proc.devRef .tc main_arg1) = m ((c : Thread nD τ).loc main_arg1) :=
  W11_arg m c main_arg1 (by decide) (by decide) (by decide) (by decide) (by decide) (by decide) (by decide) (by decide) (by decide) (by decide) (by decide)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V9 m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W11 m c) ∗ ∃ r, prngReg c r)

/-- The class's invariant is the scoped rest beside the generator register. -/
theorem PhiA_intro0 (c : Dev nD) : iprop(Pipeline.scopedRest (Ix := Unit) (Name := ℕ) (U := UR sig nD τ) (Lvl := ℕ) (Val := Elt F) spec0 c ∗ ∃ r, prngReg c r) ⊢ (Pipeline.ΦA spec0 c : sProp 𝕄) := by
  unfold Pipeline.ΦA; exact .rfl
theorem PhiA_elim0 (c : Dev nD) : (Pipeline.ΦA spec0 c : sProp 𝕄) ⊢ iprop(Pipeline.scopedRest (Ix := Unit) (Name := ℕ) (U := UR sig nD τ) (Lvl := ℕ) (Val := Elt F) spec0 c ∗ ∃ r, prngReg c r) := by
  unfold Pipeline.ΦA; exact .rfl
theorem PhiA_intro1 (c : Dev nD) : iprop(Pipeline.scopedRest (Ix := Unit) (Name := ℕ) (U := UR sig nD τ) (Lvl := ℕ) (Val := Elt F) spec1 c ∗ ∃ r, prngReg c r) ⊢ (Pipeline.ΦA spec1 c : sProp 𝕄) := by
  unfold Pipeline.ΦA; exact .rfl
theorem PhiA_elim1 (c : Dev nD) : (Pipeline.ΦA spec1 c : sProp 𝕄) ⊢ iprop(Pipeline.scopedRest (Ix := Unit) (Name := ℕ) (U := UR sig nD τ) (Lvl := ℕ) (Val := Elt F) spec1 c ∗ ∃ r, prngReg c r) := by
  unfold Pipeline.ΦA; exact .rfl

/-! ## The regions as segments -/

set_option backward.isDefEq.respectTransparency.types false in
/-- Region 0 over the thread state: entered from every unscoped buffer at the contents before it, left with its arrays at
    what the pipeline leaves and every other buffer as entered; the generator register goes into the invariant and comes
    back; nothing owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V1 m) c).Φ 0 from rfl]
    iintro ⟨Hp, -, Hr⟩
    iapply (hin0 (V1 m) c)
    iapply (PhiA_intro0 c)
    isplitl [Hr]; · iexact Hr
    iexact Hp
  hout c := by
    rw [Pipeline.ownSems0_none, show (pdats m 0 c).Φ (Fin.last _) = (dat0 (V1 m) c).Φ (Fin.last cfg0.N) from rfl]
    iintro H
    ihave H2 := (hout0 (V1 m) c) $$ H
    ihave H3 := (PhiA_elim0 c) $$ H2
    icases H3 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left with its arrays at
    what the pipeline leaves and every other buffer as entered; the generator register goes into the invariant and comes
    back; nothing owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V9 m) c).loose
  hwaits := Pipeline.hwaits_of_owed_zero _ _ _ _ L lv 1 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec1 c (V9 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V9 m) c).Φ 0 from rfl]
    iintro ⟨Hp, -, Hr⟩
    iapply (hin1 (V9 m) c)
    iapply (PhiA_intro1 c)
    isplitl [Hr]; · iexact Hr
    iexact Hp
  hout c := by
    rw [Pipeline.ownSems0_none, show (pdats m 1 c).Φ (Fin.last _) = (dat1 (V9 m) c).Φ (Fin.last cfg1.N) from rfl]
    iintro H
    ihave H2 := (hout1 (V9 m) c) $$ H
    ihave H3 := (PhiA_elim1 c) $$ H2
    icases H3 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V9 m c) (V10 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs (c : Dev nD) : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .host (hseg hostOps1_5 hostOps1_5_sub hostOps1_5_fresh (W7 m)),
    .host (hseg hostOps1_6 hostOps1_6_sub hostOps1_6_fresh (W8 m)),
    .region (reg1 m),
    .host (hseg hostOps2 hostOps2_sub hostOps2_fresh (W10 m)) ]

set_option backward.isDefEq.respectTransparency.types false in
/-- THE RUN. From any memory with zero counters every weakly fair execution of @main on the TensorCores terminates,
    nothing faulting, and the final memory holds every unscoped buffer at `W11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit_dev (pcfgs (F := F)) adm (pdats m) () cellOf_inj emb₁ defs₀ 𝒱₀ L lv m ρ main (segs m)
    (fun c Q => by
      rewrite [main_chain c, Seg.run_eq_chain,
        show (segs m c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl, .rfl, .rfl, .rfl, .rfl, by
      show iprop(StableHlo.held (c : Thread nD τ) (Pipeline.ucRefs τ sig) (W11 m c) ∗ R c) ⊢ _
      iintro ⟨Hh, Hp, Ho⟩
      isplitr [Ho]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W11_main_arg0 m c),
     (h c _ (mem_uc main_arg1 (by decide))).trans (W11_main_arg1 m c)⟩) (run_all m ρ)

end Cert.Kernel.Fr

end
-- ==== Proof.KiShared.lean ====
/-
  What the two kernels' runs are stated over: the windows' blocks, the first-tile test, the staging and scratch memrefs.
-/
import proofs.«135723_j46686294508030_2_alg».proof.Proof.Gen.KernelIdeal.Launch
import proofs.«135723_j46686294508030_2_alg».proof.Proof.Gen.KernelIdeal.Skeleton
import proofs.«135723_j46686294508030_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Both kernels walk the 64 row tiles in order. Each keeps a running total in a scratch buffer of its own: the body
    clears it at the first tile (the one conditional, on the grid coordinate being zero), adds the tile's contribution,
    and copies the total into the output's staging buffer, which the pipeline writes back after the last tile. What
    follows names the pieces both bodies' runs are stated over. -/

section Blocks
variable (V : (c : Dev nD) → (b : Ref sig .tc) → Buf (Elt F) ((c : Thread nD τ).loc b))

/-- Window `w`'s block of the histogram kernel at tile `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every tile. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Window `w`'s block of the loss kernel at tile `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The weight table's window is fetched once, at the first tile; its block index never moves, so its buffer holds the
    table at every tile. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The bodies' one conditional: "this is the first tile" -/

abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val % 64 = 0 :=
  (by decide +kernel : ∀ t : Fin grid0.N, cond0 (grid0.coords t) ↔ t.val % 64 = 0)
abbrev cond1 (i : grid1.Coords) : Prop := (Scalar.cmpi .ne (Scalar.extui (Scalar.cmpi .eq (BitVec.ofNat 32 (i 0).val) 0#32)) 0#32) = 1#1
theorem hcond1 : ∀ t : Fin cfg1.N, cond1 (grid1.coords t) ↔ t.val % 64 = 0 :=
  (by decide +kernel : ∀ t : Fin grid1.N, cond1 (grid1.coords t) ↔ t.val % 64 = 0)

/-! ## The staging and scratch memrefs -/

abbrev ms0_0 (t : Fin cfg0.N) : Memref sig .tc .vmem S16384x32 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16384x32 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x10 .f32 := win0_2.stage (cfg0.slots t 2)
abbrev hs0_2 (t : Fin cfg0.N) : (ms0_2 t).IsWhole := hstage0_2 ((cfg0.slots t 2).cast nbuf0_2)
/-- The histogram kernel's running total. -/
abbrev scM0 : Memref sig .tc .vmem S1x10 .f32 := Memref.whole cc0_scratch0
abbrev VS0 : View sig .tc .vmem S1x10 .f32 := scM0.view
abbrev VO0 : View sig .tc .vmem S1x10 .f32 := (Memref.whole cc0_stg2_0 : Memref sig .tc .vmem S1x10 .f32).view

abbrev ms1_0 (t : Fin cfg1.N) : Memref sig .tc .vmem S16384x32 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x10 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1 .f32 := win1_3.stage (cfg1.slots t 3)
abbrev hs1_3 (t : Fin cfg1.N) : (ms1_3 t).IsWhole := hstage1_3 ((cfg1.slots t 3).cast nbuf1_3)
/-- The loss kernel's running total. -/
abbrev scM1 : Memref sig .tc .vmem S1x1 .f32 := Memref.whole cc1_scratch0
abbrev VS1 : View sig .tc .vmem S1x1 .f32 := scM1.view
abbrev VO1 : View sig .tc .vmem S1x1 .f32 := (Memref.whole cc1_stg3_0 : Memref sig .tc .vmem S1x1 .f32).view

/-! ## What a region's body may use besides its windows -/

/-- The core's scoped buffers that are neither a staging buffer nor the scratch of the histogram kernel, each at
    some contents. -/
def other0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_scratch0), ((c : Thread nD τ).loc cc1_scratch0) ↦{fullShare} f))
/-- The same for the loss kernel. -/
def other1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f))

theorem PhiA0_eq (c : Dev nD) :
    (Pipeline.ΦA spec0 c : sProp 𝕄) = iprop(((∃ d, owns (c : Thread nD τ) scM0 fullShare d) ∗ other0 c) ∗ (∃ r, prngReg c r)) := by
  unfold Pipeline.ΦA other0; rw [scopedRest0_eq]; simp only [scM0, owns_whole]; rfl

/-- The loss kernel's scoped rest with its scratch, last in the list, at `S`. -/
def chain1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ S)

theorem PhiA1_eq (c : Dev nD) :
    (Pipeline.ΦA spec1 c : sProp 𝕄) = iprop(chain1 c iprop(∃ d, owns (c : Thread nD τ) scM1 fullShare d) ∗ (∃ r, prngReg c r)) := by
  unfold Pipeline.ΦA chain1; rw [scopedRest1_eq]; simp only [scM1, owns_whole]; rfl

theorem chain1_split (c : Dev nD) (S : sProp 𝕄) : chain1 c S ⊢ iprop(other1 c ∗ S) := by
  unfold chain1 other1
  iintro ⟨H1, H2, H3, H4, H5, H6, HS⟩
  isplitr [HS]
  · isplitl [H1]; · iexact H1
    isplitl [H2]; · iexact H2
    isplitl [H3]; · iexact H3
    isplitl [H4]; · iexact H4
    isplitl [H5]; · iexact H5
    iexact H6
  · iexact HS

theorem chain1_join (c : Dev nD) (S : sProp 𝕄) : iprop(other1 c ∗ S) ⊢ chain1 c S := by
  unfold chain1 other1
  iintro ⟨⟨H1, H2, H3, H4, H5, H6⟩, HS⟩
  isplitl [H1]; · iexact H1
  isplitl [H2]; · iexact H2
  isplitl [H3]; · iexact H3
  isplitl [H4]; · iexact H4
  isplitl [H5]; · iexact H5
  isplitl [H6]; · iexact H6
  iexact HS

end Cert.KernelIdeal.Fr

end
-- ==== Proof.KiRun0A.lean ====
/-
  The histogram kernel's body at the first tile: it clears its running total, adds the tile's counts and copies the
  total to the output's staging buffer. Stated on any whole staging memrefs; the stores it ends with are found by the run.
-/
import proofs.«135723_j46686294508030_2_alg».proof.Proof.KiShared
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first tile (the conditional taken) the body, given the two input blocks `x0`, `x1` and the output's buffer
    and the scratch at anything, runs to the end leaving the inputs as they were and the pieces `L2` (output) and
    `LS` (scratch) written. -/
noncomputable def kernelRun0_A (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc : cond0 i)
    (x0 : Vec F S16384x32 .f32) (x1 : Vec F S16384x32 .f32) :
    Σ' (L2 : List (View.Piece (Elt F) S1x10 .f32)), { LS : List (View.Piece (Elt F) S1x10 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS)) -∗ K ⟨⟩))
          ⊢ wp frame (wpE (defs₀ (F := F)) Variants.none c none) E (cc0__hist_kernel i arg1 harg1 arg2 harg2 arg3 harg3 arg4 harg4) K } := by
  refine ⟨?_, ?_, fun E K => ?run⟩
  case run =>
    simp only [cc0__hist_kernel_eq_skeleton]; unfold cc0__hist_kernel_skel
    unfold owns
    iintro ⟨⟨%f0, %hf0, H0⟩, ⟨%f1, %hf1, H1⟩, ⟨%d2, %f2, -, H2⟩, ⟨%ds, %fs, -, HS⟩, Hk⟩
    obtain rfl := harg1.eq_unread hf0; obtain rfl := harg2.eq_unread hf1
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS

end Cert.KernelIdeal.Fr

end
-- ==== Proof.KiRun0B.lean ====
/-
  The histogram kernel's body at a later tile: the running total is what the tile before left.
-/
import proofs.«135723_j46686294508030_2_alg».proof.Proof.KiRun0A
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a later tile (the conditional not taken) the body, given the input blocks and the scratch at `xs`, runs to the end
    leaving the inputs as they were and the pieces `L2` (output) and `LS` (scratch) written. -/
noncomputable def kernelRun0_B (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc : ¬cond0 i)
    (x0 : Vec F S16384x32 .f32) (x1 : Vec F S16384x32 .f32) (xs : Vec F S1x10 .f32) :
    Σ' (L2 : List (View.Piece (Elt F) S1x10 .f32)), { LS : List (View.Piece (Elt F) S1x10 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS)) -∗ K ⟨⟩))
          ⊢ wp frame (wpE (defs₀ (F := F)) Variants.none c none) E (cc0__hist_kernel i arg1 harg1 arg2 harg2 arg3 harg3 arg4 harg4) K } := by
  refine ⟨?_, ?_, fun E K => ?run⟩
  case run =>
    simp only [cc0__hist_kernel_eq_skeleton]; unfold cc0__hist_kernel_skel
    unfold owns
    iintro ⟨⟨%f0, %hf0, H0⟩, ⟨%f1, %hf1, H1⟩, ⟨%d2, %f2, -, H2⟩, ⟨%fs, %hfs, HS⟩, Hk⟩
    obtain rfl := harg1.eq_unread hf0; obtain rfl := harg2.eq_unread hf1; obtain rfl := harg4.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS

end Cert.KernelIdeal.Fr

end
-- ==== Proof.KiRun1A.lean ====
/-
  The loss kernel's body at the first tile: it clears its running total, adds the tile's weighted loss and copies the total to the output's staging buffer.
-/
import proofs.«135723_j46686294508030_2_alg».proof.Proof.KiRun0B
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first tile (the conditional taken) the body, given the two input blocks `x0`, `x1`, the weight table `x2` and the
    output's buffer at anything, runs to the end leaving the inputs as they were and the pieces `L3` (output) and `LS` (scratch) written. -/
noncomputable def kernelRun1_A (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc : cond1 i)
    (x0 : Vec F S16384x32 .f32) (x1 : Vec F S16384x32 .f32) (x2 : Vec F S1x10 .f32) :
    Σ' (L3 : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS)) -∗ K ⟨⟩))
          ⊢ wp frame (wpE (defs₀ (F := F)) Variants.none c none) E (cc1__loss_kernel i arg1 harg1 arg2 harg2 arg3 harg3 arg4 harg4 arg5 harg5) K } := by
  refine ⟨?_, ?_, fun E K => ?run⟩
  case run =>
    simp only [cc1__loss_kernel_eq_skeleton]; unfold cc1__loss_kernel_skel
    simp only [k1_part1_eq_skeleton]
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg1.eq_unread hf0; obtain rfl := harg2.eq_unread hf1; obtain rfl := harg3.eq_unread hf2
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS

end Cert.KernelIdeal.Fr

end
-- ==== Proof.KiRun1B.lean ====
/-
  The loss kernel's body at a later tile: the running total is what the tile before left.
-/
import proofs.«135723_j46686294508030_2_alg».proof.Proof.KiRun1A
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a later tile (the conditional not taken) the body, given the two input blocks `x0`, `x1`, the weight table `x2`, the scratch at `xs` and the
    output's buffer at anything, runs to the end leaving the inputs as they were and the pieces `L3` (output) and `LS` (scratch) written. -/
noncomputable def kernelRun1_B (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc : ¬cond1 i)
    (x0 : Vec F S16384x32 .f32) (x1 : Vec F S16384x32 .f32) (x2 : Vec F S1x10 .f32) (xs : Vec F S1x1 .f32) :
    Σ' (L3 : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS)) -∗ K ⟨⟩))
          ⊢ wp frame (wpE (defs₀ (F := F)) Variants.none c none) E (cc1__loss_kernel i arg1 harg1 arg2 harg2 arg3 harg3 arg4 harg4 arg5 harg5) K } := by
  refine ⟨?_, ?_, fun E K => ?run⟩
  case run =>
    simp only [cc1__loss_kernel_eq_skeleton]; unfold cc1__loss_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg1.eq_unread hf0; obtain rfl := harg2.eq_unread hf1; obtain rfl := harg3.eq_unread hf2; obtain rfl := harg5.eq_unread hfs
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS

end Cert.KernelIdeal.Fr

end
-- ==== Proof.KiRegion0.lean ====
/-
  The histogram kernel as one region of the program: what its output's staging buffer and its running total hold after
  each tile, the invariant that carries the running total from tile to tile, and the body's obligation at every tile.
-/
import proofs.«135723_j46686294508030_2_alg».proof.Proof.KiRun1B
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! ## What each case leaves (its stores read back) -/

theorem cover0_A (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc : cond0 i) (x0 x1 : Vec F S16384x32 .f32) (y : S1x10.Idx) :
    ∃ pc ∈ (kernelRun0_A c i arg1 harg1 arg2 harg2 arg3 harg3 arg4 harg4 hc x0 x1).1, y ∈ pc.1.set :=
  View.cover_of_tiledL (kernelRun0_A c i arg1 harg1 arg2 harg2 arg3 harg3 arg4 harg4 hc x0 x1).1 S1x10.size (by sl_kernel_rfl) y
theorem scover0_A (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc : cond0 i) (x0 x1 : Vec F S16384x32 .f32) (y : S1x10.Idx) :
    ∃ pc ∈ (kernelRun0_A c i arg1 harg1 arg2 harg2 arg3 harg3 arg4 harg4 hc x0 x1).2.1, y ∈ pc.1.set :=
  View.cover_of_tiledL (kernelRun0_A c i arg1 harg1 arg2 harg2 arg3 harg3 arg4 harg4 hc x0 x1).2.1 S1x10.size (by sl_kernel_rfl) y
/-- The output's staging buffer and the running total after the first tile. -/
def out0_A (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc : cond0 i) (x0 x1 : Vec F S16384x32 .f32) : Vec F S1x10 .f32 :=
  VO0.read (Elt F) (VO0.writes (Elt F) VO0.junk (kernelRun0_A c i arg1 harg1 arg2 harg2 arg3 harg3 arg4 harg4 hc x0 x1).1)
def sout0_A (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc : cond0 i) (x0 x1 : Vec F S16384x32 .f32) : Vec F S1x10 .f32 :=
  VS0.read (Elt F) (VS0.writes (Elt F) VS0.junk (kernelRun0_A c i arg1 harg1 arg2 harg2 arg3 harg3 arg4 harg4 hc x0 x1).2.1)

theorem cover0_B (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc : ¬cond0 i) (x0 x1 : Vec F S16384x32 .f32) (xs : Vec F S1x10 .f32) (y : S1x10.Idx) :
    ∃ pc ∈ (kernelRun0_B c i arg1 harg1 arg2 harg2 arg3 harg3 arg4 harg4 hc x0 x1 xs).1, y ∈ pc.1.set :=
  View.cover_of_tiledL (kernelRun0_B c i arg1 harg1 arg2 harg2 arg3 harg3 arg4 harg4 hc x0 x1 xs).1 S1x10.size (by sl_kernel_rfl) y
theorem scover0_B (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc : ¬cond0 i) (x0 x1 : Vec F S16384x32 .f32) (xs : Vec F S1x10 .f32) (y : S1x10.Idx) :
    ∃ pc ∈ (kernelRun0_B c i arg1 harg1 arg2 harg2 arg3 harg3 arg4 harg4 hc x0 x1 xs).2.1, y ∈ pc.1.set :=
  View.cover_of_tiledL (kernelRun0_B c i arg1 harg1 arg2 harg2 arg3 harg3 arg4 harg4 hc x0 x1 xs).2.1 S1x10.size (by sl_kernel_rfl) y
/-- The same after a later tile, from the running total `xs` the tile before left. -/
def out0_B (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc : ¬cond0 i) (x0 x1 : Vec F S16384x32 .f32) (xs : Vec F S1x10 .f32) : Vec F S1x10 .f32 :=
  VO0.read (Elt F) (VO0.writes (Elt F) VO0.junk (kernelRun0_B c i arg1 harg1 arg2 harg2 arg3 harg3 arg4 harg4 hc x0 x1 xs).1)
def sout0_B (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc : ¬cond0 i) (x0 x1 : Vec F S16384x32 .f32) (xs : Vec F S1x10 .f32) : Vec F S1x10 .f32 :=
  VS0.read (Elt F) (VS0.writes (Elt F) VS0.junk (kernelRun0_B c i arg1 harg1 arg2 harg2 arg3 harg3 arg4 harg4 hc x0 x1 xs).2.1)

/-- Only tile 0 is a first tile. -/
theorem cond0_zero (t : Fin cfg0.N) (hz : t.val = 0) : cond0 (grid0.coords t) := (hcond0 t).mpr (by rw [hz])
theorem cond0_pos (t : Fin cfg0.N) (hz : t.val ≠ 0) : ¬cond0 (grid0.coords t) := fun h => by
  have h1 := (hcond0 t).mp h
  have hN : t.val < 64 := lt_of_lt_of_eq t.isLt (show cfg0.N = 64 from N_0)
  omega

/-! ## After each tile -/

/-- The output's staging buffer and the running total after tile `n`: tile 0 starts from a cleared total, tile `n + 1`
    from what tile `n` left. -/
def outsAt0 (c : Dev nD) : (n : ℕ) → n < cfg0.N → Vec F S1x10 .f32 × Vec F S1x10 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) (cond0_zero ⟨0, hn⟩ rfl) (iblk0 V c 0 ⟨0, hn⟩) (iblk0 V c 1 ⟨0, hn⟩),
              sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) (cond0_zero ⟨0, hn⟩ rfl) (iblk0 V c 0 ⟨0, hn⟩) (iblk0 V c 1 ⟨0, hn⟩))
  | n + 1, hn => (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (cond0_pos ⟨n + 1, hn⟩ (Nat.succ_ne_zero n)) (iblk0 V c 0 ⟨n + 1, hn⟩) (iblk0 V c 1 ⟨n + 1, hn⟩) (outsAt0 c n (Nat.lt_of_succ_lt hn)).2,
                  sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (cond0_pos ⟨n + 1, hn⟩ (Nat.succ_ne_zero n)) (iblk0 V c 0 ⟨n + 1, hn⟩) (iblk0 V c 1 ⟨n + 1, hn⟩) (outsAt0 c n (Nat.lt_of_succ_lt hn)).2)

theorem outsAt0_A (c : Dev nD) (t : Fin cfg0.N) (hz : t.val = 0) :
    outsAt0 V c t.val t.isLt = (out0_A c (grid0.coords t) (ms0_0 t) (hs0_0 t) (ms0_1 t) (hs0_1 t) (ms0_2 t) (hs0_2 t) scM0 (Memref.isWhole_whole _) (cond0_zero t hz) (iblk0 V c 0 t) (iblk0 V c 1 t),
      sout0_A c (grid0.coords t) (ms0_0 t) (hs0_0 t) (ms0_1 t) (hs0_1 t) (ms0_2 t) (hs0_2 t) scM0 (Memref.isWhole_whole _) (cond0_zero t hz) (iblk0 V c 0 t) (iblk0 V c 1 t)) := by
  obtain ⟨n, hn⟩ := t
  cases n with
  | zero => exact rfl
  | succ n => exact absurd hz (Nat.succ_ne_zero n)

theorem outsAt0_B (c : Dev nD) (t : Fin cfg0.N) (hz : t.val ≠ 0) :
    outsAt0 V c t.val t.isLt = (out0_B c (grid0.coords t) (ms0_0 t) (hs0_0 t) (ms0_1 t) (hs0_1 t) (ms0_2 t) (hs0_2 t) scM0 (Memref.isWhole_whole _) (cond0_pos t hz) (iblk0 V c 0 t) (iblk0 V c 1 t) (outsAt0 V c (t.val - 1) (Nat.lt_of_le_of_lt (Nat.sub_le _ _) t.isLt)).2,
      sout0_B c (grid0.coords t) (ms0_0 t) (hs0_0 t) (ms0_1 t) (hs0_1 t) (ms0_2 t) (hs0_2 t) scM0 (Memref.isWhole_whole _) (cond0_pos t hz) (iblk0 V c 0 t) (iblk0 V c 1 t) (outsAt0 V c (t.val - 1) (Nat.lt_of_le_of_lt (Nat.sub_le _ _) t.isLt)).2) := by
  obtain ⟨n, hn⟩ := t
  cases n with
  | zero => exact absurd rfl hz
  | succ n => exact rfl

/-- The invariant before tile `n`: before the first, the scoped buffers at anything; afterwards the running total at
    what the tile before left, the other scoped buffers at anything. -/
def PhiS0 (c : Dev nD) : (n : ℕ) → n ≤ cfg0.N → sProp 𝕄
  | 0, _ => Pipeline.ΦA spec0 c
  | n + 1, hn => iprop((owns (c : Thread nD τ) scM0 fullShare ((outsAt0 V c n hn).2) ∗ other0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare ((outsAt0 V c n hn).2) ∗ other0 c) ∗ (∃ r, prngReg c r)) := rfl
theorem PhiS0_pos (c : Dev nD) (n : ℕ) (h : n ≤ cfg0.N) (hz : n ≠ 0) :
    PhiS0 V c n h = iprop((owns (c : Thread nD τ) scM0 fullShare ((outsAt0 V c (n - 1) (by omega)).2) ∗ other0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 4800000 in
/-- The body at any tile: the inputs' buffers hold their blocks; at tile 0 the invariant hands over the scratch at
    anything, afterwards at what the tile before left; the run of the tile's case applies, and the scratch and the output's
    buffer come back at this tile's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2]
  by_cases hz : t.val = 0
  · rw [outsAt0_A V c t hz]
    unfold out0_A sout0_A; (try dsimp only)
    rw [PhiS0_castSucc V c t, PhiS0_zero V c _ _ hz, PhiA0_eq]
    iintro ⟨⟨⟨HS, Hoth⟩, Hg⟩, Ho, ⟨%d0, H0⟩, ⟨%d1, H1⟩, ⟨%d2, H2⟩⟩
    iapply ((kernelRun0_A c (grid0.coords t) _ _ _ _ _ _ _ _ (cond0_zero t hz) (iblk0 V c 0 t) (iblk0 V c 1 t)).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hoth Hg]
    · isplitl [HS Hoth]
      · isplitl [HS]
        · unfold owns; iexists _; isplitr
          swap; · iexact HS
          ipureintro; exact View.read_writes_of_cover _ _ _ _ _ (scover0_A c _ _ _ _ _ _ _ _ _ _ _ _)
        iexact Hoth
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_A c _ _ _ _ _ _ _ _ _ _ _ _)
  · rw [outsAt0_B V c t hz]
    unfold out0_B sout0_B; (try dsimp only)
    rw [PhiS0_castSucc V c t, PhiS0_pos V c _ _ hz]
    iintro ⟨⟨⟨HS, Hoth⟩, Hg⟩, Ho, ⟨%d0, H0⟩, ⟨%d1, H1⟩, ⟨%d2, H2⟩⟩
    iapply ((kernelRun0_B c (grid0.coords t) _ _ _ _ _ _ _ _ (cond0_pos t hz) (iblk0 V c 0 t) (iblk0 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hoth Hg]
    · isplitl [HS Hoth]
      · isplitl [HS]
        · unfold owns; iexists _; isplitr
          swap; · iexact HS
          ipureintro; exact View.read_writes_of_cover _ _ _ _ _ (scover0_B c _ _ _ _ _ _ _ _ _ _ _ _ _)
        iexact Hoth
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B c _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-- Before the first tile the invariant is the class's; after any tile it gives the class's back. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨⟨HS, Hoth⟩, Hg⟩
  isplitl [HS Hoth]
  · isplitl [HS]; · iexists _; iexact HS
    iexact Hoth
  iexact Hg

end Region0

end Cert.KernelIdeal.Fr

end
-- ==== Proof.KiRegion1.lean ====
/-
  The loss kernel as one region of the program: what its output's staging buffer and its running total hold after each
  tile, the invariant that carries the running total, and the body's obligation at every tile.
-/
import proofs.«135723_j46686294508030_2_alg».proof.Proof.KiRun1B
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-! ## What each case leaves (its stores read back) -/

theorem cover1_A (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc : cond1 i) (x0 x1 : Vec F S16384x32 .f32) (x2 : Vec F S1x10 .f32) (y : S1x1.Idx) :
    ∃ pc ∈ (kernelRun1_A c i arg1 harg1 arg2 harg2 arg3 harg3 arg4 harg4 arg5 harg5 hc x0 x1 x2).1, y ∈ pc.1.set :=
  View.cover_of_tiledL (kernelRun1_A c i arg1 harg1 arg2 harg2 arg3 harg3 arg4 harg4 arg5 harg5 hc x0 x1 x2).1 S1x1.size (by sl_kernel_rfl) y
theorem scover1_A (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc : cond1 i) (x0 x1 : Vec F S16384x32 .f32) (x2 : Vec F S1x10 .f32) (y : S1x1.Idx) :
    ∃ pc ∈ (kernelRun1_A c i arg1 harg1 arg2 harg2 arg3 harg3 arg4 harg4 arg5 harg5 hc x0 x1 x2).2.1, y ∈ pc.1.set :=
  View.cover_of_tiledL (kernelRun1_A c i arg1 harg1 arg2 harg2 arg3 harg3 arg4 harg4 arg5 harg5 hc x0 x1 x2).2.1 S1x1.size (by sl_kernel_rfl) y
/-- The output's staging buffer and the running total after the first tile. -/
def out1_A (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc : cond1 i) (x0 x1 : Vec F S16384x32 .f32) (x2 : Vec F S1x10 .f32) : Vec F S1x1 .f32 :=
  VO1.read (Elt F) (VO1.writes (Elt F) VO1.junk (kernelRun1_A c i arg1 harg1 arg2 harg2 arg3 harg3 arg4 harg4 arg5 harg5 hc x0 x1 x2).1)
def sout1_A (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc : cond1 i) (x0 x1 : Vec F S16384x32 .f32) (x2 : Vec F S1x10 .f32) : Vec F S1x1 .f32 :=
  VS1.read (Elt F) (VS1.writes (Elt F) VS1.junk (kernelRun1_A c i arg1 harg1 arg2 harg2 arg3 harg3 arg4 harg4 arg5 harg5 hc x0 x1 x2).2.1)

theorem cover1_B (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc : ¬cond1 i) (x0 x1 : Vec F S16384x32 .f32) (x2 : Vec F S1x10 .f32) (xs : Vec F S1x1 .f32) (y : S1x1.Idx) :
    ∃ pc ∈ (kernelRun1_B c i arg1 harg1 arg2 harg2 arg3 harg3 arg4 harg4 arg5 harg5 hc x0 x1 x2 xs).1, y ∈ pc.1.set :=
  View.cover_of_tiledL (kernelRun1_B c i arg1 harg1 arg2 harg2 arg3 harg3 arg4 harg4 arg5 harg5 hc x0 x1 x2 xs).1 S1x1.size (by sl_kernel_rfl) y
theorem scover1_B (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc : ¬cond1 i) (x0 x1 : Vec F S16384x32 .f32) (x2 : Vec F S1x10 .f32) (xs : Vec F S1x1 .f32) (y : S1x1.Idx) :
    ∃ pc ∈ (kernelRun1_B c i arg1 harg1 arg2 harg2 arg3 harg3 arg4 harg4 arg5 harg5 hc x0 x1 x2 xs).2.1, y ∈ pc.1.set :=
  View.cover_of_tiledL (kernelRun1_B c i arg1 harg1 arg2 harg2 arg3 harg3 arg4 harg4 arg5 harg5 hc x0 x1 x2 xs).2.1 S1x1.size (by sl_kernel_rfl) y
/-- The same after a later tile, from the running total `xs` the tile before left. -/
def out1_B (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc : ¬cond1 i) (x0 x1 : Vec F S16384x32 .f32) (x2 : Vec F S1x10 .f32) (xs : Vec F S1x1 .f32) : Vec F S1x1 .f32 :=
  VO1.read (Elt F) (VO1.writes (Elt F) VO1.junk (kernelRun1_B c i arg1 harg1 arg2 harg2 arg3 harg3 arg4 harg4 arg5 harg5 hc x0 x1 x2 xs).1)
def sout1_B (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc : ¬cond1 i) (x0 x1 : Vec F S16384x32 .f32) (x2 : Vec F S1x10 .f32) (xs : Vec F S1x1 .f32) : Vec F S1x1 .f32 :=
  VS1.read (Elt F) (VS1.writes (Elt F) VS1.junk (kernelRun1_B c i arg1 harg1 arg2 harg2 arg3 harg3 arg4 harg4 arg5 harg5 hc x0 x1 x2 xs).2.1)

/-- Only tile 0 is a first tile. -/
theorem cond1_zero (t : Fin cfg1.N) (hz : t.val = 0) : cond1 (grid1.coords t) := (hcond1 t).mpr (by rw [hz])
theorem cond1_pos (t : Fin cfg1.N) (hz : t.val ≠ 0) : ¬cond1 (grid1.coords t) := fun h => by
  have h1 := (hcond1 t).mp h
  have hN : t.val < 64 := lt_of_lt_of_eq t.isLt (show cfg1.N = 64 from N_1)
  omega

/-! ## After each tile -/

def outsAt1 (c : Dev nD) : (n : ℕ) → n < cfg1.N → Vec F S1x1 .f32 × Vec F S1x1 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) (cond1_zero ⟨0, hn⟩ rfl) (iblk1 V c 0 ⟨0, hn⟩) (iblk1 V c 1 ⟨0, hn⟩) (iblk1 V c 2 ⟨0, hn⟩),
              sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) (cond1_zero ⟨0, hn⟩ rfl) (iblk1 V c 0 ⟨0, hn⟩) (iblk1 V c 1 ⟨0, hn⟩) (iblk1 V c 2 ⟨0, hn⟩))
  | n + 1, hn => (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (cond1_pos ⟨n + 1, hn⟩ (Nat.succ_ne_zero n)) (iblk1 V c 0 ⟨n + 1, hn⟩) (iblk1 V c 1 ⟨n + 1, hn⟩) (iblk1 V c 2 ⟨n + 1, hn⟩) (outsAt1 c n (Nat.lt_of_succ_lt hn)).2,
                  sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (cond1_pos ⟨n + 1, hn⟩ (Nat.succ_ne_zero n)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (hz : t.val = 0) :
    outsAt1 V c t.val t.isLt = (out1_A c (grid1.coords t) (ms1_0 t) (hs1_0 t) (ms1_1 t) (hs1_1 t) (ms1_2 t) (hs1_2 t) (ms1_3 t) (hs1_3 t) scM1 (Memref.isWhole_whole _) (cond1_zero t hz) (iblk1 V c 0 t) (iblk1 V c 1 t) (iblk1 V c 2 t),
      sout1_A c (grid1.coords t) (ms1_0 t) (hs1_0 t) (ms1_1 t) (hs1_1 t) (ms1_2 t) (hs1_2 t) (ms1_3 t) (hs1_3 t) scM1 (Memref.isWhole_whole _) (cond1_zero t hz) (iblk1 V c 0 t) (iblk1 V c 1 t) (iblk1 V c 2 t)) := by
  obtain ⟨n, hn⟩ := t
  cases n with
  | zero => exact rfl
  | succ n => exact absurd hz (Nat.succ_ne_zero n)

theorem outsAt1_B (c : Dev nD) (t : Fin cfg1.N) (hz : t.val ≠ 0) :
    outsAt1 V c t.val t.isLt = (out1_B c (grid1.coords t) (ms1_0 t) (hs1_0 t) (ms1_1 t) (hs1_1 t) (ms1_2 t) (hs1_2 t) (ms1_3 t) (hs1_3 t) scM1 (Memref.isWhole_whole _) (cond1_pos t hz) (iblk1 V c 0 t) (iblk1 V c 1 t) (iblk1 V c 2 t) (outsAt1 V c (t.val - 1) (Nat.lt_of_le_of_lt (Nat.sub_le _ _) t.isLt)).2,
      sout1_B c (grid1.coords t) (ms1_0 t) (hs1_0 t) (ms1_1 t) (hs1_1 t) (ms1_2 t) (hs1_2 t) (ms1_3 t) (hs1_3 t) scM1 (Memref.isWhole_whole _) (cond1_pos t hz) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact absurd rfl hz
  | succ n => exact rfl

/-- The invariant before tile `n`: before the first, the scoped buffers at anything; afterwards the running total at
    what the tile before left, the other scoped buffers at anything. -/
def PhiS1 (c : Dev nD) : (n : ℕ) → n ≤ cfg1.N → sProp 𝕄
  | 0, _ => Pipeline.ΦA spec1 c
  | n + 1, hn => iprop(chain1 c (owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(chain1 c (owns (c : Thread nD τ) scM1 fullShare ((outsAt1 V c n hn).2)) ∗ (∃ r, prngReg c r)) := rfl
theorem PhiS1_pos (c : Dev nD) (n : ℕ) (h : n ≤ cfg1.N) (hz : n ≠ 0) :
    PhiS1 V c n h = iprop(chain1 c (owns (c : Thread nD τ) scM1 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body's obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [after1_0, after1_1, after1_2, after1_3]
  by_cases hz : t.val = 0
  · rw [outsAt1_A V c t hz]
    unfold out1_A sout1_A; (try dsimp only)
    rw [PhiS1_castSucc V c t, PhiS1_zero V c _ _ hz, PhiA1_eq]
    iintro ⟨⟨Hch, Hg⟩, Ho, ⟨%d0, H0⟩, ⟨%d1, H1⟩, ⟨%d2, H2⟩, ⟨%d3, H3⟩⟩
    ihave Hsp := (chain1_split c _) $$ Hch
    icases Hsp with ⟨Hoth, HS⟩
    iapply ((kernelRun1_A c (grid1.coords t) _ _ _ _ _ _ _ _ _ _ (cond1_zero t hz) (iblk1 V c 0 t) (iblk1 V c 1 t) (iblk1 V c 2 t)).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hoth Hg]
    · isplitl [HS Hoth]
      · iapply (chain1_join c _)
        isplitl [Hoth]; · iexact Hoth
        unfold owns; iexists _; isplitr
        swap; · iexact HS
        ipureintro; exact View.read_writes_of_cover _ _ _ _ _ (scover1_A c _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_A c _ _ _ _ _ _ _ _ _ _ _ _ _ _ _)
  · rw [outsAt1_B V c t hz]
    unfold out1_B sout1_B; (try dsimp only)
    rw [PhiS1_castSucc V c t, PhiS1_pos V c _ _ hz]
    iintro ⟨⟨Hch, Hg⟩, Ho, ⟨%d0, H0⟩, ⟨%d1, H1⟩, ⟨%d2, H2⟩, ⟨%d3, H3⟩⟩
    ihave Hsp := (chain1_split c _) $$ Hch
    icases Hsp with ⟨Hoth, HS⟩
    iapply ((kernelRun1_B c (grid1.coords t) _ _ _ _ _ _ _ _ _ _ (cond1_pos t hz) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hoth Hg]
    · isplitl [HS Hoth]
      · iapply (chain1_join c _)
        isplitl [Hoth]; · iexact Hoth
        unfold owns; iexists _; isplitr
        swap; · iexact HS
        ipureintro; exact View.read_writes_of_cover _ _ _ _ _ (scover1_B c _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B c _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨Hch, Hg⟩
  isplitl [Hch]
  · ihave Hsp := (chain1_split c _) $$ Hch
    icases Hsp with ⟨Hoth, HS⟩
    iapply (chain1_join c _)
    isplitl [Hoth]; · iexact Hoth
    iexists _; iexact HS
  iexact Hg

end Region1

end Cert.KernelIdeal.Fr

end
-- ==== Proof.KiRun.lean ====
/-
  The whole program as a run: the host stretches and the two kernel regions in @main's order, each entered from what the
  one before it left. Every weakly fair execution ends, nothing faulting, with every unscoped buffer at the contents
  obtained by folding @main's items over the launch memory (`W11`).
-/
import proofs.«135723_j46686294508030_2_alg».proof.Proof.KiRegion0
import proofs.«135723_j46686294508030_2_alg».proof.Proof.KiRegion1
import proofs.«135723_j46686294508030_2_alg».proof.Proof.Gen.KernelIdeal.Regions
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between @main's items -/

/-- Core `c`'s buffers at launch; -/
abbrev W0 : Dev nD → Valuation τ sig (Elt F) := fun c b => m (c, b)
/-- after the constant table is written (the histogram region's entry); -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- at the histogram region's exit: its arrays at what the pipeline leaves, every other buffer as entered; -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- after each stretch of the ten-entry arithmetic between the regions; -/
abbrev W3 : Dev nD → Valuation τ sig (Elt F) := fun c => StableHlo.after hostOps1 (W2 m c)
abbrev W4 : Dev nD → Valuation τ sig (Elt F) := fun c => StableHlo.after hostOps1_1 (W3 m c)
abbrev W5 : Dev nD → Valuation τ sig (Elt F) := fun c => StableHlo.after hostOps1_2 (W4 m c)
abbrev W6 : Dev nD → Valuation τ sig (Elt F) := fun c => StableHlo.after hostOps1_3 (W5 m c)
abbrev W7 : Dev nD → Valuation τ sig (Elt F) := fun c => StableHlo.after hostOps1_4 (W6 m c)
abbrev W8 : Dev nD → Valuation τ sig (Elt F) := fun c => StableHlo.after hostOps1_5 (W7 m c)
/-- at the loss region's entry; -/
abbrev W9 : Dev nD → Valuation τ sig (Elt F) := fun c => StableHlo.after hostOps1_6 (W8 m c)
abbrev V9 : (c : Dev nD) → (b : Ref sig .tc) → Buf (Elt F) ((c : Thread nD τ).loc b) := fun c b => W9 m c b
/-- at its exit; -/
def W10 (c : Dev nD) : Valuation τ sig (Elt F) :=
  Pipeline.withArrays spec1 c (W9 m c) fun w => (dat1 (V9 m) c).arrAt w cfg1.N
theorem W10_arr (c : Dev nD) (w : Fin cfg1.W) :
    W10 m c (Proc.devRef .tc (Pipeline.arrRef spec1 w)) = (dat1 (V9 m) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb
abbrev V10 : (c : Dev nD) → (b : Ref sig .tc) → Buf (Elt F) ((c : Thread nD τ).loc b) := fun c b => W10 m c b
theorem hF1 (c : Dev nD) (w : Fin cfg1.W) : (dat1 (V9 m) c).arrAt w cfg1.N = V10 m c (Pipeline.arrRef spec1 w) :=
  (W10_arr m c w).symm
theorem hrest1 (c : Dev nD) : ∀ b, b ∉ Finset.univ.image (Pipeline.arrRef spec1) → V10 m c b = V9 m c b :=
  fun b hb => W10_of_ne m c b fun w e => hb (Finset.mem_image.mpr ⟨w, Finset.mem_univ _, e⟩)
/-- and at the end, after the result is reshaped to a scalar. -/
abbrev W11 : Dev nD → Valuation τ sig (Elt F) := fun c => StableHlo.after hostOps2 (W10 m c)

/-! ## No item writes an argument array -/

theorem W11_arg (c : Dev nD) (r : Ref sig .tc) (h0 : r ∉ hostOps0_W) (h1 : r ∉ hostOps1_W) (h2 : r ∉ hostOps1_1_W) (h3 : r ∉ hostOps1_2_W)
    (h4 : r ∉ hostOps1_3_W) (h5 : r ∉ hostOps1_4_W) (h6 : r ∉ hostOps1_5_W) (h7 : r ∉ hostOps1_6_W) (h8 : r ∉ hostOps2_W)
    (hr0 : ∀ w, Pipeline.arrRef spec0 w ≠ r ∨ (cfg0.win w).isOut = false) (hr1 : ∀ w, Pipeline.arrRef spec1 w ≠ r ∨ (cfg1.win w).isOut = false) :
    W11 m c (Proc.devRef .tc r) = m ((c : Thread nD τ).loc r) := by
  have e11 : W11 m c (Proc.devRef .tc r) = W10 m c (Proc.devRef .tc r) := StableHlo.after_of_writes_sub hostOps2 _ hostOps2_writes h8
  have e10 : W10 m c (Proc.devRef .tc r) = W9 m c (Proc.devRef .tc r) := by
    by_cases hw : ∃ w, Pipeline.arrRef spec1 w = r
    · obtain ⟨w, rfl⟩ := hw
      have hin : (cfg1.win w).isOut = false := (hr1 w).resolve_left (fun h => h rfl)
      exact (W10_arr m c w).trans (((dat1 (V9 m) c).arrAt_in w hin _).trans (A_eq1 (V9 m) c w))
    · exact W10_of_ne m c r fun w e => hw ⟨w, e⟩
  have e9 : W9 m c (Proc.devRef .tc r) = W8 m c (Proc.devRef .tc r) := StableHlo.after_of_writes_sub hostOps1_6 _ hostOps1_6_writes h7
  have e8 : W8 m c (Proc.devRef .tc r) = W7 m c (Proc.devRef .tc r) := StableHlo.after_of_writes_sub hostOps1_5 _ hostOps1_5_writes h6
  have e7 : W7 m c (Proc.devRef .tc r) = W6 m c (Proc.devRef .tc r) := StableHlo.after_of_writes_sub hostOps1_4 _ hostOps1_4_writes h5
  have e6 : W6 m c (Proc.devRef .tc r) = W5 m c (Proc.devRef .tc r) := StableHlo.after_of_writes_sub hostOps1_3 _ hostOps1_3_writes h4
  have e5 : W5 m c (Proc.devRef .tc r) = W4 m c (Proc.devRef .tc r) := StableHlo.after_of_writes_sub hostOps1_2 _ hostOps1_2_writes h3
  have e4 : W4 m c (Proc.devRef .tc r) = W3 m c (Proc.devRef .tc r) := StableHlo.after_of_writes_sub hostOps1_1 _ hostOps1_1_writes h2
  have e3 : W3 m c (Proc.devRef .tc r) = W2 m c (Proc.devRef .tc r) := StableHlo.after_of_writes_sub hostOps1 _ hostOps1_writes h1
  have e2 : W2 m c (Proc.devRef .tc r) = W1 m c (Proc.devRef .tc r) := by
    by_cases hw : ∃ w, Pipeline.arrRef spec0 w = r
    · obtain ⟨w, rfl⟩ := hw
      have hin : (cfg0.win w).isOut = false := (hr0 w).resolve_left (fun h => h rfl)
      exact (W2_arr m c w).trans (((dat0 (V1 m) c).arrAt_in w hin _).trans (A_eq0 (V1 m) c w))
    · exact W2_of_ne m c r fun w e => hw ⟨w, e⟩
  have e1 : W1 m c (Proc.devRef .tc r) = W0 m c (Proc.devRef .tc r) := StableHlo.after_of_writes_sub hostOps0 _ hostOps0_writes h0
  exact e11.trans (e10.trans (e9.trans (e8.trans (e7.trans (e6.trans (e5.trans (e4.trans (e3.trans (e2.trans (e1.trans rfl))))))))))

theorem W11_main_arg0 (c : Dev nD) : W11 m c (Proc.devRef .tc main_arg0) = m ((c : Thread nD τ).loc main_arg0) :=
  W11_arg m c main_arg0 (by decide) (by decide) (by decide) (by decide) (by decide) (by decide) (by decide) (by decide) (by decide) (by decide) (by decide)
theorem W11_main_arg1 (c : Dev nD) : W11 m c (Proc.devRef .tc main_arg1) = m ((c : Thread nD τ).loc main_arg1) :=
  W11_arg m c main_arg1 (by decide) (by decide) (by decide) (by decide) (by decide) (by decide) (by decide) (by decide) (by decide) (by decide) (by decide)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V9 m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W11 m c) ∗ ∃ r, prngReg c r)

/-- The class's invariant is the scoped rest beside the generator register. -/
theorem PhiA_intro0 (c : Dev nD) : iprop(Pipeline.scopedRest (Ix := Unit) (Name := ℕ) (U := UR sig nD τ) (Lvl := ℕ) (Val := Elt F) spec0 c ∗ ∃ r, prngReg c r) ⊢ (Pipeline.ΦA spec0 c : sProp 𝕄) := by
  unfold Pipeline.ΦA; exact .rfl
theorem PhiA_elim0 (c : Dev nD) : (Pipeline.ΦA spec0 c : sProp 𝕄) ⊢ iprop(Pipeline.scopedRest (Ix := Unit) (Name := ℕ) (U := UR sig nD τ) (Lvl := ℕ) (Val := Elt F) spec0 c ∗ ∃ r, prngReg c r) := by
  unfold Pipeline.ΦA; exact .rfl
theorem PhiA_intro1 (c : Dev nD) : iprop(Pipeline.scopedRest (Ix := Unit) (Name := ℕ) (U := UR sig nD τ) (Lvl := ℕ) (Val := Elt F) spec1 c ∗ ∃ r, prngReg c r) ⊢ (Pipeline.ΦA spec1 c : sProp 𝕄) := by
  unfold Pipeline.ΦA; exact .rfl
theorem PhiA_elim1 (c : Dev nD) : (Pipeline.ΦA spec1 c : sProp 𝕄) ⊢ iprop(Pipeline.scopedRest (Ix := Unit) (Name := ℕ) (U := UR sig nD τ) (Lvl := ℕ) (Val := Elt F) spec1 c ∗ ∃ r, prngReg c r) := by
  unfold Pipeline.ΦA; exact .rfl

/-! ## The regions as segments -/

set_option backward.isDefEq.respectTransparency.types false in
/-- Region 0 over the thread state: entered from every unscoped buffer at the contents before it, left with its arrays at
    what the pipeline leaves and every other buffer as entered; the generator register goes into the invariant and comes
    back; nothing owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V1 m) c).Φ 0 from rfl]
    iintro ⟨Hp, -, Hr⟩
    iapply (hin0 (V1 m) c)
    iapply (PhiA_intro0 c)
    isplitl [Hr]; · iexact Hr
    iexact Hp
  hout c := by
    rw [Pipeline.ownSems0_none, show (pdats m 0 c).Φ (Fin.last _) = (dat0 (V1 m) c).Φ (Fin.last cfg0.N) from rfl]
    iintro H
    ihave H2 := (hout0 (V1 m) c) $$ H
    ihave H3 := (PhiA_elim0 c) $$ H2
    icases H3 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left with its arrays at
    what the pipeline leaves and every other buffer as entered; the generator register goes into the invariant and comes
    back; nothing owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V9 m) c).loose
  hwaits := Pipeline.hwaits_of_owed_zero _ _ _ _ L lv 1 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec1 c (V9 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V9 m) c).Φ 0 from rfl]
    iintro ⟨Hp, -, Hr⟩
    iapply (hin1 (V9 m) c)
    iapply (PhiA_intro1 c)
    isplitl [Hr]; · iexact Hr
    iexact Hp
  hout c := by
    rw [Pipeline.ownSems0_none, show (pdats m 1 c).Φ (Fin.last _) = (dat1 (V9 m) c).Φ (Fin.last cfg1.N) from rfl]
    iintro H
    ihave H2 := (hout1 (V9 m) c) $$ H
    ihave H3 := (PhiA_elim1 c) $$ H2
    icases H3 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V9 m c) (V10 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs (c : Dev nD) : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .host (hseg hostOps1_5 hostOps1_5_sub hostOps1_5_fresh (W7 m)),
    .host (hseg hostOps1_6 hostOps1_6_sub hostOps1_6_fresh (W8 m)),
    .region (reg1 m),
    .host (hseg hostOps2 hostOps2_sub hostOps2_fresh (W10 m)) ]

set_option backward.isDefEq.respectTransparency.types false in
/-- THE RUN. From any memory with zero counters every weakly fair execution of @main on the TensorCores terminates,
    nothing faulting, and the final memory holds every unscoped buffer at `W11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit_dev (pcfgs (F := F)) adm (pdats m) () cellOf_inj emb₁ defs₀ 𝒱₀ L lv m ρ main (segs m)
    (fun c Q => by
      rewrite [main_chain c, Seg.run_eq_chain,
        show (segs m c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, .rfl, .rfl, .rfl, .rfl, .rfl, by
      show iprop(StableHlo.held (c : Thread nD τ) (Pipeline.ucRefs τ sig) (W11 m c) ∗ R c) ⊢ _
      iintro ⟨Hh, Hp, Ho⟩
      isplitr [Ho]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W11_main_arg0 m c),
     (h c _ (mem_uc main_arg1 (by decide))).trans (W11_main_arg1 m c)⟩) (run_all m ρ)

end Cert.KernelIdeal.Fr

end
-- ==== Proof.KiPieces.lean ====
/-
  What each case of the two bodies leaves, as the skeleton's payloads: the running total after a tile is the tile's payload
  of the two input blocks and the total before it (a cleared one at the first tile), and the output's staging buffer
  holds a copy of it.
-/
import proofs.«135723_j46686294508030_2_alg».proof.Proof.KiRegion0
import proofs.«135723_j46686294508030_2_alg».proof.Proof.KiRegion1
import Idealize.ShloMosaic.Lib.Pipeline.Value
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets, however spelt. -/
theorem hz0 : (![0, 0] : Fin 2 → Nat) = fun _ => 0 := by funext a; fin_cases a <;> rfl

/-- A load of the whole buffer after a store of the whole buffer (whatever was stored before) reads what was stored. -/
theorem readCov_cons_unit_zero {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-! ## The histogram kernel -/

theorem sout0_A_eq (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc : cond0 i) (x0 x1 : Vec F S16384x32 .f32) :
    sout0_A c i arg1 harg1 arg2 harg2 arg3 harg3 arg4 harg4 hc x0 x1 = k0_pay2 x0 x1 (k0_pay1 (F := F)) := by
  unfold sout0_A
  rw [View.read_writes_eq_canon _ _ _ (scover0_A c i arg1 harg1 arg2 harg2 arg3 harg3 arg4 harg4 hc x0 x1)]
  unfold kernelRun0_A
  dsimp only
  sl_unfold_run_names
  refine (View.canon_cons_unit_zero (S := S1x10) hz0 _ _ _).trans ?_
  simp only [View.readAt_eq_ld, harg1.read_unread, harg2.read_unread, View.ld_unit_zero (S := S16384x32) hz0, View.ld_unit_zero (S := S1x10) hz0, readCov_cons_unit_zero (S := S1x10) arg4.view hz0, View.readCov_unit_zero (S := S1x10) arg4.view hz0]

theorem out0_A_eq (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc : cond0 i) (x0 x1 : Vec F S16384x32 .f32) :
    out0_A c i arg1 harg1 arg2 harg2 arg3 harg3 arg4 harg4 hc x0 x1 = k0_pay2 x0 x1 (k0_pay1 (F := F)) := by
  unfold out0_A
  rw [View.read_writes_eq_canon _ _ _ (cover0_A c i arg1 harg1 arg2 harg2 arg3 harg3 arg4 harg4 hc x0 x1)]
  unfold kernelRun0_A
  dsimp only
  sl_unfold_run_names
  refine (View.canon_unit_zero (S := S1x10) hz0 _ _).trans ?_
  simp only [View.readAt_eq_ld, harg1.read_unread, harg2.read_unread, View.ld_unit_zero (S := S16384x32) hz0, View.ld_unit_zero (S := S1x10) hz0, readCov_cons_unit_zero (S := S1x10) arg4.view hz0, View.readCov_unit_zero (S := S1x10) arg4.view hz0]

theorem sout0_B_eq (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc : ¬cond0 i) (x0 x1 : Vec F S16384x32 .f32) (xs : Vec F S1x10 .f32) :
    sout0_B c i arg1 harg1 arg2 harg2 arg3 harg3 arg4 harg4 hc x0 x1 xs = k0_pay2 x0 x1 xs := by
  unfold sout0_B
  rw [View.read_writes_eq_canon _ _ _ (scover0_B c i arg1 harg1 arg2 harg2 arg3 harg3 arg4 harg4 hc x0 x1 xs)]
  unfold kernelRun0_B
  dsimp only
  sl_unfold_run_names
  refine (View.canon_unit_zero (S := S1x10) hz0 _ _).trans ?_
  simp only [View.readAt_eq_ld, harg1.read_unread, harg2.read_unread, harg4.read_unread, View.ld_unit_zero (S := S16384x32) hz0, View.ld_unit_zero (S := S1x10) hz0, readCov_cons_unit_zero (S := S1x10) arg4.view hz0, View.readCov_unit_zero (S := S1x10) arg4.view hz0]

theorem out0_B_eq (c : Dev nD) (i : grid0.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x10 .f32) (harg4 : arg4.IsWhole) (hc : ¬cond0 i) (x0 x1 : Vec F S16384x32 .f32) (xs : Vec F S1x10 .f32) :
    out0_B c i arg1 harg1 arg2 harg2 arg3 harg3 arg4 harg4 hc x0 x1 xs = k0_pay2 x0 x1 xs := by
  unfold out0_B
  rw [View.read_writes_eq_canon _ _ _ (cover0_B c i arg1 harg1 arg2 harg2 arg3 harg3 arg4 harg4 hc x0 x1 xs)]
  unfold kernelRun0_B
  dsimp only
  sl_unfold_run_names
  refine (View.canon_unit_zero (S := S1x10) hz0 _ _).trans ?_
  simp only [View.readAt_eq_ld, harg1.read_unread, harg2.read_unread, harg4.read_unread, View.ld_unit_zero (S := S16384x32) hz0, View.ld_unit_zero (S := S1x10) hz0, readCov_cons_unit_zero (S := S1x10) arg4.view hz0, View.readCov_unit_zero (S := S1x10) arg4.view hz0]

/-! ## The loss kernel -/

theorem sout1_A_eq (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc : cond1 i) (x0 x1 : Vec F S16384x32 .f32) (x2 : Vec F S1x10 .f32) :
    sout1_A c i arg1 harg1 arg2 harg2 arg3 harg3 arg4 harg4 arg5 harg5 hc x0 x1 x2 = k1_pay1 (k1_pay3 x0 x1 x2) (k1_pay4 x0 x1) (k1_pay2 (F := F)) := by
  unfold sout1_A
  rw [View.read_writes_eq_canon _ _ _ (scover1_A c i arg1 harg1 arg2 harg2 arg3 harg3 arg4 harg4 arg5 harg5 hc x0 x1 x2)]
  unfold kernelRun1_A
  dsimp only
  sl_unfold_run_names
  refine (View.canon_cons_unit_zero (S := S1x1) hz0 _ _ _).trans ?_
  simp only [View.readAt_eq_ld, harg1.read_unread, harg2.read_unread, harg3.read_unread, View.ld_unit_zero (S := S16384x32) hz0, View.ld_unit_zero (S := S1x10) hz0, View.ld_unit_zero (S := S1x1) hz0, readCov_cons_unit_zero (S := S1x1) arg5.view hz0, View.readCov_unit_zero (S := S1x1) arg5.view hz0]

theorem out1_A_eq (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc : cond1 i) (x0 x1 : Vec F S16384x32 .f32) (x2 : Vec F S1x10 .f32) :
    out1_A c i arg1 harg1 arg2 harg2 arg3 harg3 arg4 harg4 arg5 harg5 hc x0 x1 x2 = k1_pay1 (k1_pay3 x0 x1 x2) (k1_pay4 x0 x1) (k1_pay2 (F := F)) := by
  unfold out1_A
  rw [View.read_writes_eq_canon _ _ _ (cover1_A c i arg1 harg1 arg2 harg2 arg3 harg3 arg4 harg4 arg5 harg5 hc x0 x1 x2)]
  unfold kernelRun1_A
  dsimp only
  sl_unfold_run_names
  refine (View.canon_unit_zero (S := S1x1) hz0 _ _).trans ?_
  simp only [View.readAt_eq_ld, harg1.read_unread, harg2.read_unread, harg3.read_unread, View.ld_unit_zero (S := S16384x32) hz0, View.ld_unit_zero (S := S1x10) hz0, View.ld_unit_zero (S := S1x1) hz0, readCov_cons_unit_zero (S := S1x1) arg5.view hz0, View.readCov_unit_zero (S := S1x1) arg5.view hz0]

theorem sout1_B_eq (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc : ¬cond1 i) (x0 x1 : Vec F S16384x32 .f32) (x2 : Vec F S1x10 .f32) (xs : Vec F S1x1 .f32) :
    sout1_B c i arg1 harg1 arg2 harg2 arg3 harg3 arg4 harg4 arg5 harg5 hc x0 x1 x2 xs = k1_pay1 (k1_pay3 x0 x1 x2) (k1_pay4 x0 x1) xs := by
  unfold sout1_B
  rw [View.read_writes_eq_canon _ _ _ (scover1_B c i arg1 harg1 arg2 harg2 arg3 harg3 arg4 harg4 arg5 harg5 hc x0 x1 x2 xs)]
  unfold kernelRun1_B
  dsimp only
  sl_unfold_run_names
  refine (View.canon_unit_zero (S := S1x1) hz0 _ _).trans ?_
  simp only [View.readAt_eq_ld, harg1.read_unread, harg2.read_unread, harg3.read_unread, harg5.read_unread, View.ld_unit_zero (S := S16384x32) hz0, View.ld_unit_zero (S := S1x10) hz0, View.ld_unit_zero (S := S1x1) hz0, readCov_cons_unit_zero (S := S1x1) arg5.view hz0, View.readCov_unit_zero (S := S1x1) arg5.view hz0]

theorem out1_B_eq (c : Dev nD) (i : grid1.Coords) (arg1 : Memref sig .tc .vmem S16384x32 .f32) (harg1 : arg1.IsWhole) (arg2 : Memref sig .tc .vmem S16384x32 .f32) (harg2 : arg2.IsWhole) (arg3 : Memref sig .tc .vmem S1x10 .f32) (harg3 : arg3.IsWhole) (arg4 : Memref sig .tc .vmem S1x1 .f32) (harg4 : arg4.IsWhole) (arg5 : Memref sig .tc .vmem S1x1 .f32) (harg5 : arg5.IsWhole) (hc : ¬cond1 i) (x0 x1 : Vec F S16384x32 .f32) (x2 : Vec F S1x10 .f32) (xs : Vec F S1x1 .f32) :
    out1_B c i arg1 harg1 arg2 harg2 arg3 harg3 arg4 harg4 arg5 harg5 hc x0 x1 x2 xs = k1_pay1 (k1_pay3 x0 x1 x2) (k1_pay4 x0 x1) xs := by
  unfold out1_B
  rw [View.read_writes_eq_canon _ _ _ (cover1_B c i arg1 harg1 arg2 harg2 arg3 harg3 arg4 harg4 arg5 harg5 hc x0 x1 x2 xs)]
  unfold kernelRun1_B
  dsimp only
  sl_unfold_run_names
  refine (View.canon_unit_zero (S := S1x1) hz0 _ _).trans ?_
  simp only [View.readAt_eq_ld, harg1.read_unread, harg2.read_unread, harg3.read_unread, harg5.read_unread, View.ld_unit_zero (S := S16384x32) hz0, View.ld_unit_zero (S := S1x10) hz0, View.ld_unit_zero (S := S1x1) hz0, readCov_cons_unit_zero (S := S1x1) arg5.view hz0, View.readCov_unit_zero (S := S1x1) arg5.view hz0]

end Cert.KernelIdeal.Fr

end
-- ==== Proof.Spec.lean ====
/-
  The two programs as functions of the argument arrays, over the extended reals.

  An input array is read as rows `r : Fin 1048576` of 32 entries. Row `r` has a mean absolute difference
  `g r = (Σ_j |x r j − t r j|) / 32`, a bin `bin r = min 9 (max 0 ⌊10 · g r⌋)` (a 32-bit word), and a mean
  cross-entropy `ml r`. From the histogram `cnt b = #{r | bin r = b}` of the bins come ten weights
  `pbw b = smooth b · 2^25 / (cnt b / 4)` (zero for an empty bin) and their squares `wb b`.

  * The kernel normalises per BIN: `wtab b = wb b / Σ_b cnt b · wb b`, looks the row's weight up through the one-hot
    row `Σ_b [bin r = b] · wtab b`, and adds the rows up tile by tile (64 tiles of 16384 rows).
  * The reference normalises per ROW: `w r = wb (bin r) / Σ_r wb (bin r)`, and adds all rows up at once.

  Both drop a normalised weight below the literal 1e-6. The two sums of weights are the same number because
  `Σ_r wb (bin r) = Σ_b cnt b · wb b` (rows grouped by their bin), so the two losses agree (`Law.lean`).
-/
import Idealize.ShloMosaic.PureOps.Ideal
import Idealize.ShloMosaic.Lib.ValueIdx

noncomputable section

open scoped BigOperators

namespace Cert.Spec

open Idealize.ShloMosaic

/-! 1048576 rows of 32 columns; 10 bins; 64 tiles of 16384 rows. -/

/-- A 32-bit float literal as an extended real. -/
abbrev lit (w : BitVec 32) : EReal := Ideal.ofBits .f32 w

/-- The literals of the two programs: 0, 1, 32, 10, 1/4, 2^25 and the threshold 1e-6 (as f32). -/
abbrev zero : EReal := lit 0x00000000#32
abbrev one : EReal := lit 0x3F800000#32
abbrev c32 : EReal := lit 0x42000000#32
abbrev c10 : EReal := lit 0x41200000#32
abbrev quarter : EReal := lit 0x3E800000#32
abbrev tot : EReal := lit 0x4C000000#32
abbrev eps : EReal := lit 0x358637BD#32

/-- The smoothing table's words: 1, 3/4, then zeros. -/
abbrev smoothBits : Fin 10 → BitVec 32 := fun
  | 0 => 0x3F800000#32 | 1 => 0x3F400000#32 | 2 => 0x00000000#32 | 3 => 0x00000000#32 | 4 => 0x00000000#32 | 5 => 0x00000000#32 | 6 => 0x00000000#32 | 7 => 0x00000000#32
  | 8 => 0x00000000#32 | 9 => 0x00000000#32
  | _ => 0#32
abbrev smooth (b : Fin 10) : EReal := lit (smoothBits b)

/-- An array of shape [1048576, 32] read by row and column. -/
def rows (a : (⟨2, ![1048576, 32]⟩ : Shape).Idx → EReal) : Fin 1048576 → Fin 32 → EReal := fun r j => a (ValueIdx.ix2 r j)

/-- Row `p` of tile `s`. -/
def tileRow (s : Fin 64) (p : Fin 16384) : Fin 1048576 := ⟨s.val * 16384 + p.val, by have := s.isLt; have := p.isLt; omega⟩

section

variable (x t : Fin 1048576 → Fin 32 → EReal)

/-! ## What both programs compute per row -/

/-- The mean absolute difference of row `r`. -/
def g (r : Fin 1048576) : EReal := Ideal.div (zero + ∑ j : Fin 32, max (x r j - t r j) (-(x r j - t r j))) c32

/-- The row's bin, a 32-bit word in [0, 9]. -/
def bin (r : Fin 1048576) : BitVec 32 :=
  IntOp.minsi 9#32 (IntOp.maxsi 0#32 (Ideal.fptosi 32 (Ideal.liftRound Int.floor (g x t r * c10))))

/-- Entry `b` of the row's one-hot vector: 1 if the row is in bin `b`, else 0 (a one-bit comparison widened and converted). -/
def onehot (r : Fin 1048576) (b : Fin 10) : EReal :=
  ((((IntOp.cmpi .eq (bin x t r) (BitVec.ofNat 32 b.val)).setWidth 32 : BitVec 32).toInt : ℝ) : EReal)

/-- The ten weights from a histogram `cnt`: `smooth · 2^25 / (cnt/4)`, the divisor 1 and the weight 0 for an empty bin. -/
def pbwOf (cnt : Fin 10 → EReal) (b : Fin 10) : EReal :=
  Scalar.select (Ideal.cmp .ogt (cnt b) zero)
    (Ideal.div (smooth b * tot) (Scalar.select (Ideal.cmp .ogt (quarter * cnt b) zero) (quarter * cnt b) one)) zero

/-! ## The kernel -/

/-- The one-hot rows of tile `s` added up, and the histogram accumulated over the tiles before `n`. -/
def tileCount (s : Fin 64) (b : Fin 10) : EReal := zero + ∑ p : Fin 16384, onehot x t (tileRow s p) b
def countUpTo (n : Nat) (b : Fin 10) : EReal := zero + ∑ s : Fin 64, if s.val < n then tileCount x t s b else 0
def kcount (b : Fin 10) : EReal := countUpTo x t 64 b

/-- The kernel's table of normalised squared weights, per bin. -/
def kwb (b : Fin 10) : EReal := pbwOf (kcount x t) b * pbwOf (kcount x t) b
def ksum : EReal := zero + ∑ b : Fin 10, kcount x t b * kwb x t b
def wtab (b : Fin 10) : EReal :=
  Scalar.select (Ideal.cmp .olt (Ideal.div (kwb x t b) (ksum x t)) eps) zero (Ideal.div (kwb x t b) (ksum x t))

/-- The row's weight looked up through its one-hot vector. -/
def wrow (r : Fin 1048576) : EReal := zero + ∑ b : Fin 10, onehot x t r b * wtab x t b

/-- The row's mean cross-entropy, as the kernel spells it (`0 − ·` for the negations). -/
def kml (r : Fin 1048576) : EReal :=
  Ideal.div (zero + ∑ j : Fin 32, (zero - (t r j * Ideal.log (x r j) + (one - t r j) * Ideal.log1p (zero - x r j)))) c32

/-- Tile `s`'s weighted sum, and the loss accumulated over the tiles before `n`. -/
def tileLoss (s : Fin 64) : EReal := zero + ∑ p : Fin 16384, kml x t (tileRow s p) * wrow x t (tileRow s p)
def lossUpTo (n : Nat) : EReal := zero + ∑ s : Fin 64, if s.val < n then tileLoss x t s else 0
def kernelLoss : EReal := lossUpTo x t 64

/-! ## The reference -/

/-- The histogram as a scatter of ones: bin `b` receives a one from every row whose bin is `b`. -/
def rcount (b : Fin 10) : EReal := zero + ∑ r : Fin 1048576, if bin x t r = BitVec.ofNat 32 b.val then one else 0

/-- The row's bin as an index of the ten-entry table. -/
def binF (r : Fin 1048576) : Fin 10 := Fin.ofNat 10 (bin x t r).toNat

/-- The row's squared weight, the sum of these over all rows, and the row's normalised weight. -/
def rwb (r : Fin 1048576) : EReal := pbwOf (rcount x t) (binF x t r) * pbwOf (rcount x t) (binF x t r)
def rsum : EReal := zero + ∑ r : Fin 1048576, rwb x t r
def w (r : Fin 1048576) : EReal :=
  Scalar.select (Ideal.cmp .olt (Ideal.div (rwb x t r) (rsum x t)) eps) zero (Ideal.div (rwb x t r) (rsum x t))

/-- The row's mean cross-entropy, as the reference spells it (negations as `−`). -/
def rml (r : Fin 1048576) : EReal :=
  Ideal.div (zero + ∑ j : Fin 32, -(t r j * Ideal.log (x r j) + (one - t r j) * Ideal.log1p (-(x r j)))) c32

def refLoss : EReal := zero + ∑ r : Fin 1048576, rml x t r * w x t r

end

end Cert.Spec

end
-- ==== Proof.KiBlocks.lean ====
/-
  The windows' blocks as parts of their arrays.

  Both kernels walk the 64 row tiles of the two [1048576, 32] arrays in order: at tile `t` an input window's block is
  the 16384 rows `16384·t … 16384·t + 16383` of its array (block index `(t, 0)`, and an element of a block sits, on
  each axis, at block index × block size + its own coordinate), so entry `(p, j)` of the block is entry
  `(16384·t + p, j)` of the array: row `p` of tile `t`. The small windows (the [1, 10] histogram and weight table,
  the [1, 1] loss) have block index `(0, 0)` at every tile and a block as large as the array: reading the block is
  reading the array, and every index of the array lies in the block of every tile, in particular of the last tile,
  the only one that is written back.
-/
import proofs.«135723_j46686294508030_2_alg».proof.Proof.KiShared
import proofs.«135723_j46686294508030_2_alg».proof.Proof.Spec

set_option maxRecDepth 16384

noncomputable section

namespace Cert.KernelIdeal.Blk

open Cert.KernelIdeal Cert.KernelIdeal.Gen Cert.KernelIdeal.Fr
open Idealize.ShloMosaic Idealize.ShloMosaic.TcCoe Idealize.ShloMosaic.ValueIdx

variable {F : FTy → Type} [FloatOps F]

/-! ## The block indices, decided once over each grid -/

/-- The histogram kernel: the input windows' block index at tile `t` is `(t, 0)`, the output window's `(0, 0)`. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0)

/-- The loss kernel: the same for its two input windows; the weight table's and the output's block index is `(0, 0)`. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0)

/-- The tile of a grid point, as an index of the 64 tiles. -/
abbrev tile0 (t : Fin cfg0.N) : Fin 64 := ⟨t.val, lt_of_lt_of_eq t.isLt N_0⟩
abbrev tile1 (t : Fin cfg1.N) : Fin 64 := ⟨t.val, lt_of_lt_of_eq t.isLt N_1⟩

/-! ## The row windows: entry (p, j) of tile t's block is entry (row p of tile t, j) of the array -/

theorem blk0_0_apply (A : S1048576x32.Idx → Elt F .f32) (t : Fin cfg0.N) (p : Fin 16384) (j : Fin 32) :
    ((cfg0.win 0).blk t).view.read (Elt F) A (ix2 p j) = A (ix2 (Cert.Spec.tileRow (tile0 t) p) j) := by
  obtain ⟨e0, e1, -⟩ := idx0 t
  rw [View.read_apply]
  show A _ = A _
  refine congrArg A ?_
  funext a
  apply Fin.ext
  match a with
  | ⟨0, _⟩ => show win0_0.index t (0 : Fin 2) * 16384 + 1 * p.val = t.val * 16384 + p.val; rw [e0]; omega
  | ⟨1, _⟩ => show win0_0.index t (1 : Fin 2) * 32 + 1 * j.val = j.val; rw [e1]; omega

theorem blk0_1_apply (A : S1048576x32.Idx → Elt F .f32) (t : Fin cfg0.N) (p : Fin 16384) (j : Fin 32) :
    ((cfg0.win 1).blk t).view.read (Elt F) A (ix2 p j) = A (ix2 (Cert.Spec.tileRow (tile0 t) p) j) := by
  obtain ⟨-, -, e0, e1, -⟩ := idx0 t
  rw [View.read_apply]
  show A _ = A _
  refine congrArg A ?_
  funext a
  apply Fin.ext
  match a with
  | ⟨0, _⟩ => show win0_1.index t (0 : Fin 2) * 16384 + 1 * p.val = t.val * 16384 + p.val; rw [e0]; omega
  | ⟨1, _⟩ => show win0_1.index t (1 : Fin 2) * 32 + 1 * j.val = j.val; rw [e1]; omega

theorem blk1_0_apply (A : S1048576x32.Idx → Elt F .f32) (t : Fin cfg1.N) (p : Fin 16384) (j : Fin 32) :
    ((cfg1.win 0).blk t).view.read (Elt F) A (ix2 p j) = A (ix2 (Cert.Spec.tileRow (tile1 t) p) j) := by
  obtain ⟨e0, e1, -⟩ := idx1 t
  rw [View.read_apply]
  show A _ = A _
  refine congrArg A ?_
  funext a
  apply Fin.ext
  match a with
  | ⟨0, _⟩ => show win1_0.index t (0 : Fin 2) * 16384 + 1 * p.val = t.val * 16384 + p.val; rw [e0]; omega
  | ⟨1, _⟩ => show win1_0.index t (1 : Fin 2) * 32 + 1 * j.val = j.val; rw [e1]; omega

theorem blk1_1_apply (A : S1048576x32.Idx → Elt F .f32) (t : Fin cfg1.N) (p : Fin 16384) (j : Fin 32) :
    ((cfg1.win 1).blk t).view.read (Elt F) A (ix2 p j) = A (ix2 (Cert.Spec.tileRow (tile1 t) p) j) := by
  obtain ⟨-, -, e0, e1, -⟩ := idx1 t
  rw [View.read_apply]
  show A _ = A _
  refine congrArg A ?_
  funext a
  apply Fin.ext
  match a with
  | ⟨0, _⟩ => show win1_1.index t (0 : Fin 2) * 16384 + 1 * p.val = t.val * 16384 + p.val; rw [e0]; omega
  | ⟨1, _⟩ => show win1_1.index t (1 : Fin 2) * 32 + 1 * j.val = j.val; rw [e1]; omega

/-! ## The whole-array windows: the block at every tile is the array -/

/-- The histogram output's block, read off any contents of its array, is those contents. -/
theorem blk0_2_read (G : S1x10.Idx → Elt F .f32) (t : Fin cfg0.N) :
    ((cfg0.win 2).blk t).view.read (Elt F) G = G := by
  obtain ⟨-, -, -, -, e0, e1⟩ := idx0 t
  funext y
  rw [View.read_apply]
  show G _ = G _
  refine congrArg G ?_
  funext a
  apply Fin.ext
  match a with
  | ⟨0, _⟩ => show win0_2.index t (0 : Fin 2) * 1 + 1 * (y 0).val = (y 0).val; rw [e0]; omega
  | ⟨1, _⟩ => show win0_2.index t (1 : Fin 2) * 10 + 1 * (y 1).val = (y 1).val; rw [e1]; omega

/-- The weight table's block likewise. -/
theorem blk1_2_read (A : S1x10.Idx → Elt F .f32) (t : Fin cfg1.N) :
    ((cfg1.win 2).blk t).view.read (Elt F) A = A := by
  obtain ⟨-, -, -, -, e0, e1, -⟩ := idx1 t
  funext y
  rw [View.read_apply]
  show A _ = A _
  refine congrArg A ?_
  funext a
  apply Fin.ext
  match a with
  | ⟨0, _⟩ => show win1_2.index t (0 : Fin 2) * 1 + 1 * (y 0).val = (y 0).val; rw [e0]; omega
  | ⟨1, _⟩ => show win1_2.index t (1 : Fin 2) * 10 + 1 * (y 1).val = (y 1).val; rw [e1]; omega

theorem blk1_2_apply (A : S1x10.Idx → Elt F .f32) (t : Fin cfg1.N) (b : Fin 10) :
    ((cfg1.win 2).blk t).view.read (Elt F) A (ix2 (0 : Fin 1) b) = A (ix2 (0 : Fin 1) b) :=
  congrFun (blk1_2_read A t) (ix2 (0 : Fin 1) b)

/-- The loss output's block likewise. -/
theorem blk1_3_read (G : S1x1.Idx → Elt F .f32) (t : Fin cfg1.N) :
    ((cfg1.win 3).blk t).view.read (Elt F) G = G := by
  obtain ⟨-, -, -, -, -, -, e0, e1⟩ := idx1 t
  funext y
  rw [View.read_apply]
  show G _ = G _
  refine congrArg G ?_
  funext a
  apply Fin.ext
  match a with
  | ⟨0, _⟩ => show win1_3.index t (0 : Fin 2) * 1 + 1 * (y 0).val = (y 0).val; rw [e0]; omega
  | ⟨1, _⟩ => show win1_3.index t (1 : Fin 2) * 1 + 1 * (y 1).val = (y 1).val; rw [e1]; omega

/-! ## The output windows' blocks cover their arrays -/

/-- An index of the histogram's array is in tile `t`'s block iff each coordinate is in the block's range on its axis. -/
theorem mem_blk0_2 (t : Fin cfg0.N) (i : S1x10.Idx) :
    i ∈ ((cfg0.win 2).blk t).view.set ↔ ∀ a : Fin 2, win0_2.index t a * S1x10.size a ≤ (i a).val ∧ (i a).val < win0_2.index t a * S1x10.size a + S1x10.size a := by
  show i ∈ ((View.whole main_v0).slice (win0_2.rect t)).set ↔ _
  rw [View.set_slice_whole, Rect.mem_set_unit]
  exact Iff.rfl

/-- Every index of the histogram's array is in every tile's block. -/
theorem mem_all0_2 (t : Fin cfg0.N) (i : S1x10.Idx) : i ∈ ((cfg0.win 2).blk t).view.set := by
  obtain ⟨-, -, -, -, e0, e1⟩ := idx0 t
  rw [mem_blk0_2]
  intro a
  have h0 : (i 0).val < 1 := (i 0).isLt
  have h1 : (i 1).val < 10 := (i 1).isLt
  match a with
  | ⟨0, _⟩ => show win0_2.index t (0 : Fin 2) * 1 ≤ (i 0).val ∧ (i 0).val < win0_2.index t (0 : Fin 2) * 1 + 1; rw [e0]; omega
  | ⟨1, _⟩ => show win0_2.index t (1 : Fin 2) * 10 ≤ (i 1).val ∧ (i 1).val < win0_2.index t (1 : Fin 2) * 10 + 10; rw [e1]; omega

/-- The last tile of the histogram kernel, the one that writes the histogram back. -/
abbrev last0 : Fin cfg0.N := ⟨63, by rw [show cfg0.N = 64 from N_0]; decide⟩

/-- The one write-back's block covers the histogram's array. -/
theorem cover0_2 : ∀ i : S1x10.Idx, ∃ t : Fin cfg0.N, (cfg0.win 2).flush t = true ∧ i ∈ ((cfg0.win 2).blk t).view.set :=
  fun i => ⟨last0, (flush0_2 last0).mpr rfl, mem_all0_2 last0 i⟩

theorem mem_blk1_3 (t : Fin cfg1.N) (i : S1x1.Idx) :
    i ∈ ((cfg1.win 3).blk t).view.set ↔ ∀ a : Fin 2, win1_3.index t a * S1x1.size a ≤ (i a).val ∧ (i a).val < win1_3.index t a * S1x1.size a + S1x1.size a := by
  show i ∈ ((View.whole main_v22).slice (win1_3.rect t)).set ↔ _
  rw [View.set_slice_whole, Rect.mem_set_unit]
  exact Iff.rfl

/-- The one index of the loss's array is in every tile's block. -/
theorem mem_all1_3 (t : Fin cfg1.N) (i : S1x1.Idx) : i ∈ ((cfg1.win 3).blk t).view.set := by
  obtain ⟨-, -, -, -, -, -, e0, e1⟩ := idx1 t
  rw [mem_blk1_3]
  intro a
  have h0 : (i 0).val < 1 := (i 0).isLt
  have h1 : (i 1).val < 1 := (i 1).isLt
  match a with
  | ⟨0, _⟩ => show win1_3.index t (0 : Fin 2) * 1 ≤ (i 0).val ∧ (i 0).val < win1_3.index t (0 : Fin 2) * 1 + 1; rw [e0]; omega
  | ⟨1, _⟩ => show win1_3.index t (1 : Fin 2) * 1 ≤ (i 1).val ∧ (i 1).val < win1_3.index t (1 : Fin 2) * 1 + 1; rw [e1]; omega

/-- The last tile of the loss kernel. -/
abbrev last1 : Fin cfg1.N := ⟨63, by rw [show cfg1.N = 64 from N_1]; decide⟩

/-- The one write-back's block covers the loss's array. -/
theorem cover1_3 : ∀ i : S1x1.Idx, ∃ t : Fin cfg1.N, (cfg1.win 3).flush t = true ∧ i ∈ ((cfg1.win 3).blk t).view.set :=
  fun i => ⟨last1, (flush1_3 last1).mpr rfl, mem_all1_3 last1 i⟩

/-! ## The input blocks as the region finds them, by rows -/

section Rows

variable (V : (c : Dev nD) → (b : Ref sig .tc) → Buf (Elt Ideal) ((c : Thread nD τ).loc b))

theorem iblk0_0_rows (c : Dev nD) (t : Fin cfg0.N) (p : Fin 16384) (j : Fin 32) :
    iblk0 V c 0 t (ix2 p j) = Cert.Spec.rows (V c main_arg0) (Cert.Spec.tileRow (tile0 t) p) j :=
  blk0_0_apply (F := Ideal) (V c main_arg0) t p j

theorem iblk0_1_rows (c : Dev nD) (t : Fin cfg0.N) (p : Fin 16384) (j : Fin 32) :
    iblk0 V c 1 t (ix2 p j) = Cert.Spec.rows (V c main_arg1) (Cert.Spec.tileRow (tile0 t) p) j :=
  blk0_1_apply (F := Ideal) (V c main_arg1) t p j

theorem iblk1_0_rows (c : Dev nD) (t : Fin cfg1.N) (p : Fin 16384) (j : Fin 32) :
    iblk1 V c 0 t (ix2 p j) = Cert.Spec.rows (V c main_arg0) (Cert.Spec.tileRow (tile1 t) p) j :=
  blk1_0_apply (F := Ideal) (V c main_arg0) t p j

theorem iblk1_1_rows (c : Dev nD) (t : Fin cfg1.N) (p : Fin 16384) (j : Fin 32) :
    iblk1 V c 1 t (ix2 p j) = Cert.Spec.rows (V c main_arg1) (Cert.Spec.tileRow (tile1 t) p) j :=
  blk1_1_apply (F := Ideal) (V c main_arg1) t p j

/-- The weight table's block is the table. -/
theorem iblk1_2_table (c : Dev nD) (t : Fin cfg1.N) (b : Fin 10) :
    iblk1 V c 2 t (ix2 (0 : Fin 1) b) = V c main_v21 (ix2 (0 : Fin 1) b) :=
  blk1_2_apply (F := Ideal) (V c main_v21) t b

/-- The same with the arrays named: if `x` is the first argument read by rows, the block's entry is `x`'s. -/
theorem iblk0_0_of (c : Dev nD) (x : Fin 1048576 → Fin 32 → EReal) (hx : x = Cert.Spec.rows (V c main_arg0))
    (t : Fin cfg0.N) (p : Fin 16384) (j : Fin 32) : iblk0 V c 0 t (ix2 p j) = x (Cert.Spec.tileRow (tile0 t) p) j := by
  rw [hx]; exact iblk0_0_rows V c t p j
theorem iblk0_1_of (c : Dev nD) (x : Fin 1048576 → Fin 32 → EReal) (hx : x = Cert.Spec.rows (V c main_arg1))
    (t : Fin cfg0.N) (p : Fin 16384) (j : Fin 32) : iblk0 V c 1 t (ix2 p j) = x (Cert.Spec.tileRow (tile0 t) p) j := by
  rw [hx]; exact iblk0_1_rows V c t p j
theorem iblk1_0_of (c : Dev nD) (x : Fin 1048576 → Fin 32 → EReal) (hx : x = Cert.Spec.rows (V c main_arg0))
    (t : Fin cfg1.N) (p : Fin 16384) (j : Fin 32) : iblk1 V c 0 t (ix2 p j) = x (Cert.Spec.tileRow (tile1 t) p) j := by
  rw [hx]; exact iblk1_0_rows V c t p j
theorem iblk1_1_of (c : Dev nD) (x : Fin 1048576 → Fin 32 → EReal) (hx : x = Cert.Spec.rows (V c main_arg1))
    (t : Fin cfg1.N) (p : Fin 16384) (j : Fin 32) : iblk1 V c 1 t (ix2 p j) = x (Cert.Spec.tileRow (tile1 t) p) j := by
  rw [hx]; exact iblk1_1_rows V c t p j

end Rows

end Cert.KernelIdeal.Blk

end
-- ==== Proof.LawAcc.lean ====
/-
  The accumulators of the kernel, one tile at a time.

  The histogram and the loss are accumulated over the 64 tiles; "the tiles before `n`" is written as a sum over all
  tiles with the later ones replaced by zero. Taking one more tile adds that tile's term: a tile index below `s + 1`
  is either below `s` or equal to `s`.
-/
import proofs.«135723_j46686294508030_2_alg».proof.Proof.Spec

open scoped BigOperators

namespace Cert.Spec

open Idealize.ShloMosaic

/-- The float literal zero is the extended real zero. -/
theorem zero_eq : zero = 0 := by simp [Ideal.ofBits, Ideal.ieee]

/-- No tile is before tile 0: the accumulator starts from the literal zero. -/
theorem acc_zero (f : Fin 64 → EReal) : zero + ∑ s : Fin 64, (if s.val < 0 then f s else 0) = zero := by
  simp

/-- The tiles before `s + 1` are the tiles before `s`, and tile `s`. -/
theorem acc_succ (f : Fin 64 → EReal) (s : Fin 64) :
    zero + ∑ s' : Fin 64, (if s'.val < s.val + 1 then f s' else 0)
      = (zero + ∑ s' : Fin 64, (if s'.val < s.val then f s' else 0)) + f s := by
  have h : ∀ s' : Fin 64, (if s'.val < s.val + 1 then f s' else 0)
      = (if s'.val < s.val then f s' else 0) + (if s' = s then f s' else 0) := by
    intro s'
    by_cases h1 : s'.val < s.val
    · have h2 : s' ≠ s := fun e => by rw [e] at h1; exact lt_irrefl _ h1
      have h3 : s'.val < s.val + 1 := Nat.lt_succ_of_lt h1
      rw [if_pos h1, if_pos h3, if_neg h2, add_zero]
    · by_cases h2 : s' = s
      · have h3 : s'.val < s.val + 1 := by rw [h2]; exact Nat.lt_succ_self _
        rw [if_neg h1, if_pos h3, if_pos h2, zero_add]
      · have h3 : ¬ s'.val < s.val + 1 := fun h3 => h2 (Fin.ext (by omega))
        rw [if_neg h1, if_neg h3, if_neg h2, add_zero]
  rw [Finset.sum_congr rfl (fun s' _ => h s'), Finset.sum_add_distrib, Finset.sum_ite_eq' Finset.univ s f,
    if_pos (Finset.mem_univ s), add_assoc]

theorem countUpTo_zero (x t : Fin 1048576 → Fin 32 → EReal) (b : Fin 10) : countUpTo x t 0 b = zero :=
  acc_zero fun s => tileCount x t s b

theorem countUpTo_succ (x t : Fin 1048576 → Fin 32 → EReal) (s : Fin 64) (b : Fin 10) :
    countUpTo x t (s.val + 1) b = countUpTo x t s.val b + tileCount x t s b :=
  acc_succ (fun s => tileCount x t s b) s

theorem lossUpTo_zero (x t : Fin 1048576 → Fin 32 → EReal) : lossUpTo x t 0 = zero :=
  acc_zero fun s => tileLoss x t s

theorem lossUpTo_succ (x t : Fin 1048576 → Fin 32 → EReal) (s : Fin 64) :
    lossUpTo x t (s.val + 1) = lossUpTo x t s.val + tileLoss x t s :=
  acc_succ (fun s => tileLoss x t s) s

end Cert.Spec
-- ==== Proof.KiPayLib.lean ====
/-
  Layout operations and one-axis sums of a matrix, read at an index given by coordinates.

  A sum along the columns of an [a, b] array at row p is the sum over the b columns; a sum along the rows at column q is
  the sum over the a rows. A vector [a] viewed as a column [a, 1] reads the vector's entry; a column [a, 1] broadcast
  to [a, b] reads the column's entry of the same row. An iota along axis 1 reads the column's number.
-/
import Idealize.ShloMosaic.Lib.ValueLayout
import Idealize.ShloMosaic.PureOps.Ideal.Laws

open scoped BigOperators

namespace Cert.KernelIdeal.Pay

open Idealize.ShloMosaic Idealize.ShloMosaic.ValueIdx

variable {α : Type}

/-- The sum along axis 1 of an [a, b] array of extended reals, read at row p: the sum over the columns. -/
theorem sum_axis1_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ j : Fin b, src (ix2 p j) := by
  refine (Ideal.multiReduction_add_single src 0x00000000#32 h hφ hacc (ix1 p)).trans ?_
  show ∑ k : Fin b, src (h.lift (ix1 p) k) = _
  refine Finset.sum_congr rfl fun k _ => congrArg src ?_
  funext c
  match c with
  | ⟨0, _⟩ => exact Fin.ext rfl
  | ⟨1, _⟩ => exact Fin.ext rfl

/-- The sum along axis 0 of an [a, b] array of extended reals, read at column q: the sum over the rows. -/
theorem sum_axis0_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ src 0x00000000#32 h hφ hacc (ix1 q) = ∑ p : Fin a, src (ix2 p q) := by
  refine (Ideal.multiReduction_add_single src 0x00000000#32 h hφ hacc (ix1 q)).trans ?_
  show ∑ k : Fin a, src (h.lift (ix1 q) k) = _
  refine Finset.sum_congr rfl fun k _ => congrArg src ?_
  funext c
  match c with
  | ⟨0, _⟩ => exact Fin.ext rfl
  | ⟨1, _⟩ => exact Fin.ext rfl

/-- A vector [a] viewed as a column [a, 1] reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast to [a, b] reads, at (p, q), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- An iota along axis 1 of an [a, b] array reads, at (p, q), the column's number. -/
theorem iota_axis1_apply {a b w : ℕ} (κ : Kind) (h : (⟨2, ![a, b]⟩ : Shape).Iotas κ w [1]) (p : Fin a) (q : Fin b) :
    iota κ ⟨2, ![a, b]⟩ w [1] h (ix2 p q) = BitVec.ofNat w q.val :=
  iota_single_apply κ _ w 1 h (ix2 p q)

end Cert.KernelIdeal.Pay
-- ==== Proof.KiPayHist.lean ====
/-
  The histogram kernel's arithmetic read at an index, over the extended reals.

  From the two loaded blocks (rows of tile `s` of the two arguments) the kernel computes, per row, the mean absolute
  difference, multiplies by ten, takes the floor, converts to a 32-bit word and clamps it into [0, 9]: the row's bin.
  The one-hot array compares the bin, broadcast along the ten columns, with the column's number, and converts the bit.
  Its column sums over the 16384 rows of the tile are added to the accumulator.
-/
import proofs.«135723_j46686294508030_2_alg».proof.Proof.Gen.KernelIdeal.Skeleton
import proofs.«135723_j46686294508030_2_alg».proof.Proof.Spec
import proofs.«135723_j46686294508030_2_alg».proof.Proof.LawAcc
import proofs.«135723_j46686294508030_2_alg».proof.Proof.KiPayLib

noncomputable section

open scoped BigOperators

namespace Cert.KernelIdeal.Pay

open Idealize.ShloMosaic Idealize.ShloMosaic.ValueIdx Cert.KernelIdeal Cert.KernelIdeal.Gen Cert.Spec
section Generic
variable {F : FTy → Type} [FloatOps F]

/-- The bins of the rows of a tile, as the kernel computes them from the two loaded blocks: a column of 32-bit words. -/
def rowBin (v3 : Vec F S16384x32 .f32) (v4 : Vec F S16384x32 .f32) : IVec S16384x1 32 :=
  have v5 : FVec F S16384x32 .f32 := subf v3 v4
  have v6 : FVec F S16384x32 .f32 := absf v5
  have v7 : FVec F S16384 .f32 := multiReduction .add [1] S16384 v6 0x00000000#32 reduces_S16384x32_S16384 (.inl rfl) rfl
  have v8 : FVec F S16384x1 .f32 := shapeCast S16384x1 v7 shapeCasts_S16384_S16384x1
  have cst_4 : F .f32 := Scalar.ofBits .f32 0x42000000#32
  have v9 : FVec F S16384x1 .f32 := broadcast S16384x1 cst_4
  have v10 : FVec F S16384x1 .f32 := divf v8 v9
  have cst_5 : F .f32 := Scalar.ofBits .f32 0x41200000#32
  have v11 : FVec F S16384x1 .f32 := broadcast S16384x1 cst_5
  have v12 : FVec F S16384x1 .f32 := mulf v10 v11
  have v13 : FVec F S16384x1 .f32 := floor v12
  have v14 : IVec S16384x1 32 := fptosi 32 v13
  have v15 : IVec S16384x1 32 := broadcast S16384x1 0#32
  have v16 : IVec S16384x1 32 := maxsi v15 v14
  have v17 : IVec S16384x1 32 := broadcast S16384x1 9#32
  have v18 : IVec S16384x1 32 := minsi v17 v16
  v18

/-- The one-hot array of a tile: entry (p, b) is the bit "row p is in bin b", widened and converted. -/
def onehotVec (v3 : Vec F S16384x32 .f32) (v4 : Vec F S16384x32 .f32) : FVec F S16384x10 .f32 :=
  have v18 : IVec S16384x1 32 := rowBin v3 v4
  have v19 : IVec S16384x10 32 := iota .tc S16384x10 32 [1] iota_S16384x10_d1_w32
  have v20 : IVec S16384x10 32 := broadcastTo S16384x10 v18 broadcasts_S16384x1_S16384x10
  have v21 : IVec S16384x10 1 := cmpi .eq v20 v19
  have v22 : IVec S16384x10 32 := extui 32 v21 natLt_1_32
  have v23 : FVec F S16384x10 .f32 := sitofp .f32 v22
  v23

/-- The histogram kernel's stored value is the accumulator plus the column sums of the one-hot array. -/
theorem k0_pay2_eq (v3 v4 : Vec F S16384x32 .f32) (v26 : Vec F S1x10 .f32) :
    k0_pay2 v3 v4 v26
      = shapeCast S1x10 (addf v26 (shapeCast S1x10
          (multiReduction .add [0] S10 (onehotVec v3 v4) 0x00000000#32 reduces_S16384x10_S10 (.inl rfl) rfl)
          shapeCasts_S10_S1x10)) shapeCasts_S1x10_S1x10 := rfl

end Generic

section AtIdeal

variable (x t : Fin 1048576 → Fin 32 → EReal) (s : Fin 64) (v3 v4 : Vec Ideal S16384x32 .f32)
  (h3 : ∀ (p : Fin 16384) (j : Fin 32), v3 (ix2 p j) = x (tileRow s p) j)
  (h4 : ∀ (p : Fin 16384) (j : Fin 32), v4 (ix2 p j) = t (tileRow s p) j)

include h3 h4

/-- The kernel's bin of row p of the tile is the specification's bin of that row of the arrays. -/
theorem rowBin_apply (p : Fin 16384) (u : Fin 1) : rowBin (F := Ideal) v3 v4 (ix2 p u) = bin x t (tileRow s p) := by
  have hsum : multiReduction (F := Ideal) .add [1] S16384 (absf (subf v3 v4)) 0x00000000#32 reduces_S16384x32_S16384 (.inl rfl) rfl (ix1 p)
      = ∑ j : Fin 32, max (x (tileRow s p) j - t (tileRow s p) j) (-(x (tileRow s p) j - t (tileRow s p) j)) := by
    refine (sum_axis1_apply _ _ _ rfl p).trans ?_
    refine Finset.sum_congr rfl fun j _ => ?_
    show max (v3 (ix2 p j) - v4 (ix2 p j)) (-(v3 (ix2 p j) - v4 (ix2 p j))) = _
    rw [h3, h4]
  show IntOp.minsi 9#32 (IntOp.maxsi 0#32 (Ideal.fptosi 32 (Ideal.liftRound Int.floor
      (Ideal.div (shapeCast S16384x1 _ shapeCasts_S16384_S16384x1 (ix2 p u)) (Ideal.ofBits .f32 0x42000000#32)
        * Ideal.ofBits .f32 0x41200000#32)))) = _
  rw [shapeCast_a_a1_apply, hsum]
  unfold bin g
  rw [zero_eq, zero_add]

/-- The kernel's one-hot entry (p, b) is the specification's. -/
theorem onehotVec_apply (p : Fin 16384) (b : Fin 10) :
    onehotVec (F := Ideal) v3 v4 (ix2 p b) = onehot x t (tileRow s p) b := by
  show ((((IntOp.cmpi .eq (broadcastTo S16384x10 (rowBin (F := Ideal) v3 v4) broadcasts_S16384x1_S16384x10 (ix2 p b))
      (iota .tc S16384x10 32 [1] iota_S16384x10_d1_w32 (ix2 p b))).setWidth 32 : BitVec 32).toInt : ℝ) : EReal) = _
  rw [broadcastTo_a1_ab_apply, iota_axis1_apply, rowBin_apply x t s v3 v4 h3 h4]
  rfl

/-- The histogram kernel's store at tile `s`: the accumulator plus the tile's count, bin by bin. -/
theorem pay2_hist (v26 : Vec Ideal S1x10 .f32) (b : Fin 10) :
    k0_pay2 (F := Ideal) v3 v4 v26 (ix2 (0 : Fin 1) b) = v26 (ix2 (0 : Fin 1) b) + tileCount x t s b := by
  rw [k0_pay2_eq, shapeCast_self]
  show v26 (ix2 (0 : Fin 1) b) + shapeCast S1x10 _ shapeCasts_S10_S1x10 (ix2 (0 : Fin 1) b) = _
  rw [shapeCast_a_1a_apply]
  refine congrArg (fun z => v26 (ix2 (0 : Fin 1) b) + z) ?_
  refine (sum_axis0_apply _ _ _ rfl b).trans ?_
  unfold tileCount
  rw [zero_eq, zero_add]
  exact Finset.sum_congr rfl fun p _ => onehotVec_apply x t s v3 v4 h3 h4 p b

end AtIdeal

/-- The histogram kernel's first store, at the first grid point: the literal zero everywhere. -/
theorem pay1_hist : (k0_pay1 (F := Ideal)) = fun _ => Cert.Spec.zero := rfl

end Cert.KernelIdeal.Pay

end
-- ==== Proof.KiPayLoss.lean ====
/-
  The loss kernel's arithmetic read at an index, over the extended reals.

  Per row of the tile the kernel looks the row's weight up as the sum over the ten bins of the one-hot entry times the
  table's entry, computes the row's mean cross-entropy as the sum over the 32 columns divided by 32, multiplies the
  two, and adds the sum over the 16384 rows of the tile to the accumulator.
-/
import proofs.«135723_j46686294508030_2_alg».proof.Proof.KiPayHist

noncomputable section

open scoped BigOperators

namespace Cert.KernelIdeal.Pay

open Idealize.ShloMosaic Idealize.ShloMosaic.ValueIdx Cert.KernelIdeal Cert.KernelIdeal.Gen Cert.Spec

section Generic
variable {F : FTy → Type} [FloatOps F]

/-- The column of row weights is the lane sum of the one-hot array times the table broadcast over the rows. -/
theorem k1_pay3_eq (v3 v4 : Vec F S16384x32 .f32) (v24 : Vec F S1x10 .f32) :
    k1_pay3 v3 v4 v24
      = shapeCast S16384x1
          (multiReduction .add [1] S16384
            (mulf (onehotVec v3 v4)
              (broadcastTo S16384x10 (shapeCast S1x10 v24 shapeCasts_S1x10_S1x10 : FVec F S1x10 .f32) broadcasts_S1x10_S16384x10))
            0x00000000#32 reduces_S16384x10_S16384 (.inl rfl) rfl)
          shapeCasts_S16384_S16384x1 := rfl

/-- The loss kernel's stored value is the accumulator plus the sum over the rows of (lane sum / 32) times the weight. -/
theorem k1_pay1_eq (v29 : FVec F S16384x1 .f32) (v40 : FVec F S16384x32 .f32) (v48 : Vec F S1x1 .f32) :
    k1_pay1 v29 v40 v48
      = shapeCast S1x1 (addf v48 (shapeCast S1x1
          (multiReduction .add [0] S1
            (mulf (divf (shapeCast S16384x1
                (multiReduction .add [1] S16384 v40 0x00000000#32 reduces_S16384x32_S16384 (.inl rfl) rfl)
                shapeCasts_S16384_S16384x1) (broadcast S16384x1 (Scalar.ofBits .f32 0x42000000#32))) v29)
            0x00000000#32 reduces_S16384x1_S1 (.inl rfl) rfl)
          shapeCasts_S1_S1x1)) shapeCasts_S1x1_S1x1 := rfl

end Generic

/-- The literal zero added in front of a sum changes nothing. -/
theorem zero_add_eq (a : EReal) : Cert.Spec.zero + a = a := by rw [zero_eq, zero_add]

/-- The loss kernel's store for any column of weights and any array of terms: the accumulator plus the sum over the
    rows of the row's lane sum divided by 32, times the row's weight. -/
theorem k1_pay1_apply (v29 : FVec Ideal S16384x1 .f32) (v40 : FVec Ideal S16384x32 .f32) (v48 : Vec Ideal S1x1 .f32) :
    k1_pay1 (F := Ideal) v29 v40 v48 (ix2 (0 : Fin 1) (0 : Fin 1))
      = v48 (ix2 (0 : Fin 1) (0 : Fin 1))
        + ∑ p : Fin 16384, Ideal.div (∑ j : Fin 32, v40 (ix2 p j)) c32 * v29 (ix2 p (0 : Fin 1)) := by
  rw [k1_pay1_eq, shapeCast_self]
  show v48 (ix2 (0 : Fin 1) (0 : Fin 1)) + shapeCast S1x1 _ shapeCasts_S1_S1x1 (ix2 (0 : Fin 1) (0 : Fin 1)) = _
  rw [shapeCast_a_1a_apply]
  refine congrArg (fun z => v48 (ix2 (0 : Fin 1) (0 : Fin 1)) + z) ?_
  refine (sum_axis0_apply _ _ _ rfl (0 : Fin 1)).trans ?_
  refine Finset.sum_congr rfl fun p _ => ?_
  show Ideal.div (shapeCast S16384x1 _ shapeCasts_S16384_S16384x1 (ix2 p (0 : Fin 1))) (Ideal.ofBits .f32 0x42000000#32)
      * v29 (ix2 p (0 : Fin 1)) = _
  rw [shapeCast_a_a1_apply]
  exact congrArg (fun z => Ideal.div z c32 * v29 (ix2 p (0 : Fin 1))) (sum_axis1_apply _ _ _ rfl p)

section AtIdeal

variable (x t : Fin 1048576 → Fin 32 → EReal) (s : Fin 64) (v3 v4 : Vec Ideal S16384x32 .f32)
  (h3 : ∀ (p : Fin 16384) (j : Fin 32), v3 (ix2 p j) = x (tileRow s p) j)
  (h4 : ∀ (p : Fin 16384) (j : Fin 32), v4 (ix2 p j) = t (tileRow s p) j)

include h3 h4

/-- The kernel's cross-entropy term at (p, j) is the specification's term of that row and column. -/
theorem k1_pay4_apply (p : Fin 16384) (j : Fin 32) :
    k1_pay4 (F := Ideal) v3 v4 (ix2 p j)
      = zero - (t (tileRow s p) j * Ideal.log (x (tileRow s p) j)
          + (one - t (tileRow s p) j) * Ideal.log1p (zero - x (tileRow s p) j)) := by
  show Ideal.ofBits .f32 0x00000000#32 - (v4 (ix2 p j) * Ideal.log (v3 (ix2 p j))
      + (Ideal.ofBits .f32 0x3F800000#32 - v4 (ix2 p j)) * Ideal.log1p (Ideal.ofBits .f32 0x00000000#32 - v3 (ix2 p j))) = _
  rw [h3, h4]

/-- The kernel's weight of row p of the tile, looked up in a table that holds the specification's, is the
    specification's weight of that row. -/
theorem k1_pay3_apply (v24 : Vec Ideal S1x10 .f32) (h24 : ∀ b : Fin 10, v24 (ix2 (0 : Fin 1) b) = wtab x t b)
    (p : Fin 16384) (u : Fin 1) : k1_pay3 (F := Ideal) v3 v4 v24 (ix2 p u) = wrow x t (tileRow s p) := by
  rw [k1_pay3_eq, shapeCast_a_a1_apply]
  refine (sum_axis1_apply _ _ _ rfl p).trans ?_
  unfold wrow
  rw [zero_add_eq]
  refine Finset.sum_congr rfl fun b _ => ?_
  show onehotVec (F := Ideal) v3 v4 (ix2 p b)
      * broadcastTo S16384x10 (shapeCast S1x10 v24 shapeCasts_S1x10_S1x10) broadcasts_S1x10_S16384x10 (ix2 p b) = _
  rw [broadcastTo_1b_ab_apply, shapeCast_self, onehotVec_apply x t s v3 v4 h3 h4, h24]

/-- The loss kernel's store at tile `s`: the accumulator plus the tile's weighted loss. -/
theorem pay1_loss (v24 : Vec Ideal S1x10 .f32) (v48 : Vec Ideal S1x1 .f32)
    (h24 : ∀ b : Fin 10, v24 (ix2 (0 : Fin 1) b) = wtab x t b) :
    k1_pay1 (F := Ideal) (k1_pay3 v3 v4 v24) (k1_pay4 v3 v4) v48 (ix2 (0 : Fin 1) (0 : Fin 1))
      = v48 (ix2 (0 : Fin 1) (0 : Fin 1)) + tileLoss x t s := by
  rw [k1_pay1_apply]
  refine congrArg (fun z => v48 (ix2 (0 : Fin 1) (0 : Fin 1)) + z) ?_
  unfold tileLoss
  rw [zero_add_eq]
  refine Finset.sum_congr rfl fun p _ => ?_
  rw [k1_pay3_apply x t s v3 v4 h3 h4 v24 h24]
  refine congrArg (fun z => z * wrow x t (tileRow s p)) ?_
  unfold kml
  rw [zero_add_eq]
  exact congrArg (fun z => Ideal.div z c32) (Finset.sum_congr rfl fun j _ => k1_pay4_apply x t s v3 v4 h3 h4 p j)

end AtIdeal

/-- The loss kernel's first store, at the first grid point: the literal zero. -/
theorem pay2_loss : (k1_pay2 (F := Ideal)) = fun _ => Cert.Spec.zero := rfl

end Cert.KernelIdeal.Pay

end
-- ==== Proof.KiGlue.lean ====
/-
  The host operations between the two kernels, as one function of the histogram, read at an index over the extended
  reals.

  From the histogram (a [1, 10] array viewed as a vector of ten counts) the host computes per bin the weight
  `smooth · 2^25 / (count / 4)` (the divisor replaced by one and the weight by zero for an empty bin), its square, the
  sum over the bins of count times square, the square divided by that sum, and replaces a quotient below the threshold
  by zero; the result is viewed as a [1, 10] array again.
-/
import proofs.«135723_j46686294508030_2_alg».proof.Proof.Gen.KernelIdeal.Launch
import proofs.«135723_j46686294508030_2_alg».proof.Proof.Spec
import proofs.«135723_j46686294508030_2_alg».proof.Proof.LawAcc
import Idealize.ShloMosaic.Lib.ValueLayout
import Idealize.ShloMosaic.PureOps.Ideal.Laws

noncomputable section

open scoped BigOperators

namespace Cert.KernelIdeal.Pay

open Idealize.ShloMosaic Idealize.ShloMosaic.ValueIdx Cert.KernelIdeal Cert.KernelIdeal.Gen Cert.Spec

section Generic
variable {F : FTy → Type} [FloatOps F]

/-- The ten weights from the vector of counts: the host operations from the reshaped histogram to the second select. -/
def pbwVec (v1 : FVec F S10 .f32) : FVec F S10 .f32 :=
  have cst : FVec F S10 .f32 := fun i => FloatOps.ofBits .f32 (lit0 (S10.rowMajor i))
  have cst_0 : FVec F S_ .f32 := constant S_ .f32 0x3E800000#32
  have v2 : FVec F S10 .f32 := broadcastInDim S10 ![] bcast_S_S10 cst_0
  have v3 : FVec F S10 .f32 := mulf v2 v1
  have cst_1 : FVec F S_ .f32 := constant S_ .f32 0x00000000#32
  have v4 : FVec F S10 .f32 := broadcastInDim S10 ![] bcast_S_S10 cst_1
  have v5 : IVec S10 1 := cmpf .ogt v3 v4
  have cst_2 : FVec F S_ .f32 := constant S_ .f32 0x3F800000#32
  have call0_v0 : FVec F S_ .f32 := id cst_2
  have call0_v1 : FVec F S10 .f32 := broadcastInDim S10 ![] bcast_S_S10 call0_v0
  have v6 : FVec F S10 .f32 := select v5 v3 call0_v1
  have cst_3 : FVec F S_ .f32 := constant S_ .f32 0x00000000#32
  have v7 : FVec F S10 .f32 := broadcastInDim S10 ![] bcast_S_S10 cst_3
  have v8 : IVec S10 1 := cmpf .ogt v1 v7
  have cst_4 : FVec F S_ .f32 := constant S_ .f32 0x4C000000#32
  have v9 : FVec F S10 .f32 := broadcastInDim S10 ![] bcast_S_S10 cst_4
  have v10 : FVec F S10 .f32 := mulf cst v9
  have v11 : FVec F S10 .f32 := Host.divf v10 v6
  have cst_5 : FVec F S_ .f32 := constant S_ .f32 0x00000000#32
  have call1_v0 : FVec F S_ .f32 := id cst_5
  have call1_v1 : FVec F S10 .f32 := broadcastInDim S10 ![] bcast_S_S10 call1_v0
  have v12 : FVec F S10 .f32 := select v8 v11 call1_v1
  v12

/-- The normalised squared weights from the vector of counts: the host operations from the squares to the last select. -/
def glueVec (v1 : FVec F S10 .f32) : FVec F S10 .f32 :=
  have v12 : FVec F S10 .f32 := pbwVec v1
  have v13 : FVec F S10 .f32 := mulf v12 v12
  have v14 : FVec F S10 .f32 := mulf v1 v13
  have cst_6 : FVec F S_ .f32 := constant S_ .f32 0x00000000#32
  have v15 : FVec F S_ .f32 := Host.reduceAdd v14 cst_6 reducesTo_S10_S_d0 h_S_
  have v16 : FVec F S10 .f32 := broadcastInDim S10 ![] bcast_S_S10 v15
  have v17 : FVec F S10 .f32 := Host.divf v13 v16
  have cst_7 : FVec F S_ .f32 := constant S_ .f32 0x358637BD#32
  have v18 : FVec F S10 .f32 := broadcastInDim S10 ![] bcast_S_S10 cst_7
  have v19 : IVec S10 1 := cmpf .olt v17 v18
  have cst_8 : FVec F S_ .f32 := constant S_ .f32 0x00000000#32
  have call2_v0 : FVec F S_ .f32 := id cst_8
  have call2_v1 : FVec F S10 .f32 := broadcastInDim S10 ![] bcast_S_S10 call2_v0
  have v20 : FVec F S10 .f32 := select v19 call2_v1 v17
  v20

/-- The host operations between the two kernels: the histogram viewed as a vector, the table computed from it, viewed
    as a [1, 10] array. -/
def glue (cnt : FVec F S1x10 .f32) : FVec F S1x10 .f32 :=
  have v1 : FVec F S10 .f32 := shapeCast S10 cnt shapeCasts_S1x10_S10
  have v20 : FVec F S10 .f32 := glueVec v1
  have v21 : FVec F S1x10 .f32 := shapeCast S1x10 v20 shapeCasts_S10_S1x10
  v21

end Generic

/-- The dense constant of the host program holds the smoothing table's words. -/
theorem lit0_rowMajor (b : Fin 10) : lit0 (S10.rowMajor (ix1 b)) = smoothBits b := by
  have table : ∀ c : Fin 10, lit0 c = smoothBits c := by decide
  have e : S10.rowMajor (ix1 b) = b := Fin.ext (Shape.rowMajor_val_one _)
  rw [e]
  exact table b

/-- A sum over the indices of a vector is the sum over its one coordinate. -/
theorem sum_idx1 {n : ℕ} (f : (⟨1, ![n]⟩ : Shape).Idx → EReal) : ∑ i, f i = ∑ a : Fin n, f (ix1 a) := by
  let e : (⟨1, ![n]⟩ : Shape).Idx ≃ Fin n :=
    ⟨fun i => i 0, fun a => ix1 a, fun i => (eq_ix1 i).symm, fun _ => rfl⟩
  rw [← Equiv.sum_comp e.symm f]
  rfl

/-- A sum along the one axis of a vector of ten, from an initial value: the initial value plus the sum of the ten. -/
theorem hostSum10 (v : FVec Ideal S10 .f32) (init : EReal) (j : S_.Idx) :
    Ideal.hostReduceAdd reducesTo_S10_S_d0 v init j = init + ∑ b : Fin 10, v (ix1 b) := by
  refine (Ideal.hostReduceAdd_total reducesTo_S10_S_d0 (fun b => b.elim0) v init j).trans ?_
  exact congrArg (fun z => init + z) (sum_idx1 v)

section AtIdeal

variable (x t : Fin 1048576 → Fin 32 → EReal) (v1 : FVec Ideal S10 .f32) (h : ∀ b : Fin 10, v1 (ix1 b) = kcount x t b)

include h

/-- The host's weight of bin b, from a vector that holds the kernel's counts, is the specification's. -/
theorem pbwVec_apply (b : Fin 10) : pbwVec (F := Ideal) v1 (ix1 b) = pbwOf (kcount x t) b := by
  show Scalar.select (Ideal.cmp .ogt (v1 (ix1 b)) zero)
      (Ideal.div (Ideal.ofBits .f32 (lit0 (S10.rowMajor (ix1 b))) * tot)
        (Scalar.select (Ideal.cmp .ogt (quarter * v1 (ix1 b)) zero) (quarter * v1 (ix1 b)) one)) zero = _
  rw [h b, lit0_rowMajor b]
  rfl

/-- The host's table entry of bin b, from a vector that holds the kernel's counts, is the specification's. -/
theorem glueVec_apply (b : Fin 10) : glueVec (F := Ideal) v1 (ix1 b) = wtab x t b := by
  have hs : ∀ j : S_.Idx,
      Ideal.hostReduceAdd reducesTo_S10_S_d0 (mulf v1 (mulf (pbwVec (F := Ideal) v1) (pbwVec (F := Ideal) v1))) zero j
        = ksum x t := by
    intro j
    rw [hostSum10]
    unfold ksum
    refine congrArg (fun z => zero + z) (Finset.sum_congr rfl fun b' _ => ?_)
    show v1 (ix1 b') * (pbwVec (F := Ideal) v1 (ix1 b') * pbwVec (F := Ideal) v1 (ix1 b')) = _
    rw [h b', pbwVec_apply x t v1 h b']
    rfl
  show Scalar.select
      (Ideal.cmp .olt (Ideal.div (pbwVec (F := Ideal) v1 (ix1 b) * pbwVec (F := Ideal) v1 (ix1 b))
        (Ideal.hostReduceAdd reducesTo_S10_S_d0 (mulf v1 (mulf (pbwVec (F := Ideal) v1) (pbwVec (F := Ideal) v1))) zero _)) eps)
      zero
      (Ideal.div (pbwVec (F := Ideal) v1 (ix1 b) * pbwVec (F := Ideal) v1 (ix1 b))
        (Ideal.hostReduceAdd reducesTo_S10_S_d0 (mulf v1 (mulf (pbwVec (F := Ideal) v1) (pbwVec (F := Ideal) v1))) zero _)) = _
  rw [hs, pbwVec_apply x t v1 h b]
  rfl

end AtIdeal

/-- The table the host hands the loss kernel, from a histogram that holds the kernel's counts, is the specification's. -/
theorem glue_apply (x t : Fin 1048576 → Fin 32 → EReal) (cnt : FVec Ideal S1x10 .f32)
    (h : ∀ b : Fin 10, cnt (ix2 (0 : Fin 1) b) = kcount x t b) (b : Fin 10) :
    glue (F := Ideal) cnt (ix2 (0 : Fin 1) b) = wtab x t b := by
  show shapeCast S1x10 (glueVec (F := Ideal) (shapeCast S10 cnt shapeCasts_S1x10_S10)) shapeCasts_S10_S1x10 (ix2 (0 : Fin 1) b) = _
  rw [shapeCast_a_1a_apply]
  exact glueVec_apply x t _ (fun b' => (shapeCast_1a_a_apply cnt _ b').trans (h b')) b

end Cert.KernelIdeal.Pay

end
-- ==== Proof.KiValue.lean ====
/-
  The kernel's result at the ideal instance. Tile by tile the histogram kernel's running total is the count of the rows
  seen so far in each bin, so the first region leaves the histogram; the ten-entry arithmetic between the regions turns it
  into the table of normalised weights; tile by tile the loss kernel's running total is the weighted loss of the rows seen
  so far; the last line reshapes that one number to a scalar.
-/
import proofs.«135723_j46686294508030_2_alg».proof.Proof.KiRun
import proofs.«135723_j46686294508030_2_alg».proof.Proof.KiPieces
import proofs.«135723_j46686294508030_2_alg».proof.Proof.KiBlocks
import proofs.«135723_j46686294508030_2_alg».proof.Proof.KiPayHist
import proofs.«135723_j46686294508030_2_alg».proof.Proof.KiPayLoss
import proofs.«135723_j46686294508030_2_alg».proof.Proof.KiGlue
import proofs.«135723_j46686294508030_2_alg».proof.Proof.LawAcc
set_option maxRecDepth 16384

noncomputable section

namespace Cert.KernelIdeal.Val

open Cert.KernelIdeal Cert.KernelIdeal.Gen Cert.KernelIdeal.Fr Cert.KernelIdeal.Blk Cert.KernelIdeal.Pay Cert.Spec
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## What each tile leaves, in the payloads' terms (any instance) -/

section Steps
variable {F : FTy → Type} [FloatOps F]
variable (V : (c : Dev nD) → (b : Ref sig .tc) → Buf (Elt F) ((c : Thread nD τ).loc b))

theorem outs0_first (c : Dev nD) (t : Fin cfg0.N) (hz : t.val = 0) :
    (outsAt0 V c t.val t.isLt).2 = k0_pay2 (iblk0 V c 0 t) (iblk0 V c 1 t) (k0_pay1 (F := F))
    ∧ (outsAt0 V c t.val t.isLt).1 = k0_pay2 (iblk0 V c 0 t) (iblk0 V c 1 t) (k0_pay1 (F := F)) :=
  by
  rw [outsAt0_A V c t hz]
  dsimp only
  exact ⟨sout0_A_eq _ _ _ _ _ _ _ _ _ _ _ _ _, out0_A_eq _ _ _ _ _ _ _ _ _ _ _ _ _⟩

theorem outs0_later (c : Dev nD) (t : Fin cfg0.N) (hz : t.val ≠ 0) :
    (outsAt0 V c t.val t.isLt).2 = k0_pay2 (iblk0 V c 0 t) (iblk0 V c 1 t) (outsAt0 V c (t.val - 1) (Nat.lt_of_le_of_lt (Nat.sub_le _ _) t.isLt)).2
    ∧ (outsAt0 V c t.val t.isLt).1 = k0_pay2 (iblk0 V c 0 t) (iblk0 V c 1 t) (outsAt0 V c (t.val - 1) (Nat.lt_of_le_of_lt (Nat.sub_le _ _) t.isLt)).2 :=
  by
  rw [outsAt0_B V c t hz]
  dsimp only
  exact ⟨sout0_B_eq _ _ _ _ _ _ _ _ _ _ _ _ _ _, out0_B_eq _ _ _ _ _ _ _ _ _ _ _ _ _ _⟩

theorem outs1_first (c : Dev nD) (t : Fin cfg1.N) (hz : t.val = 0) :
    (outsAt1 V c t.val t.isLt).2 = k1_pay1 (k1_pay3 (iblk1 V c 0 t) (iblk1 V c 1 t) (iblk1 V c 2 t)) (k1_pay4 (iblk1 V c 0 t) (iblk1 V c 1 t)) (k1_pay2 (F := F))
    ∧ (outsAt1 V c t.val t.isLt).1 = k1_pay1 (k1_pay3 (iblk1 V c 0 t) (iblk1 V c 1 t) (iblk1 V c 2 t)) (k1_pay4 (iblk1 V c 0 t) (iblk1 V c 1 t)) (k1_pay2 (F := F)) :=
  by
  rw [outsAt1_A V c t hz]
  dsimp only
  exact ⟨sout1_A_eq _ _ _ _ _ _ _ _ _ _ _ _ _ _ _ _, out1_A_eq _ _ _ _ _ _ _ _ _ _ _ _ _ _ _ _⟩

theorem outs1_later (c : Dev nD) (t : Fin cfg1.N) (hz : t.val ≠ 0) :
    (outsAt1 V c t.val t.isLt).2 = k1_pay1 (k1_pay3 (iblk1 V c 0 t) (iblk1 V c 1 t) (iblk1 V c 2 t)) (k1_pay4 (iblk1 V c 0 t) (iblk1 V c 1 t)) (outsAt1 V c (t.val - 1) (Nat.lt_of_le_of_lt (Nat.sub_le _ _) t.isLt)).2
    ∧ (outsAt1 V c t.val t.isLt).1 = k1_pay1 (k1_pay3 (iblk1 V c 0 t) (iblk1 V c 1 t) (iblk1 V c 2 t)) (k1_pay4 (iblk1 V c 0 t) (iblk1 V c 1 t)) (outsAt1 V c (t.val - 1) (Nat.lt_of_le_of_lt (Nat.sub_le _ _) t.isLt)).2 :=
  by
  rw [outsAt1_B V c t hz]
  dsimp only
  exact ⟨sout1_B_eq _ _ _ _ _ _ _ _ _ _ _ _ _ _ _ _ _, out1_B_eq _ _ _ _ _ _ _ _ _ _ _ _ _ _ _ _ _⟩

end Steps

/-! ## The histogram, tile by tile -/

section Hist
variable (V : (c : Dev nD) → (b : Ref sig .tc) → Buf (Elt Ideal) ((c : Thread nD τ).loc b))
variable (c : Dev nD) (x t : Fin 1048576 → Fin 32 → EReal)

/-- After tile `n` the running total, and its copy in the output's buffer, count the rows of tiles `0 … n` per bin. -/
theorem hist_inv (hx : x = Cert.Spec.rows (V c main_arg0)) (ht : t = Cert.Spec.rows (V c main_arg1)) :
    ∀ (n : ℕ) (hn : n < cfg0.N) (b : Fin 10),
      (outsAt0 V c n hn).2 (ix2 (0 : Fin 1) b) = countUpTo x t (n + 1) b
      ∧ (outsAt0 V c n hn).1 (ix2 (0 : Fin 1) b) = countUpTo x t (n + 1) b := by
  intro n
  induction n with
  | zero =>
    intro hn b
    obtain ⟨h2, h1⟩ := outs0_first V c ⟨0, hn⟩ rfl
    have hp := pay2_hist x t (tile0 ⟨0, hn⟩) (iblk0 V c 0 ⟨0, hn⟩) (iblk0 V c 1 ⟨0, hn⟩)
      (fun p j => iblk0_0_of V c x hx ⟨0, hn⟩ p j) (fun p j => iblk0_1_of V c t ht ⟨0, hn⟩ p j) (k0_pay1 (F := Ideal)) b
    have hs : countUpTo x t (0 + 1) b = zero + tileCount x t (tile0 ⟨0, hn⟩) b :=
      (countUpTo_succ x t (tile0 ⟨0, hn⟩) b).trans (by rw [show (tile0 ⟨0, hn⟩).val = 0 from rfl, countUpTo_zero])
    have hv : k0_pay2 (F := Ideal) (iblk0 V c 0 ⟨0, hn⟩) (iblk0 V c 1 ⟨0, hn⟩) (k0_pay1 (F := Ideal)) (ix2 (0 : Fin 1) b) = countUpTo x t (0 + 1) b := by
      rw [hp, pay1_hist, hs]
    exact ⟨(congrFun h2 _).trans hv, (congrFun h1 _).trans hv⟩
  | succ k ih =>
    intro hn b
    obtain ⟨h2, h1⟩ := outs0_later V c ⟨k + 1, hn⟩ (Nat.succ_ne_zero k)
    have ihk := (ih (Nat.lt_of_succ_lt hn) b).1
    have hp := pay2_hist x t (tile0 ⟨k + 1, hn⟩) (iblk0 V c 0 ⟨k + 1, hn⟩) (iblk0 V c 1 ⟨k + 1, hn⟩)
      (fun p j => iblk0_0_of V c x hx ⟨k + 1, hn⟩ p j) (fun p j => iblk0_1_of V c t ht ⟨k + 1, hn⟩ p j)
      (outsAt0 V c k (Nat.lt_of_succ_lt hn)).2 b
    have hv : k0_pay2 (F := Ideal) (iblk0 V c 0 ⟨k + 1, hn⟩) (iblk0 V c 1 ⟨k + 1, hn⟩) (outsAt0 V c k (Nat.lt_of_succ_lt hn)).2 (ix2 (0 : Fin 1) b)
        = countUpTo x t (k + 1 + 1) b := by
      rw [hp, ihk]; exact (countUpTo_succ x t (tile0 ⟨k + 1, hn⟩) b).symm
    exact ⟨(congrFun h2 _).trans hv, (congrFun h1 _).trans hv⟩

/-- The histogram region's output array at its exit: what the last tile left in the output's buffer. -/
def G0 : Buf (Elt Ideal) ((c : Thread nD τ).loc main_v0) := (outsAt0 V c last0.val last0.isLt).1

theorem flushed0_eq (u : Fin cfg0.N) (hf : (cfg0.win 2).flush u = true) :
    (dat0 V c).flushed 2 u = ((cfg0.win 2).blk u).view.read (Elt Ideal) (G0 V c) := by
  have hN : cfg0.N = 64 := N_0
  have h63 : u.val = 63 := by have := (flush0_2 u).mp hf; have := u.isLt; omega
  obtain rfl : u = last0 := Fin.ext h63
  show (cfg0.win 2).cut (grid0.coords last0) ((dat0 V c).after 2 last0) = _
  rw [after0_2, blk0_2_read]
  rfl

theorem final0 : (dat0 V c).arrAt 2 cfg0.N = G0 V c :=
  (dat0 V c).arrAt_eq_of_cover 2 (G0 V c) (flushed0_eq V c) cover0_2

theorem final0_apply (hx : x = Cert.Spec.rows (V c main_arg0)) (ht : t = Cert.Spec.rows (V c main_arg1)) (b : Fin 10) :
    (dat0 V c).arrAt 2 cfg0.N (ix2 (0 : Fin 1) b) = kcount x t b := by
  rw [final0]
  exact (hist_inv V c x t hx ht 63 last0.isLt b).2

end Hist

/-! ## The loss, tile by tile -/

section Loss
variable (V : (c : Dev nD) → (b : Ref sig .tc) → Buf (Elt Ideal) ((c : Thread nD τ).loc b))
variable (c : Dev nD) (x t : Fin 1048576 → Fin 32 → EReal)

theorem loss_inv (hx : x = Cert.Spec.rows (V c main_arg0)) (ht : t = Cert.Spec.rows (V c main_arg1))
    (hw : ∀ b : Fin 10, V c main_v21 (ix2 (0 : Fin 1) b) = wtab x t b) :
    ∀ (n : ℕ) (hn : n < cfg1.N),
      (outsAt1 V c n hn).2 (ix2 (0 : Fin 1) (0 : Fin 1)) = lossUpTo x t (n + 1)
      ∧ (outsAt1 V c n hn).1 (ix2 (0 : Fin 1) (0 : Fin 1)) = lossUpTo x t (n + 1) := by
  intro n
  induction n with
  | zero =>
    intro hn
    obtain ⟨h2, h1⟩ := outs1_first V c ⟨0, hn⟩ rfl
    have hp := pay1_loss x t (tile1 ⟨0, hn⟩) (iblk1 V c 0 ⟨0, hn⟩) (iblk1 V c 1 ⟨0, hn⟩)
      (fun p j => iblk1_0_of V c x hx ⟨0, hn⟩ p j) (fun p j => iblk1_1_of V c t ht ⟨0, hn⟩ p j)
      (iblk1 V c 2 ⟨0, hn⟩) (k1_pay2 (F := Ideal))
      (fun b => (iblk1_2_table V c ⟨0, hn⟩ b).trans (hw b))
    have hs : lossUpTo x t (0 + 1) = zero + tileLoss x t (tile1 ⟨0, hn⟩) :=
      (lossUpTo_succ x t (tile1 ⟨0, hn⟩)).trans (by rw [show (tile1 ⟨0, hn⟩).val = 0 from rfl, lossUpTo_zero])
    have hv : k1_pay1 (F := Ideal) (k1_pay3 (iblk1 V c 0 ⟨0, hn⟩) (iblk1 V c 1 ⟨0, hn⟩) (iblk1 V c 2 ⟨0, hn⟩)) (k1_pay4 (iblk1 V c 0 ⟨0, hn⟩) (iblk1 V c 1 ⟨0, hn⟩)) (k1_pay2 (F := Ideal)) (ix2 (0 : Fin 1) (0 : Fin 1))
        = lossUpTo x t (0 + 1) := by
      rw [hp, pay2_loss, hs]
    exact ⟨(congrFun h2 _).trans hv, (congrFun h1 _).trans hv⟩
  | succ k ih =>
    intro hn
    obtain ⟨h2, h1⟩ := outs1_later V c ⟨k + 1, hn⟩ (Nat.succ_ne_zero k)
    have ihk := (ih (Nat.lt_of_succ_lt hn)).1
    have hp := pay1_loss x t (tile1 ⟨k + 1, hn⟩) (iblk1 V c 0 ⟨k + 1, hn⟩) (iblk1 V c 1 ⟨k + 1, hn⟩)
      (fun p j => iblk1_0_of V c x hx ⟨k + 1, hn⟩ p j) (fun p j => iblk1_1_of V c t ht ⟨k + 1, hn⟩ p j)
      (iblk1 V c 2 ⟨k + 1, hn⟩) (outsAt1 V c k (Nat.lt_of_succ_lt hn)).2
      (fun b => (iblk1_2_table V c ⟨k + 1, hn⟩ b).trans (hw b))
    have hv : k1_pay1 (F := Ideal) (k1_pay3 (iblk1 V c 0 ⟨k + 1, hn⟩) (iblk1 V c 1 ⟨k + 1, hn⟩) (iblk1 V c 2 ⟨k + 1, hn⟩)) (k1_pay4 (iblk1 V c 0 ⟨k + 1, hn⟩) (iblk1 V c 1 ⟨k + 1, hn⟩)) (outsAt1 V c k (Nat.lt_of_succ_lt hn)).2 (ix2 (0 : Fin 1) (0 : Fin 1))
        = lossUpTo x t (k + 1 + 1) := by
      rw [hp, ihk]; exact (lossUpTo_succ x t (tile1 ⟨k + 1, hn⟩)).symm
    exact ⟨(congrFun h2 _).trans hv, (congrFun h1 _).trans hv⟩

def G1 : Buf (Elt Ideal) ((c : Thread nD τ).loc main_v22) := (outsAt1 V c last1.val last1.isLt).1

theorem flushed1_eq (u : Fin cfg1.N) (hf : (cfg1.win 3).flush u = true) :
    (dat1 V c).flushed 3 u = ((cfg1.win 3).blk u).view.read (Elt Ideal) (G1 V c) := by
  have hN : cfg1.N = 64 := N_1
  have h63 : u.val = 63 := by have := (flush1_3 u).mp hf; have := u.isLt; omega
  obtain rfl : u = last1 := Fin.ext h63
  show (cfg1.win 3).cut (grid1.coords last1) ((dat1 V c).after 3 last1) = _
  rw [after1_3, blk1_3_read]
  rfl

theorem final1 : (dat1 V c).arrAt 3 cfg1.N = G1 V c :=
  (dat1 V c).arrAt_eq_of_cover 3 (G1 V c) (flushed1_eq V c) cover1_3

theorem final1_apply (hx : x = Cert.Spec.rows (V c main_arg0)) (ht : t = Cert.Spec.rows (V c main_arg1))
    (hw : ∀ b : Fin 10, V c main_v21 (ix2 (0 : Fin 1) b) = wtab x t b) :
    (dat1 V c).arrAt 3 cfg1.N (ix2 (0 : Fin 1) (0 : Fin 1)) = kernelLoss x t := by
  rw [final1]
  exact (loss_inv V c x t hx ht hw 63 last1.isLt).2

end Loss

end Cert.KernelIdeal.Val

end
-- ==== Proof.KiGlueAfter.lean ====
/-
  What the host operations around the two kernels leave in their result buffers, as functions of what they read.

  The operations between the kernels, run in order from any contents, leave in the table's buffer the function `glue`
  of the histogram's buffer, provided the dense constant's buffer holds the smoothing table (the operation before the
  first kernel writes it there). The operation after the second kernel views the [1, 1] result as a scalar.
-/
import proofs.«135723_j46686294508030_2_alg».proof.Proof.KiGlue

noncomputable section

namespace Cert.KernelIdeal.Pay

open Idealize.ShloMosaic Idealize.ShloMosaic.ValueIdx Cert.KernelIdeal Cert.KernelIdeal.Gen Cert.Spec
open Idealize.ShloMosaic.TcCoe

variable {F : FTy → Type} [FloatOps F]

/-- After the operation before the first kernel, the dense constant's buffer holds the smoothing table's words. -/
theorem cst_after (W0 : Valuation τ sig (Elt F)) :
    StableHlo.after hostOps0 W0 (Proc.devRef .tc main_cst) = fun i => FloatOps.ofBits .f32 (lit0 (S10.rowMajor i)) := by
  simp only [hostOps0]
  after_results
  rfl

set_option maxHeartbeats 1000000 in
/-- After the operations between the two kernels, the table's buffer holds `glue` of the histogram's buffer. -/
theorem glue_after (W : Valuation τ sig (Elt F))
    (hcst : W (Proc.devRef .tc main_cst) = fun i => FloatOps.ofBits .f32 (lit0 (S10.rowMajor i))) :
    StableHlo.after hostOps1_6 (StableHlo.after hostOps1_5 (StableHlo.after hostOps1_4 (StableHlo.after hostOps1_3
      (StableHlo.after hostOps1_2 (StableHlo.after hostOps1_1 (StableHlo.after hostOps1 W)))))) (Proc.devRef .tc main_v21)
      = glue (F := F) (W (Proc.devRef .tc main_v0)) := by
  simp only [hostOps1, hostOps1_1, hostOps1_2, hostOps1_3, hostOps1_4, hostOps1_5, hostOps1_6]
  after_results_simp
  rw [hcst]
  rfl

/-- After the operation that follows the second kernel, the output's buffer holds the [1, 1] result viewed as a scalar. -/
theorem out_after (W : Valuation τ sig (Elt F)) :
    StableHlo.after hostOps2 W (Proc.devRef .tc main_v23) = shapeCast S_ (W (Proc.devRef .tc main_v22)) shapeCasts_S1x1_S_ := by
  simp only [hostOps2]
  after_results
  rfl

/-- … which at its one index is the [1, 1] result's one entry. -/
theorem out_after_apply (W : Valuation τ sig (Elt F)) (i : S_.Idx) :
    (StableHlo.after hostOps2 W (Proc.devRef .tc main_v23) : S_.Idx → Elt F .f32) i
      = (W (Proc.devRef .tc main_v22) : S1x1.Idx → Elt F .f32) (ix2 (0 : Fin 1) (0 : Fin 1)) := by
  rw [out_after]
  refine shapeCast_apply _ _ i (ix2 (0 : Fin 1) (0 : Fin 1)) ?_
  have h1 : (S_.rowMajor i).val < 1 := (S_.rowMajor i).isLt
  rw [Shape.rowMajor_val_two]
  show 0 * 1 + 0 = (S_.rowMajor i).val
  omega

end Cert.KernelIdeal.Pay

end
-- ==== Proof.KiFinal.lean ====
/-
  The kernel's run with its result named: every weakly fair execution ends with the scalar result at the tile-by-tile
  weighted loss of the argument arrays, and the arguments unchanged.
-/
import proofs.«135723_j46686294508030_2_alg».proof.Proof.KiValue
import proofs.«135723_j46686294508030_2_alg».proof.Proof.KiGlueAfter
set_option maxRecDepth 16384

noncomputable section

namespace Cert.KernelIdeal.Val

open Cert.KernelIdeal Cert.KernelIdeal.Gen Cert.KernelIdeal.Fr Cert.KernelIdeal.Blk Cert.KernelIdeal.Pay Cert.Spec
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- No item before the loss region writes an argument array: it reaches that region as launched. -/
theorem W9_arg (c : Dev nD) (r : Ref sig .tc) (h0 : r ∉ hostOps0_W) (h1 : r ∉ hostOps1_W) (h2 : r ∉ hostOps1_1_W) (h3 : r ∉ hostOps1_2_W)
    (h4 : r ∉ hostOps1_3_W) (h5 : r ∉ hostOps1_4_W) (h6 : r ∉ hostOps1_5_W) (h7 : r ∉ hostOps1_6_W)
    (hr0 : ∀ w, Pipeline.arrRef spec0 w ≠ r ∨ (cfg0.win w).isOut = false) :
    W9 m c (Proc.devRef .tc r) = m ((c : Thread nD τ).loc r) := by
  have e9 : W9 m c (Proc.devRef .tc r) = W8 m c (Proc.devRef .tc r) := StableHlo.after_of_writes_sub hostOps1_6 _ hostOps1_6_writes h7
  have e8 : W8 m c (Proc.devRef .tc r) = W7 m c (Proc.devRef .tc r) := StableHlo.after_of_writes_sub hostOps1_5 _ hostOps1_5_writes h6
  have e7 : W7 m c (Proc.devRef .tc r) = W6 m c (Proc.devRef .tc r) := StableHlo.after_of_writes_sub hostOps1_4 _ hostOps1_4_writes h5
  have e6 : W6 m c (Proc.devRef .tc r) = W5 m c (Proc.devRef .tc r) := StableHlo.after_of_writes_sub hostOps1_3 _ hostOps1_3_writes h4
  have e5 : W5 m c (Proc.devRef .tc r) = W4 m c (Proc.devRef .tc r) := StableHlo.after_of_writes_sub hostOps1_2 _ hostOps1_2_writes h3
  have e4 : W4 m c (Proc.devRef .tc r) = W3 m c (Proc.devRef .tc r) := StableHlo.after_of_writes_sub hostOps1_1 _ hostOps1_1_writes h2
  have e3 : W3 m c (Proc.devRef .tc r) = W2 m c (Proc.devRef .tc r) := StableHlo.after_of_writes_sub hostOps1 _ hostOps1_writes h1
  have e2 : W2 m c (Proc.devRef .tc r) = W1 m c (Proc.devRef .tc r) := by
    by_cases hw : ∃ w, Pipeline.arrRef spec0 w = r
    · obtain ⟨w, rfl⟩ := hw
      have hin : (cfg0.win w).isOut = false := (hr0 w).resolve_left (fun h => h rfl)
      exact (W2_arr m c w).trans (((dat0 (Fr.V1 m) c).arrAt_in w hin _).trans (A_eq0 (Fr.V1 m) c w))
    · exact W2_of_ne m c r fun w e => hw ⟨w, e⟩
  have e1 : W1 m c (Proc.devRef .tc r) = W0 m c (Proc.devRef .tc r) := StableHlo.after_of_writes_sub hostOps0 _ hostOps0_writes h0
  exact e9.trans (e8.trans (e7.trans (e6.trans (e5.trans (e4.trans (e3.trans (e2.trans (e1.trans rfl))))))))

theorem V1_arg0 (c : Dev nD) : Fr.V1 m c main_arg0 = m ((c : Thread nD τ).loc main_arg0) :=
  (StableHlo.after_of_writes_sub hostOps0 _ hostOps0_writes (show main_arg0 ∉ hostOps0_W by decide)).trans rfl
theorem V1_arg1 (c : Dev nD) : Fr.V1 m c main_arg1 = m ((c : Thread nD τ).loc main_arg1) :=
  (StableHlo.after_of_writes_sub hostOps0 _ hostOps0_writes (show main_arg1 ∉ hostOps0_W by decide)).trans rfl
theorem V9_arg0 (c : Dev nD) : Fr.V9 m c main_arg0 = m ((c : Thread nD τ).loc main_arg0) :=
  W9_arg m c main_arg0 (by decide) (by decide) (by decide) (by decide) (by decide) (by decide) (by decide) (by decide) (by decide)
theorem V9_arg1 (c : Dev nD) : Fr.V9 m c main_arg1 = m ((c : Thread nD τ).loc main_arg1) :=
  W9_arg m c main_arg1 (by decide) (by decide) (by decide) (by decide) (by decide) (by decide) (by decide) (by decide) (by decide)

/-- The argument arrays, by rows. -/
abbrev xr (c : Dev nD) : Fin 1048576 → Fin 32 → EReal := Cert.Spec.rows (m ((c : Thread nD τ).loc main_arg0))
abbrev tr (c : Dev nD) : Fin 1048576 → Fin 32 → EReal := Cert.Spec.rows (m ((c : Thread nD τ).loc main_arg1))

/-- The histogram region leaves the histogram. -/
theorem W2_v0 (c : Dev nD) (b : Fin 10) : W2 m c (Proc.devRef .tc main_v0) (ix2 (0 : Fin 1) b) = kcount (xr m c) (tr m c) b := by
  have e : W2 m c (Proc.devRef .tc main_v0) = (dat0 (Fr.V1 m) c).arrAt 2 cfg0.N := W2_arr m c 2
  rw [e]
  exact final0_apply (Fr.V1 m) c (xr m c) (tr m c) (by rw [V1_arg0]) (by rw [V1_arg1]) b

/-- The loss region finds the table of normalised weights. -/
theorem V9_v21 (c : Dev nD) (b : Fin 10) : Fr.V9 m c main_v21 (ix2 (0 : Fin 1) b) = wtab (xr m c) (tr m c) b := by
  have e : Fr.V9 m c main_v21 = glue (F := Ideal) (W2 m c (Proc.devRef .tc main_v0)) :=
    glue_after (W2 m c) ((W2_of_ne m c main_cst (by decide)).trans (cst_after (W0 m c)))
  rw [e]
  exact glue_apply (xr m c) (tr m c) _ (W2_v0 m c) b

/-- The result. -/
theorem W11_v23 (c : Dev nD) : W11 m c (Proc.devRef .tc main_v23) = fun _ => kernelLoss (xr m c) (tr m c) := by
  funext i
  have e1 := out_after_apply (F := Ideal) (W10 m c) i
  have e2 : W10 m c (Proc.devRef .tc main_v22) = (dat1 (Fr.V9 m) c).arrAt 3 cfg1.N := W10_arr m c 3
  refine e1.trans ?_
  rw [e2]
  exact final1_apply (Fr.V9 m) c (xr m c) (tr m c) (by rw [V9_arg0]) (by rw [V9_arg1]) (V9_v21 m c)

/-- THE VALUE RUN. -/
theorem value : θ_run defs (onTc (τ := τ) (main (F := Ideal))) ⟨m, fun _ => 0, ρ⟩ (fun r => ∀ c : Dev nD,
      r.2.mem ((c.tc : Thread nD τ).loc main_v23) = (fun _ => kernelLoss (xr m c) (tr m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v23 (by decide))).trans (W11_v23 m c),
     (h c _ (mem_uc main_arg0 (by decide))).trans (W11_main_arg0 m c),
     (h c _ (mem_uc main_arg1 (by decide))).trans (W11_main_arg1 m c)⟩) (run_all m ρ)

end Cert.KernelIdeal.Val

end
-- ==== Proof.RefTerm.lean ====
/-
  The reference program's result as a function of its two argument arrays: the operations of @main composed,
  stage by stage. Each stage below is the contents of one of @main's tensor values, written over the stages
  before it with the operations in the order, and with the literals, of the program's text; `refTerm` is the last
  one, read at the extended reals.
-/
import proofs.«135723_j46686294508030_2_alg».proof.ReferenceIdeal
import proofs.«135723_j46686294508030_2_alg».proof.Proof.Gen.ReferenceIdeal
import Idealize.ShloMosaic.PureOps.Ideal

noncomputable section

namespace Cert.ReferenceIdeal.RefRun

open Cert.ReferenceIdeal Cert.ReferenceIdeal.Gen Idealize.ShloMosaic

variable {F : FTy → Type} [FloatOps F]

/-- The mean absolute difference of each row: the absolute differences summed along the columns, over 32. -/
def tG (a0 a1 : FVec F S1048576x32 .f32) : FVec F S1048576 .f32 :=
  Host.divf (Host.reduceAdd (Host.absf (subf a0 a1)) (constant (F := F) S_ .f32 0x00000000#32) reducesTo_S1048576x32_S1048576_d1 h_S_) (broadcastInDim S1048576 ![] bcast_S_S1048576 (constant (F := F) S_ .f32 0x42000000#32))

/-- Each row's bin: the floor of ten times the mean, as a 32-bit integer, clipped to [0, 9]. -/
def tBin (a0 a1 : FVec F S1048576x32 .f32) : IVec S1048576 32 :=
  minsi (broadcastInDim S1048576 ![] bcast_S_S1048576 (constantI S_ 32 9#32)) (maxsi (broadcastInDim S1048576 ![] bcast_S_S1048576 (constantI S_ 32 0#32)) (fptosi 32 (Host.floor (mulf (tG a0 a1) (broadcastInDim S1048576 ![] bcast_S_S1048576 (constant (F := F) S_ .f32 0x41200000#32))))))

/-- The bin as a table index: a negative one moved up by ten (none is). -/
def tIdx (a0 a1 : FVec F S1048576x32 .f32) : IVec S1048576 32 :=
  select (cmpi .slt (tBin a0 a1) (broadcastInDim S1048576 ![] bcast_S_S1048576 (constantI S_ 32 0#32))) (addi (tBin a0 a1) (broadcastInDim S1048576 ![] bcast_S_S1048576 (constantI S_ 32 10#32))) (tBin a0 a1)

/-- The histogram of the bins: a one scattered into its bin's entry for every row. -/
def tCnt (a0 a1 : FVec F S1048576x32 .f32) : FVec F S10 .f32 :=
  Host.scatterAdd scatter_S10_S1048576x1_S1048576_n_0_0_1 (broadcastInDim S10 ![] bcast_S_S10 (constant (F := F) S_ .f32 0x00000000#32)) (broadcastInDim S1048576x1 ![0] bcast_S1048576_S1048576x1_0 (tIdx a0 a1)) (broadcastInDim S1048576 ![] bcast_S_S1048576 (constant (F := F) S_ .f32 0x3F800000#32))

/-- The ten weights: the smoothing table times 2^25 over a quarter of the count, zero for an empty bin. -/
def tTab (a0 a1 : FVec F S1048576x32 .f32) : FVec F S10 .f32 :=
  select (cmpf .ogt (tCnt a0 a1) (broadcastInDim S10 ![] bcast_S_S10 (constant (F := F) S_ .f32 0x00000000#32))) (Host.divf (mulf (fun i => FloatOps.ofBits .f32 (lit0 (S10.rowMajor i)) : FVec F S10 .f32) (broadcastInDim S10 ![] bcast_S_S10 (constant (F := F) S_ .f32 0x4C000000#32))) (select (cmpf .ogt (mulf (broadcastInDim S10 ![] bcast_S_S10 (constant (F := F) S_ .f32 0x3E800000#32)) (tCnt a0 a1)) (broadcastInDim S10 ![] bcast_S_S10 (constant (F := F) S_ .f32 0x00000000#32))) (mulf (broadcastInDim S10 ![] bcast_S_S10 (constant (F := F) S_ .f32 0x3E800000#32)) (tCnt a0 a1)) (broadcastInDim S10 ![] bcast_S_S10 (constant (F := F) S_ .f32 0x3F800000#32)))) (broadcastInDim S10 ![] bcast_S_S10 (constant (F := F) S_ .f32 0x00000000#32))

/-- Each row's weight: the table of ten read at the row's bin. -/
def tPbw (a0 a1 : FVec F S1048576x32 .f32) : FVec F S1048576 .f32 :=
  Host.gather gather_S10_S1048576x1_S1048576_n_0_n_n_0_1_1 (tTab a0 a1) (broadcastInDim S1048576x1 ![0] bcast_S1048576_S1048576x1_0 (tIdx a0 a1))

/-- Each row's squared weight: the table gathered at the row's bin, squared. -/
def tW2 (a0 a1 : FVec F S1048576x32 .f32) : FVec F S1048576 .f32 :=
  mulf (tPbw a0 a1) (tPbw a0 a1)

/-- The sum of the squared weights over all rows. -/
def tSum (a0 a1 : FVec F S1048576x32 .f32) : FVec F S_ .f32 :=
  Host.reduceAdd (tW2 a0 a1) (constant (F := F) S_ .f32 0x00000000#32) reducesTo_S1048576_S_d0 h_S_

/-- Each row's normalised weight, dropped to zero below the threshold. -/
def tW (a0 a1 : FVec F S1048576x32 .f32) : FVec F S1048576 .f32 :=
  select (cmpf .olt (Host.divf (tW2 a0 a1) (broadcastInDim S1048576 ![] bcast_S_S1048576 (tSum a0 a1))) (broadcastInDim S1048576 ![] bcast_S_S1048576 (constant (F := F) S_ .f32 0x358637BD#32))) (broadcastInDim S1048576 ![] bcast_S_S1048576 (constant (F := F) S_ .f32 0x00000000#32)) (Host.divf (tW2 a0 a1) (broadcastInDim S1048576 ![] bcast_S_S1048576 (tSum a0 a1)))

/-- Each row's mean cross-entropy. -/
def tMl (a0 a1 : FVec F S1048576x32 .f32) : FVec F S1048576 .f32 :=
  Host.divf (Host.reduceAdd (Host.negf (addf (mulf a1 (Host.log a0)) (mulf (subf (broadcastInDim S1048576x32 ![] bcast_S_S1048576x32 (constant (F := F) S_ .f32 0x3F800000#32)) a1) (Host.log1p (Host.negf a0))))) (constant (F := F) S_ .f32 0x00000000#32) reducesTo_S1048576x32_S1048576_d1 h_S_) (broadcastInDim S1048576 ![] bcast_S_S1048576 (constant (F := F) S_ .f32 0x42000000#32))

/-- The loss: the weighted cross-entropies summed over all rows. -/
def tOut (a0 a1 : FVec F S1048576x32 .f32) : FVec F S_ .f32 :=
  Host.reduceAdd (mulf (tMl a0 a1) (tW a0 a1)) (constant (F := F) S_ .f32 0x00000000#32) reducesTo_S1048576_S_d0 h_S_

/-- The reference's result at the ideal instance: floats are extended reals. -/
def refTerm (a0 a1 : FVec Ideal S1048576x32 .f32) : FVec Ideal S_ .f32 := tOut (F := Ideal) a0 a1

theorem refTerm_def (a0 a1 : FVec Ideal S1048576x32 .f32) : refTerm a0 a1 = tOut (F := Ideal) a0 a1 := rfl

end Cert.ReferenceIdeal.RefRun

end
-- ==== Proof.RefRun.lean ====
/-
  The reference program's run. @main is ninety-four host operations in a straight line once its four outlined
  calls (the clip, the two selects over the table of ten, the select over the rows) are unfolded at their call
  sites; run in order from any memory, every weakly fair execution terminates with the result buffer at the
  operations' composed term of the two argument arrays (`refTerm`), the arguments unchanged.
-/
import proofs.«135723_j46686294508030_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: the clip is six (each bound converted to its own type and
    broadcast, the maximum, the minimum), each select over an array and a scalar is three (the scalar converted,
    broadcast, the select). -/
abbrev ops : List (HloOp τ sig (Elt F)) :=
  [
    nullary main_cst (fun i => FloatOps.ofBits .f32 (lit0 (S10.rowMajor i))),
    binary main_arg0 main_arg1 main_v0 (subf : (⟨S1048576x32, .f32⟩ : BufTy).Contents (Elt F) → (⟨S1048576x32, .f32⟩ : BufTy).Contents (Elt F) → (⟨S1048576x32, .f32⟩ : BufTy).Contents (Elt F)),
    unary main_v0 main_v1 (Host.absf : (⟨S1048576x32, .f32⟩ : BufTy).Contents (Elt F) → (⟨S1048576x32, .f32⟩ : BufTy).Contents (Elt F)),
    nullary main_cst_0 (constant S_ .f32 0x00000000#32),
    binary main_v1 main_cst_0 main_v2 ((fun x v => Host.reduceAdd x v reducesTo_S1048576x32_S1048576_d1 h_S_) : (⟨S1048576x32, .f32⟩ : BufTy).Contents (Elt F) → (⟨S_, .f32⟩ : BufTy).Contents (Elt F) → (⟨S1048576, .f32⟩ : BufTy).Contents (Elt F)),
    nullary main_cst_1 (constant S_ .f32 0x42000000#32),
    unary main_cst_1 main_v3 (broadcastInDim S1048576 ![] bcast_S_S1048576 : (⟨S_, .f32⟩ : BufTy).Contents (Elt F) → (⟨S1048576, .f32⟩ : BufTy).Contents (Elt F)),
    binary main_v2 main_v3 main_v4 (Host.divf : (⟨S1048576, .f32⟩ : BufTy).Contents (Elt F) → (⟨S1048576, .f32⟩ : BufTy).Contents (Elt F) → (⟨S1048576, .f32⟩ : BufTy).Contents (Elt F)),
    nullary main_cst_2 (constant S_ .f32 0x41200000#32),
    unary main_cst_2 main_v5 (broadcastInDim S1048576 ![] bcast_S_S1048576 : (⟨S_, .f32⟩ : BufTy).Contents (Elt F) → (⟨S1048576, .f32⟩ : BufTy).Contents (Elt F)),
    binary main_v4 main_v5 main_v6 (mulf : (⟨S1048576, .f32⟩ : BufTy).Contents (Elt F) → (⟨S1048576, .f32⟩ : BufTy).Contents (Elt F) → (⟨S1048576, .f32⟩ : BufTy).Contents (Elt F)),
    unary main_v6 main_v7 (Host.floor : (⟨S1048576, .f32⟩ : BufTy).Contents (Elt F) → (⟨S1048576, .f32⟩ : BufTy).Contents (Elt F)),
    unary main_v7 main_v8 (fptosi 32 : (⟨S1048576, .f32⟩ : BufTy).Contents (Elt F) → (⟨S1048576, .i32⟩ : BufTy).Contents (Elt F)),
    nullary main_c (constantI S_ 32 0#32),
    nullary main_c_3 (constantI S_ 32 9#32),
    TRef.unary (.of main_c) main_call0.v0 id,
    TRef.unary main_call0.v0 main_call0.v1 (broadcastInDim S1048576 ![] bcast_S_S1048576),
    TRef.binary main_call0.v1 (.of main_v8) main_call0.v2 maxsi,
    TRef.unary (.of main_c_3) main_call0.v3 id,
    TRef.unary main_call0.v3 main_call0.v4 (broadcastInDim S1048576 ![] bcast_S_S1048576),
    TRef.binary main_call0.v4 main_call0.v2 main_call0.v5 minsi,
    nullary main_cst_4 (constant S_ .f32 0x00000000#32),
    unary main_cst_4 main_v10 (broadcastInDim S10 ![] bcast_S_S10 : (⟨S_, .f32⟩ : BufTy).Contents (Elt F) → (⟨S10, .f32⟩ : BufTy).Contents (Elt F)),
    nullary main_c_5 (constantI S_ 32 0#32),
    unary main_c_5 main_v11 (broadcastInDim S1048576 ![] bcast_S_S1048576 : (⟨S_, .i32⟩ : BufTy).Contents (Elt F) → (⟨S1048576, .i32⟩ : BufTy).Contents (Elt F)),
    binary main_v9 main_v11 main_v12 (cmpi .slt : (⟨S1048576, .i32⟩ : BufTy).Contents (Elt F) → (⟨S1048576, .i32⟩ : BufTy).Contents (Elt F) → (⟨S1048576, .i1⟩ : BufTy).Contents (Elt F)),
    nullary main_c_6 (constantI S_ 32 10#32),
    unary main_c_6 main_v13 (broadcastInDim S1048576 ![] bcast_S_S1048576 : (⟨S_, .i32⟩ : BufTy).Contents (Elt F) → (⟨S1048576, .i32⟩ : BufTy).Contents (Elt F)),
    binary main_v9 main_v13 main_v14 (addi : (⟨S1048576, .i32⟩ : BufTy).Contents (Elt F) → (⟨S1048576, .i32⟩ : BufTy).Contents (Elt F) → (⟨S1048576, .i32⟩ : BufTy).Contents (Elt F)),
    ternary main_v12 main_v14 main_v9 main_v15 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v15 main_v16 (broadcastInDim S1048576x1 ![0] bcast_S1048576_S1048576x1_0 : (⟨S1048576, .i32⟩ : BufTy).Contents (Elt F) → (⟨S1048576x1, .i32⟩ : BufTy).Contents (Elt F)),
    nullary main_cst_7 (constant S_ .f32 0x3F800000#32),
    unary main_cst_7 main_v17 (broadcastInDim S1048576 ![] bcast_S_S1048576 : (⟨S_, .f32⟩ : BufTy).Contents (Elt F) → (⟨S1048576, .f32⟩ : BufTy).Contents (Elt F)),
    ternary main_v10 main_v16 main_v17 main_v18 ((fun x i u => Host.scatterAdd scatter_S10_S1048576x1_S1048576_n_0_0_1 x i u) : (⟨S10, .f32⟩ : BufTy).Contents (Elt F) → (⟨S1048576x1, .i32⟩ : BufTy).Contents (Elt F) → (⟨S1048576, .f32⟩ : BufTy).Contents (Elt F) → (⟨S10, .f32⟩ : BufTy).Contents (Elt F)),
    nullary main_cst_8 (constant S_ .f32 0x3E800000#32),
    unary main_cst_8 main_v19 (broadcastInDim S10 ![] bcast_S_S10 : (⟨S_, .f32⟩ : BufTy).Contents (Elt F) → (⟨S10, .f32⟩ : BufTy).Contents (Elt F)),
    binary main_v19 main_v18 main_v20 (mulf : (⟨S10, .f32⟩ : BufTy).Contents (Elt F) → (⟨S10, .f32⟩ : BufTy).Contents (Elt F) → (⟨S10, .f32⟩ : BufTy).Contents (Elt F)),
    nullary main_cst_9 (constant S_ .f32 0x00000000#32),
    unary main_cst_9 main_v21 (broadcastInDim S10 ![] bcast_S_S10 : (⟨S_, .f32⟩ : BufTy).Contents (Elt F) → (⟨S10, .f32⟩ : BufTy).Contents (Elt F)),
    binary main_v20 main_v21 main_v22 (cmpf .ogt : (⟨S10, .f32⟩ : BufTy).Contents (Elt F) → (⟨S10, .f32⟩ : BufTy).Contents (Elt F) → (⟨S10, .i1⟩ : BufTy).Contents (Elt F)),
    nullary main_cst_10 (constant S_ .f32 0x3F800000#32),
    TRef.unary (.of main_cst_10) main_call1.v0 id,
    TRef.unary main_call1.v0 main_call1.v1 (broadcastInDim S10 ![] bcast_S_S10),
    TRef.ternary (.of main_v22) (.of main_v20) main_call1.v1 main_call1.v2 select,
    nullary main_cst_11 (constant S_ .f32 0x00000000#32),
    unary main_cst_11 main_v24 (broadcastInDim S10 ![] bcast_S_S10 : (⟨S_, .f32⟩ : BufTy).Contents (Elt F) → (⟨S10, .f32⟩ : BufTy).Contents (Elt F)),
    binary main_v18 main_v24 main_v25 (cmpf .ogt : (⟨S10, .f32⟩ : BufTy).Contents (Elt F) → (⟨S10, .f32⟩ : BufTy).Contents (Elt F) → (⟨S10, .i1⟩ : BufTy).Contents (Elt F)),
    nullary main_cst_12 (constant S_ .f32 0x4C000000#32),
    unary main_cst_12 main_v26 (broadcastInDim S10 ![] bcast_S_S10 : (⟨S_, .f32⟩ : BufTy).Contents (Elt F) → (⟨S10, .f32⟩ : BufTy).Contents (Elt F)),
    binary main_cst main_v26 main_v27 (mulf : (⟨S10, .f32⟩ : BufTy).Contents (Elt F) → (⟨S10, .f32⟩ : BufTy).Contents (Elt F) → (⟨S10, .f32⟩ : BufTy).Contents (Elt F)),
    binary main_v27 main_v23 main_v28 (Host.divf : (⟨S10, .f32⟩ : BufTy).Contents (Elt F) → (⟨S10, .f32⟩ : BufTy).Contents (Elt F) → (⟨S10, .f32⟩ : BufTy).Contents (Elt F)),
    nullary main_cst_13 (constant S_ .f32 0x00000000#32),
    TRef.unary (.of main_cst_13) main_call2.v0 id,
    TRef.unary main_call2.v0 main_call2.v1 (broadcastInDim S10 ![] bcast_S_S10),
    TRef.ternary (.of main_v25) (.of main_v28) main_call2.v1 main_call2.v2 select,
    nullary main_c_14 (constantI S_ 32 0#32),
    unary main_c_14 main_v30 (broadcastInDim S1048576 ![] bcast_S_S1048576 : (⟨S_, .i32⟩ : BufTy).Contents (Elt F) → (⟨S1048576, .i32⟩ : BufTy).Contents (Elt F)),
    binary main_v9 main_v30 main_v31 (cmpi .slt : (⟨S1048576, .i32⟩ : BufTy).Contents (Elt F) → (⟨S1048576, .i32⟩ : BufTy).Contents (Elt F) → (⟨S1048576, .i1⟩ : BufTy).Contents (Elt F)),
    nullary main_c_15 (constantI S_ 32 10#32),
    unary main_c_15 main_v32 (broadcastInDim S1048576 ![] bcast_S_S1048576 : (⟨S_, .i32⟩ : BufTy).Contents (Elt F) → (⟨S1048576, .i32⟩ : BufTy).Contents (Elt F)),
    binary main_v9 main_v32 main_v33 (addi : (⟨S1048576, .i32⟩ : BufTy).Contents (Elt F) → (⟨S1048576, .i32⟩ : BufTy).Contents (Elt F) → (⟨S1048576, .i32⟩ : BufTy).Contents (Elt F)),
    ternary main_v31 main_v33 main_v9 main_v34 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v34 main_v35 (broadcastInDim S1048576x1 ![0] bcast_S1048576_S1048576x1_0 : (⟨S1048576, .i32⟩ : BufTy).Contents (Elt F) → (⟨S1048576x1, .i32⟩ : BufTy).Contents (Elt F)),
    binary main_v29 main_v35 main_v36 ((fun x i => Host.gather gather_S10_S1048576x1_S1048576_n_0_n_n_0_1_1 x i) : (⟨S10, .f32⟩ : BufTy).Contents (Elt F) → (⟨S1048576x1, .i32⟩ : BufTy).Contents (Elt F) → (⟨S1048576, .f32⟩ : BufTy).Contents (Elt F)),
    binary main_v36 main_v36 main_v37 (mulf : (⟨S1048576, .f32⟩ : BufTy).Contents (Elt F) → (⟨S1048576, .f32⟩ : BufTy).Contents (Elt F) → (⟨S1048576, .f32⟩ : BufTy).Contents (Elt F)),
    nullary main_cst_16 (constant S_ .f32 0x00000000#32),
    binary main_v37 main_cst_16 main_v38 ((fun x v => Host.reduceAdd x v reducesTo_S1048576_S_d0 h_S_) : (⟨S1048576, .f32⟩ : BufTy).Contents (Elt F) → (⟨S_, .f32⟩ : BufTy).Contents (Elt F) → (⟨S_, .f32⟩ : BufTy).Contents (Elt F)),
    unary main_v38 main_v39 (broadcastInDim S1048576 ![] bcast_S_S1048576 : (⟨S_, .f32⟩ : BufTy).Contents (Elt F) → (⟨S1048576, .f32⟩ : BufTy).Contents (Elt F)),
    binary main_v37 main_v39 main_v40 (Host.divf : (⟨S1048576, .f32⟩ : BufTy).Contents (Elt F) → (⟨S1048576, .f32⟩ : BufTy).Contents (Elt F) → (⟨S1048576, .f32⟩ : BufTy).Contents (Elt F)),
    nullary main_cst_17 (constant S_ .f32 0x358637BD#32),
    unary main_cst_17 main_v41 (broadcastInDim S1048576 ![] bcast_S_S1048576 : (⟨S_, .f32⟩ : BufTy).Contents (Elt F) → (⟨S1048576, .f32⟩ : BufTy).Contents (Elt F)),
    binary main_v40 main_v41 main_v42 (cmpf .olt : (⟨S1048576, .f32⟩ : BufTy).Contents (Elt F) → (⟨S1048576, .f32⟩ : BufTy).Contents (Elt F) → (⟨S1048576, .i1⟩ : BufTy).Contents (Elt F)),
    nullary main_cst_18 (constant S_ .f32 0x00000000#32),
    TRef.unary (.of main_cst_18) main_call3.v0 id,
    TRef.unary main_call3.v0 main_call3.v1 (broadcastInDim S1048576 ![] bcast_S_S1048576),
    TRef.ternary (.of main_v42) main_call3.v1 (.of main_v40) main_call3.v2 select,
    unary main_arg0 main_v44 (Host.log : (⟨S1048576x32, .f32⟩ : BufTy).Contents (Elt F) → (⟨S1048576x32, .f32⟩ : BufTy).Contents (Elt F)),
    binary main_arg1 main_v44 main_v45 (mulf : (⟨S1048576x32, .f32⟩ : BufTy).Contents (Elt F) → (⟨S1048576x32, .f32⟩ : BufTy).Contents (Elt F) → (⟨S1048576x32, .f32⟩ : BufTy).Contents (Elt F)),
    nullary main_cst_19 (constant S_ .f32 0x3F800000#32),
    unary main_cst_19 main_v46 (broadcastInDim S1048576x32 ![] bcast_S_S1048576x32 : (⟨S_, .f32⟩ : BufTy).Contents (Elt F) → (⟨S1048576x32, .f32⟩ : BufTy).Contents (Elt F)),
    binary main_v46 main_arg1 main_v47 (subf : (⟨S1048576x32, .f32⟩ : BufTy).Contents (Elt F) → (⟨S1048576x32, .f32⟩ : BufTy).Contents (Elt F) → (⟨S1048576x32, .f32⟩ : BufTy).Contents (Elt F)),
    unary main_arg0 main_v48 (Host.negf : (⟨S1048576x32, .f32⟩ : BufTy).Contents (Elt F) → (⟨S1048576x32, .f32⟩ : BufTy).Contents (Elt F)),
    unary main_v48 main_v49 (Host.log1p : (⟨S1048576x32, .f32⟩ : BufTy).Contents (Elt F) → (⟨S1048576x32, .f32⟩ : BufTy).Contents (Elt F)),
    binary main_v47 main_v49 main_v50 (mulf : (⟨S1048576x32, .f32⟩ : BufTy).Contents (Elt F) → (⟨S1048576x32, .f32⟩ : BufTy).Contents (Elt F) → (⟨S1048576x32, .f32⟩ : BufTy).Contents (Elt F)),
    binary main_v45 main_v50 main_v51 (addf : (⟨S1048576x32, .f32⟩ : BufTy).Contents (Elt F) → (⟨S1048576x32, .f32⟩ : BufTy).Contents (Elt F) → (⟨S1048576x32, .f32⟩ : BufTy).Contents (Elt F)),
    unary main_v51 main_v52 (Host.negf : (⟨S1048576x32, .f32⟩ : BufTy).Contents (Elt F) → (⟨S1048576x32, .f32⟩ : BufTy).Contents (Elt F)),
    nullary main_cst_20 (constant S_ .f32 0x00000000#32),
    binary main_v52 main_cst_20 main_v53 ((fun x v => Host.reduceAdd x v reducesTo_S1048576x32_S1048576_d1 h_S_) : (⟨S1048576x32, .f32⟩ : BufTy).Contents (Elt F) → (⟨S_, .f32⟩ : BufTy).Contents (Elt F) → (⟨S1048576, .f32⟩ : BufTy).Contents (Elt F)),
    nullary main_cst_21 (constant S_ .f32 0x42000000#32),
    unary main_cst_21 main_v54 (broadcastInDim S1048576 ![] bcast_S_S1048576 : (⟨S_, .f32⟩ : BufTy).Contents (Elt F) → (⟨S1048576, .f32⟩ : BufTy).Contents (Elt F)),
    binary main_v53 main_v54 main_v55 (Host.divf : (⟨S1048576, .f32⟩ : BufTy).Contents (Elt F) → (⟨S1048576, .f32⟩ : BufTy).Contents (Elt F) → (⟨S1048576, .f32⟩ : BufTy).Contents (Elt F)),
    binary main_v55 main_v43 main_v56 (mulf : (⟨S1048576, .f32⟩ : BufTy).Contents (Elt F) → (⟨S1048576, .f32⟩ : BufTy).Contents (Elt F) → (⟨S1048576, .f32⟩ : BufTy).Contents (Elt F)),
    nullary main_cst_22 (constant S_ .f32 0x00000000#32),
    binary main_v56 main_cst_22 main_v57 ((fun x v => Host.reduceAdd x v reducesTo_S1048576_S_d0 h_S_) : (⟨S1048576, .f32⟩ : BufTy).Contents (Elt F) → (⟨S_, .f32⟩ : BufTy).Contents (Elt F) → (⟨S_, .f32⟩ : BufTy).Contents (Elt F)) ]

-- ninety-four binds re-associated: the rewrite under the chain recurses once per statement
set_option maxRecDepth 4096 in
set_option maxHeartbeats 4000000 in
/-- @main is that straight line: the two windows and the functions' definitions unfolded at their calls, both sides
    are one chain of steps once sequencing is reassociated. -/
theorem main_eq (c : Dev nD) : main (F := F) c = seq ops := by
  simp only [main, main_part0, main_part1, fn_clip.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., binary_bufs_sub .., unary_bufs_sub .., nullary_bufs_sub .., binary_bufs_sub .., nullary_bufs_sub ..,
    unary_bufs_sub .., binary_bufs_sub .., nullary_bufs_sub .., unary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub .., nullary_bufs_sub .., unary_bufs_sub .., nullary_bufs_sub ..,
    unary_bufs_sub .., binary_bufs_sub .., nullary_bufs_sub .., unary_bufs_sub .., binary_bufs_sub .., ternary_bufs_sub ..,
    unary_bufs_sub .., nullary_bufs_sub .., unary_bufs_sub .., ternary_bufs_sub .., nullary_bufs_sub .., unary_bufs_sub ..,
    binary_bufs_sub .., nullary_bufs_sub .., unary_bufs_sub .., binary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., binary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    binary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., binary_bufs_sub ..,
    nullary_bufs_sub .., unary_bufs_sub .., binary_bufs_sub .., unary_bufs_sub .., unary_bufs_sub .., binary_bufs_sub ..,
    binary_bufs_sub .., unary_bufs_sub .., nullary_bufs_sub .., binary_bufs_sub .., nullary_bufs_sub .., unary_bufs_sub ..,
    binary_bufs_sub .., binary_bufs_sub .., nullary_bufs_sub .., binary_bufs_sub ..⟩

set_option maxRecDepth 16384 in
set_option maxHeartbeats 8000000 in
/-- The fold of the operations' results at the result buffer is the composed term: each operation's result at its
    own buffer is its function's value of its operands' contents, and the typed references' casts are the identity
    at these literal references. -/
theorem out_eq (V : Valuation τ sig (Elt F)) :
    after ops V (main_v57 : DevRef τ sig) = tOut (V (main_arg0 : DevRef τ sig)) (V (main_arg1 : DevRef τ sig)) := by
  after_results_simp
  rfl

set_option maxRecDepth 16384 in
set_option maxHeartbeats 8000000 in
/-- No operation writes the first argument's buffer. -/
theorem arg0_eq (V : Valuation τ sig (Elt F)) :
    after ops V (main_arg0 : DevRef τ sig) = V (main_arg0 : DevRef τ sig) := by
  after_results_simp

set_option maxRecDepth 16384 in
set_option maxHeartbeats 8000000 in
/-- No operation writes the second argument's buffer. -/
theorem arg1_eq (V : Valuation τ sig (Elt F)) :
    after ops V (main_arg1 : DevRef τ sig) = V (main_arg1 : DevRef τ sig) := by
  after_results_simp

/-- On every device, for any float values, from any memory with zero counters: every weakly fair execution of @main
    terminates with the result at the operations' composed term of the arguments and the arguments unchanged. -/
theorem runG (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v57) = tOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v57).trans (out_eq _),
      (h c main_arg0).trans (arg0_eq _),
      (h c main_arg1).trans (arg1_eq _)⟩)
    (run_seq scopedRefs_eq scopedSems_eq defs main (fun _ => ops) main_eq (fun _ => ops_sub) m ρ)

/-- The run at the ideal instance, the result as `refTerm` of the two argument arrays. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v57) = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  runG (F := Ideal) m ρ

end Cert.ReferenceIdeal.RefRun

end
-- ==== Proof.RefFrame.lean ====
/-
  The reference's frame claim: the program runs, and its two argument arrays end as they began — the run's last two
  conjuncts.
-/
import proofs.«135723_j46686294508030_2_alg».proof.Proof.RefRun
import proofs.«135723_j46686294508030_2_alg».proof.Defs
import proofs.«135723_j46686294508030_2_alg».proof.Proof.Gen.Pre_finite_inputs

noncomputable section

namespace Cert.ReferenceIdeal.RefRun

open Cert.ReferenceIdeal Idealize.ShloMosaic Idealize.ShloMosaic.TcCoe Idealize.SL.Sem

theorem frame : Cert.frame_ReferenceIdeal (hReferenceIdeal := Cert.ReferenceIdeal.Gen.facts)
    (hPre_finite_inputs := Cert.Pre_finite_inputs.Gen.facts) :=
  fun m ρ _ => (θ_run defs _ _).mono (fun _ h c => (h c).2) (run m ρ)

end Cert.ReferenceIdeal.RefRun

end
-- ==== Proof.RefValueA.lean ====
/-
  The reference's stages read at an index, first part: indices of the one-axis shapes, then each row's mean absolute
  difference, bin and mean cross-entropy as the specification spells them.
-/
import proofs.«135723_j46686294508030_2_alg».proof.Proof.RefTerm
import proofs.«135723_j46686294508030_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.RefRun Idealize.ShloMosaic Idealize.ShloMosaic.ValueIdx

/-! ## Indices of the rank-one and rank-zero shapes -/

/-- A scalar broadcast reads the scalar's one element everywhere. -/
theorem bcast0_apply {α : Type} {t : Shape} (h : S_.BroadcastsInDim t (![] : Fin 0 → Fin t.rank)) (x : S_.Idx → α) (j : t.Idx) :
    broadcastInDim t ![] h x j = x ix0 := congrArg x (funext fun a => a.elim0)

/-- The rows' broadcast to a column of width one reads the row's element. -/
theorem bcastCol_apply {α : Type} (x : S1048576.Idx → α) (r : Fin 1048576) :
    broadcastInDim S1048576x1 ![0] bcast_S1048576_S1048576x1_0 x (ix2 r (0 : Fin 1)) = x (ix1 r) := by
  refine congrArg x (funext fun a => ?_)
  match a with
  | ⟨0, _⟩ => exact Fin.ext rfl

theorem red1 : S1048576x32.Reduces [1] S1048576 := by decide

/-- The index of row `r` with column `k` inserted. -/
theorem lift1 (r : Fin 1048576) (k : Fin 32) : red1.lift (ix1 r) k = ix2 r k := by
  funext c
  match c with
  | ⟨0, _⟩ => exact Fin.ext rfl
  | ⟨1, _⟩ => exact Fin.ext rfl

/-- The indices of a one-axis shape are its coordinates. -/
def idx1Equiv (n : Nat) : (⟨1, ![n]⟩ : Shape).Idx ≃ Fin n where
  toFun j := j 0
  invFun := ix1
  left_inv j := (eq_ix1 j).symm
  right_inv _ := rfl

theorem sum_idx1 {M : Type*} [AddCommMonoid M] {n : Nat} (f : (⟨1, ![n]⟩ : Shape).Idx → M) :
    ∑ j, f j = ∑ r : Fin n, f (ix1 r) :=
  (Fintype.sum_equiv (idx1Equiv n) f (fun r => f (ix1 r)) fun j => congrArg f (eq_ix1 j)).trans rfl

/-! ## The rows' mean absolute difference, bin and cross-entropy -/

theorem tG_apply (a0 a1 : FVec Ideal S1048576x32 .f32) (r : Fin 1048576) :
    tG (F := Ideal) a0 a1 (ix1 r) = Cert.Spec.g (Cert.Spec.rows a0) (Cert.Spec.rows a1) r := by
  unfold tG Cert.Spec.g
  show Ideal.div (Ideal.hostReduceAdd reducesTo_S1048576x32_S1048576_d1 (Host.absf (subf a0 a1)) (Ideal.ofBits .f32 0x00000000#32) (ix1 r)) (Ideal.ofBits .f32 0x42000000#32) = _
  rw [Ideal.hostReduceAdd_single reducesTo_S1048576x32_S1048576_d1 red1]
  refine congrArg (fun z => Ideal.div (Cert.Spec.zero + z) Cert.Spec.c32) ?_
  refine Finset.sum_congr rfl fun (k : Fin 32) _ => ?_
  rw [lift1]
  rfl

theorem tMl_apply (a0 a1 : FVec Ideal S1048576x32 .f32) (r : Fin 1048576) :
    tMl (F := Ideal) a0 a1 (ix1 r) = Cert.Spec.rml (Cert.Spec.rows a0) (Cert.Spec.rows a1) r := by
  unfold tMl Cert.Spec.rml
  show Ideal.div (Ideal.hostReduceAdd reducesTo_S1048576x32_S1048576_d1
      (Host.negf (addf (mulf a1 (Host.log a0)) (mulf (subf (broadcastInDim S1048576x32 ![] bcast_S_S1048576x32 (constant (F := Ideal) S_ .f32 0x3F800000#32)) a1) (Host.log1p (Host.negf a0)))))
      (Ideal.ofBits .f32 0x00000000#32) (ix1 r)) (Ideal.ofBits .f32 0x42000000#32) = _
  rw [Ideal.hostReduceAdd_single reducesTo_S1048576x32_S1048576_d1 red1]
  refine congrArg (fun z => Ideal.div (Cert.Spec.zero + z) Cert.Spec.c32) ?_
  refine Finset.sum_congr rfl fun (k : Fin 32) _ => ?_
  rw [lift1]
  rfl

theorem tBin_apply (a0 a1 : FVec Ideal S1048576x32 .f32) (r : Fin 1048576) :
    tBin (F := Ideal) a0 a1 (ix1 r) = Cert.Spec.bin (Cert.Spec.rows a0) (Cert.Spec.rows a1) r := by
  unfold tBin Cert.Spec.bin
  show IntOp.minsi 9#32 (IntOp.maxsi 0#32 (Ideal.fptosi 32 (Ideal.liftRound Int.floor
    (tG (F := Ideal) a0 a1 (ix1 r) * Ideal.ofBits .f32 0x41200000#32)))) = _
  rw [tG_apply]

/-- A word clipped to [0, 9] by signed maximum and minimum is in that range read signed. -/
theorem clip_range (v : BitVec 32) :
    0 ≤ (IntOp.minsi 9#32 (IntOp.maxsi 0#32 v)).toInt ∧ (IntOp.minsi 9#32 (IntOp.maxsi 0#32 v)).toInt ≤ 9 := by
  have h9 : (9#32 : BitVec 32).toInt = 9 := by decide
  have h0 : (0#32 : BitVec 32).toInt = 0 := by decide
  unfold IntOp.minsi IntOp.maxsi
  simp only [BitVec.slt, decide_eq_true_eq]
  by_cases hv : v.toInt < (0#32 : BitVec 32).toInt
  · rw [if_pos hv, if_neg (by rw [h9, h0]; omega), h0]; omega
  · rw [if_neg hv]
    by_cases hw : (9#32 : BitVec 32).toInt < v.toInt
    · rw [if_pos hw, h9]; omega
    · rw [if_neg hw]; rw [h9] at hw; rw [h0] at hv; omega

theorem bin_range (x t : Fin 1048576 → Fin 32 → EReal) (r : Fin 1048576) :
    0 ≤ (Cert.Spec.bin x t r).toInt ∧ (Cert.Spec.bin x t r).toInt ≤ 9 := clip_range _

/-- A word that is not negative read signed is not below zero. -/
theorem cmpi_slt_zero {b : BitVec 32} (h : 0 ≤ b.toInt) : IntOp.cmpi .slt b 0#32 = 0#1 := by
  have h0 : (0#32 : BitVec 32).toInt = 0 := by decide
  show BitVec.ofBool (b.slt 0#32) = 0#1
  rw [show b.slt 0#32 = false from by simp only [BitVec.slt, h0, decide_eq_false_iff_not]; omega]
  rfl

/-- The negative-index normalisation leaves the bin as it is. -/
theorem tIdx_apply (a0 a1 : FVec Ideal S1048576x32 .f32) (r : Fin 1048576) :
    tIdx (F := Ideal) a0 a1 (ix1 r) = Cert.Spec.bin (Cert.Spec.rows a0) (Cert.Spec.rows a1) r := by
  unfold tIdx
  show Scalar.select (IntOp.cmpi .slt (tBin (F := Ideal) a0 a1 (ix1 r)) 0#32)
    (IntOp.addi (tBin (F := Ideal) a0 a1 (ix1 r)) 10#32) (tBin (F := Ideal) a0 a1 (ix1 r)) = _
  rw [tBin_apply, cmpi_slt_zero (bin_range _ _ r).1, select_zero]

end Cert.ReferenceIdeal.RefValue

end
-- ==== Proof.RefValueB.lean ====
/-
  The reference's scatter and gather read at an index: where a row's update lands in the table of ten, and which entry
  of the table a row reads.
-/
import proofs.«135723_j46686294508030_2_alg».proof.Proof.RefValueA

noncomputable section

open scoped BigOperators

namespace Cert.ReferenceIdeal.RefValue

open Cert.ReferenceIdeal Cert.ReferenceIdeal.Gen Cert.ReferenceIdeal.RefRun Idealize.ShloMosaic Idealize.ShloMosaic.ValueIdx

/-! ## The histogram: a scatter of ones -/

/-- The scatter's dimension numbers: ten entries, one index per row, one update per row. -/
abbrev scatD : ScatterDims S10 S1048576x1 S1048576 := scatter_S10_S1048576x1_S1048576_n_0_0_1

/-- The start of row `r`'s update is the row's index word read signed. -/
theorem scat_start (idx : IVec S1048576x1 32) (r : Fin 1048576) (a : Fin S10.rank) :
    scatD.start (ix1 r) idx a = (idx (ix2 r (0 : Fin 1))).toInt := by
  obtain rfl : a = 0 := Subsingleton.elim _ _
  unfold ScatterDims.start
  rw [dif_pos (show (0 : Fin 1) ∈ scatD.scatterDimsToOperandDims from List.mem_singleton.mpr rfl)]
  have hsi : scatD.siIdx (ix1 r) ⟨List.idxOf (0 : Fin 1) scatD.scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]

/-- The update is one element: no window coordinate. -/
theorem scat_window (r : Fin 1048576) (a : Fin S10.rank) : scatD.window (ix1 r) a = 0 := by
  obtain rfl : a = 0 := Subsingleton.elim _ _
  unfold ScatterDims.window
  rw [dif_neg (by decide)]

/-- Row `r`'s update lands on entry `b` exactly when the row's index word, read signed, is `b`. -/
theorem scat_resultIdx_iff (idx : IVec S1048576x1 32) (r : Fin 1048576) (b : Fin 10) :
    scatD.resultIdx? (ix1 r) idx = some (ix1 b) ↔ (idx (ix2 r (0 : Fin 1))).toInt = (b.val : Int) := by
  have key : ∀ a, scatD.start (ix1 r) idx a + (scatD.window (ix1 r) a : Int) = (idx (ix2 r (0 : Fin 1))).toInt := fun a => by
    rw [scat_start, scat_window]; simp
  unfold ScatterDims.resultIdx?
  constructor
  · intro h
    split at h
    · have h' := congrArg Fin.val (congrFun (Option.some.inj h) (0 : Fin 1))
      have h2 : (scatD.start (ix1 r) idx 0 + (scatD.window (ix1 r) 0 : Int)).toNat = b.val := h'
      rename_i hc
      have hc0 := (hc 0).1
      rw [key] at h2 hc0
      omega
    · exact absurd h (by simp)
  · intro h
    have hb := b.isLt
    rw [dif_pos (fun a => by
      rw [key a, h]
      obtain rfl : a = 0 := Subsingleton.elim _ _
      show (0 : Int) ≤ (b.val : Int) ∧ (b.val : Int) < ((10 : Nat) : Int)
      omega)]
    refine congrArg some (funext fun a => ?_)
    obtain rfl : a = 0 := Subsingleton.elim _ _
    refine Fin.ext ?_
    show (scatD.start (ix1 r) idx 0 + (scatD.window (ix1 r) 0 : Int)).toNat = b.val
    rw [key, h]; omega

/-- A word read signed is `b` exactly when it is the word `b`. -/
theorem toInt_eq_iff (v : BitVec 32) (b : Fin 10) : v.toInt = (b.val : Int) ↔ v = BitVec.ofNat 32 b.val := by
  have hb : (BitVec.ofNat 32 b.val).toInt = (b.val : Int) := by revert b; decide
  constructor
  · intro h; exact BitVec.eq_of_toInt_eq (h.trans hb.symm)
  · rintro rfl; exact hb

/-! ## The table of ten, and the table read at the row's bin -/

/-- The literal table of the program is the specification's smoothing table. -/
theorem lit0_rowMajor (b : Fin 10) : lit0 (S10.rowMajor (ix1 b)) = Cert.Spec.smoothBits b := by
  revert b; decide

/-- The gather's dimension numbers: a table of ten, one start index per row, one element per row. -/
abbrev gathD : GatherDims S10 S1048576x1 S1048576 := gather_S10_S1048576x1_S1048576_n_0_n_n_0_1_1

/-- A natural number clamped into the table's indices. -/
def clampFin (n : Nat) : Fin 10 := ⟨min n 9, by omega⟩

/-- The gather read at row `r`: the table at the row's start index, read signed and clamped into [0, 9]. -/
theorem gather_apply {α : Type} (x : S10.Idx → α) (idx : IVec S1048576x1 32) (r : Fin 1048576) :
    Host.gather gathD x idx (ix1 r) = x (ix1 (clampFin (idx (ix2 r (0 : Fin 1))).toInt.toNat)) := by
  unfold Host.gather
  congr 1
  funext a
  obtain rfl : a = 0 := Subsingleton.elim _ _
  refine Fin.ext ?_
  show gathD.start (ix1 r) idx 0 + gathD.batchCoord (ix1 r) 0 + gathD.offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gathD.startIndexMap from List.mem_singleton.mpr rfl)]
  have hsi : gathD.siIdx (ix1 r) ⟨List.idxOf (0 : Fin 1) gathD.startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- A word in [0, 9] read signed, clamped, is the word's value as an index of the table. -/
theorem clampFin_toInt {v : BitVec 32} (h0 : 0 ≤ v.toInt) (h9 : v.toInt ≤ 9) :
    clampFin v.toInt.toNat = Fin.ofNat 10 v.toNat := by
  have hc := BitVec.toInt_eq_toNat_cond v
  have hlt := v.isLt
  have hp : (2 : Nat) ^ 32 = 4294967296 := by norm_num
  refine Fin.ext ?_
  show min v.toInt.toNat 9 = v.toNat % 10
  rw [hp] at hc hlt
  split at hc <;> omega

end Cert.ReferenceIdeal.RefValue

end
-- ==== Proof.RefValueC.lean ====
/-
  The reference's value: the histogram of the bins, the table of ten weights, each row's weight and its normalised
  weight, and the loss, each read at an index and equal to the specification's spelling of it; the last,
  `refTerm_eq`, says the reference's result is the specification's `refLoss` of the two arrays read by rows.
-/
import proofs.«135723_j46686294508030_2_alg».proof.Proof.RefValueB

noncomputable section

open scoped BigOperators

namespace Cert.ReferenceIdeal.RefValue

open Cert.ReferenceIdeal Cert.ReferenceIdeal.Gen Cert.ReferenceIdeal.RefRun Idealize.ShloMosaic Idealize.ShloMosaic.ValueIdx

/-! ## The histogram -/

/-- The host's accumulating scatter at the ideal instance is the exact sum. -/
theorem host_scatterAdd_ideal {s si u : Shape} {w : Nat} {φ : FTy} (d : ScatterDims s si u) (x : FVec Ideal s φ)
    (idx : IVec si w) (upd : FVec Ideal u φ) : Host.scatterAdd d x idx upd = Ideal.hostScatterAdd d x idx upd := rfl

/-- The host's sum at the ideal instance is the initial value plus the exact sum. -/
theorem host_reduceAdd_ideal {s t u : Shape} {φ : FTy} {axes : List (Fin s.rank)} (x : FVec Ideal s φ) (init : u.Idx → Ideal φ)
    (h : s.ReducesTo axes t) (hu : 0 < u.numel) :
    Host.reduceAdd x init h hu = Ideal.hostReduceAdd h x (init (Shape.Idx.first hu)) := rfl

/-- The scatter read at entry `b`: the operand's entry plus the updates of the rows whose index word, read signed, is `b`. -/
theorem scatterAdd_apply (x : S10.Idx → EReal) (idx : IVec S1048576x1 32) (upd : S1048576.Idx → EReal) (b : Fin 10) :
    Ideal.hostScatterAdd scatD x idx upd (ix1 b)
      = x (ix1 b) + ∑ r : Fin 1048576, if (idx (ix2 r (0 : Fin 1))).toInt = (b.val : Int) then upd (ix1 r) else 0 := by
  unfold Ideal.hostScatterAdd
  rw [Finset.sum_filter, sum_idx1]
  exact congrArg (fun z => x (ix1 b) + z) (Finset.sum_congr rfl fun r _ => if_congr (scat_resultIdx_iff idx r b) rfl rfl)

/-- The histogram entry `b`: zero plus a one for every row whose bin is `b`. -/
theorem tCnt_apply (a0 a1 : FVec Ideal S1048576x32 .f32) (b : Fin 10) :
    tCnt (F := Ideal) a0 a1 (ix1 b) = Cert.Spec.rcount (Cert.Spec.rows a0) (Cert.Spec.rows a1) b := by
  unfold tCnt Cert.Spec.rcount
  rw [host_scatterAdd_ideal, scatterAdd_apply]
  refine congrArg (fun z => Cert.Spec.zero + z) (Finset.sum_congr rfl fun r _ => ?_)
  rw [bcastCol_apply, tIdx_apply]
  exact if_congr (toInt_eq_iff _ b) rfl rfl

/-! ## The table of ten, and each row's entry of it -/

/-- The host's quotient at an index, at the ideal instance. -/
theorem host_divf_apply {s : Shape} {φ : FTy} (a b : FVec Ideal s φ) (i : s.Idx) :
    Host.divf a b i = Ideal.div (a i) (b i) := rfl

/-- Entry `b` of the table of weights. -/
theorem tTab_apply (a0 a1 : FVec Ideal S1048576x32 .f32) (b : Fin 10) :
    tTab (F := Ideal) a0 a1 (ix1 b)
      = Cert.Spec.pbwOf (Cert.Spec.rcount (Cert.Spec.rows a0) (Cert.Spec.rows a1)) b := by
  unfold tTab Cert.Spec.pbwOf
  rw [select_apply, cmpf_apply, host_divf_apply, mulf_apply, select_apply, cmpf_apply, mulf_apply]
  rw [tCnt_apply]
  repeat rw [bcast0_apply]
  repeat rw [constant_apply]
  rw [lit0_rowMajor]
  repeat rw [Ideal.cmpf_def]
  rw [Ideal.ofBits_def]

/-- Each row's weight is the table's entry at the row's bin. -/
theorem tPbw_apply (a0 a1 : FVec Ideal S1048576x32 .f32) (r : Fin 1048576) :
    tPbw (F := Ideal) a0 a1 (ix1 r)
      = Cert.Spec.pbwOf (Cert.Spec.rcount (Cert.Spec.rows a0) (Cert.Spec.rows a1))
          (Cert.Spec.binF (Cert.Spec.rows a0) (Cert.Spec.rows a1) r) := by
  unfold tPbw
  rw [gather_apply, bcastCol_apply, tIdx_apply, clampFin_toInt (bin_range _ _ r).1 (bin_range _ _ r).2, tTab_apply]
  rfl

/-! ## The rows' weights and the loss -/

theorem tW2_apply (a0 a1 : FVec Ideal S1048576x32 .f32) (r : Fin 1048576) :
    tW2 (F := Ideal) a0 a1 (ix1 r) = Cert.Spec.rwb (Cert.Spec.rows a0) (Cert.Spec.rows a1) r := by
  unfold tW2 Cert.Spec.rwb
  rw [mulf_apply, tPbw_apply]

theorem tSum_apply (a0 a1 : FVec Ideal S1048576x32 .f32) :
    tSum (F := Ideal) a0 a1 ix0 = Cert.Spec.rsum (Cert.Spec.rows a0) (Cert.Spec.rows a1) := by
  unfold tSum Cert.Spec.rsum
  rw [host_reduceAdd_ideal, Ideal.hostReduceAdd_total _ (fun b => b.elim0), sum_idx1]
  exact congrArg (fun z => Cert.Spec.zero + z) (Finset.sum_congr rfl fun r _ => tW2_apply a0 a1 r)

theorem tW_apply (a0 a1 : FVec Ideal S1048576x32 .f32) (r : Fin 1048576) :
    tW (F := Ideal) a0 a1 (ix1 r) = Cert.Spec.w (Cert.Spec.rows a0) (Cert.Spec.rows a1) r := by
  unfold tW Cert.Spec.w
  rw [select_apply, cmpf_apply, host_divf_apply]
  repeat rw [bcast0_apply]
  repeat rw [constant_apply]
  rw [tW2_apply, tSum_apply, Ideal.cmpf_def]

/-- The loss: zero plus, over all rows, the row's mean cross-entropy times its weight. -/
theorem tOut_apply (a0 a1 : FVec Ideal S1048576x32 .f32) :
    tOut (F := Ideal) a0 a1 ix0 = Cert.Spec.refLoss (Cert.Spec.rows a0) (Cert.Spec.rows a1) := by
  unfold tOut Cert.Spec.refLoss
  rw [host_reduceAdd_ideal, Ideal.hostReduceAdd_total _ (fun b => b.elim0), sum_idx1]
  exact congrArg (fun z => Cert.Spec.zero + z) (Finset.sum_congr rfl fun r _ => by
    rw [mulf_apply, tMl_apply, tW_apply])

/-- The reference's result is the specification's loss of the two arrays read by rows. -/
theorem refTerm_eq (a0 a1 : FVec Ideal S1048576x32 .f32) :
    refTerm a0 a1 = fun _ => Cert.Spec.refLoss (Cert.Spec.rows a0) (Cert.Spec.rows a1) := by
  funext j
  rw [eq_ix0 j, refTerm_def, tOut_apply]

end Cert.ReferenceIdeal.RefValue

end
-- ==== Proof.LawBin.lean ====
/-
  The bin of a row and its one-hot vector.

  The bin is a signed 32-bit word clamped to [0, 9]: first raised to at least 0, then capped at 9. Read as a natural
  number it is therefore at most 9, so it is the word of exactly one index `b : Fin 10`, namely `binF`. The one-hot
  entry at `b` is the one-bit comparison "bin = b" widened to 32 bits and read as an integer: 1 where `b` is the row's
  bin and 0 elsewhere.
-/
import proofs.«135723_j46686294508030_2_alg».proof.Proof.Spec

open scoped BigOperators

namespace Cert.Spec

open Idealize.ShloMosaic

/-- The float literal one is the extended real one. -/
theorem one_eq : one = 1 := by
  rw [show (1 : EReal) = ((1 : ℝ) : EReal) by norm_cast]
  simp [Ideal.ofBits, Ideal.ieee, -EReal.coe_mul]; norm_num

/-- A signed word raised to at least 0 and then capped at 9 is, as a natural number, at most 9. -/
theorem clamp_toNat_le (v : BitVec 32) : (IntOp.minsi 9#32 (IntOp.maxsi 0#32 v)).toNat ≤ 9 := by
  unfold IntOp.minsi IntOp.maxsi
  have e := BitVec.toInt_eq_toNat_cond v
  have hl := v.isLt
  have e0 : (0#32 : BitVec 32).toInt = 0 := by decide
  have e9 : (9#32 : BitVec 32).toInt = 9 := by decide
  by_cases h1 : v.slt 0#32 = true
  · rw [if_pos h1]; decide
  · rw [if_neg h1]
    by_cases h2 : (9#32 : BitVec 32).slt v = true
    · rw [if_pos h2]; decide
    · rw [if_neg h2]
      rw [BitVec.slt_iff_toInt_lt] at h1 h2
      split at e <;> omega

/-- A word that is at most 9 is the word of the index `b` exactly when its value, as an index of ten, is `b`. -/
theorem word_eq_iff (c : BitVec 32) (hc : c.toNat ≤ 9) (b : Fin 10) :
    c = BitVec.ofNat 32 b.val ↔ Fin.ofNat 10 c.toNat = b := by
  have hb := b.isLt
  constructor
  · intro h
    apply Fin.ext
    have : c.toNat = b.val := by rw [h, BitVec.toNat_ofNat]; omega
    show c.toNat % 10 = b.val
    omega
  · intro h
    apply BitVec.eq_of_toNat_eq
    have h' : c.toNat % 10 = b.val := congrArg Fin.val h
    rw [BitVec.toNat_ofNat]; omega

/-- The one-bit comparison of two words, widened to 32 bits and read as a signed integer, is 1 or 0. -/
theorem cmpi_eq_toInt (c y : BitVec 32) :
    ((IntOp.cmpi .eq c y).setWidth 32 : BitVec 32).toInt = if c = y then 1 else 0 := by
  unfold IntOp.cmpi
  by_cases h : c = y
  · subst h; simp
  · have hb : (c == y) = false := beq_eq_false_iff_ne.mpr h
    simp [hb, h]

section

variable (x t : Fin 1048576 → Fin 32 → EReal)

/-- The bin is at most 9. -/
theorem bin_toNat_le (r : Fin 1048576) : (bin x t r).toNat ≤ 9 := clamp_toNat_le _

/-- The bin is the word of `b` exactly when `binF` is `b`. -/
theorem bin_eq_iff (r : Fin 1048576) (b : Fin 10) : bin x t r = BitVec.ofNat 32 b.val ↔ binF x t r = b :=
  word_eq_iff _ (bin_toNat_le x t r) b

/-- The one-hot entry: 1 at the row's bin, 0 elsewhere. -/
theorem onehot_eq (r : Fin 1048576) (b : Fin 10) : onehot x t r b = if binF x t r = b then 1 else 0 := by
  unfold onehot
  rw [cmpi_eq_toInt]
  by_cases h : binF x t r = b
  · rw [if_pos ((bin_eq_iff x t r b).mpr h), if_pos h]; norm_num
  · rw [if_neg (fun h' => h ((bin_eq_iff x t r b).mp h')), if_neg h]; norm_num

end

end Cert.Spec
-- ==== Proof.LawSum.lean ====
/-
  Regrouping sums.

  * Every row `r` of the 1048576 is row `p = r % 16384` of tile `s = r / 16384` for exactly one pair `(s, p)`, so a
    sum over the tiles of the sums over each tile's rows is the sum over all rows.
  * The extended reals are not a semiring (`(a + b) * c = a * c + b * c` can fail when `a` and `b` have opposite
    signs and `c` is infinite), but a sum of NONNEGATIVE terms does distribute over a product, whatever the other factor.
  * Hence a sum over rows of a table entry looked up at the row's bin is the sum over the bins of (number of rows in the
    bin) · (table entry), the number of rows written as a sum of indicators.
-/
import proofs.«135723_j46686294508030_2_alg».proof.Proof.Spec

open scoped BigOperators

namespace Cert.Spec

/-- Rows as pairs (tile, row within the tile). -/
def tileEquiv : Fin 64 × Fin 16384 ≃ Fin 1048576 where
  toFun sp := tileRow sp.1 sp.2
  invFun r := (⟨r.val / 16384, by have := r.isLt; omega⟩, ⟨r.val % 16384, by omega⟩)
  left_inv := by
    rintro ⟨s, p⟩
    have hs := s.isLt
    have hp := p.isLt
    apply Prod.ext
    · apply Fin.ext
      show (s.val * 16384 + p.val) / 16384 = s.val
      omega
    · apply Fin.ext
      show (s.val * 16384 + p.val) % 16384 = p.val
      omega
  right_inv := by
    intro r
    apply Fin.ext
    show r.val / 16384 * 16384 + r.val % 16384 = r.val
    omega

/-- The tile-by-tile sum is the sum over all rows. -/
theorem sum_tiles (f : Fin 1048576 → EReal) :
    ∑ s : Fin 64, ∑ p : Fin 16384, f (tileRow s p) = ∑ r : Fin 1048576, f r := by
  rw [← Fintype.sum_prod_type']
  exact Fintype.sum_equiv tileEquiv _ _ (fun _ => rfl)

/-- A sum of nonnegative extended reals times any extended real is the sum of the products. -/
theorem sum_mul_of_nonneg {ι : Type} (s : Finset ι) (a : ι → EReal) (ha : ∀ i, 0 ≤ a i) (c : EReal) :
    (∑ i ∈ s, a i) * c = ∑ i ∈ s, a i * c := by
  classical
  induction s using Finset.induction_on with
  | empty => simp
  | insert i s hi ih =>
    rw [Finset.sum_insert hi, Finset.sum_insert hi,
      EReal.right_distrib_of_nonneg (ha i) (Finset.sum_nonneg fun j _ => ha j), ih]

/-- Looking a table up through a one-hot vector: the sum over the bins of indicator times entry is the entry at the bin. -/
theorem sum_indicator_mul (c : Fin 10) (wv : Fin 10 → EReal) :
    ∑ b : Fin 10, (if c = b then (1 : EReal) else 0) * wv b = wv c := by
  have h : ∀ b : Fin 10, (if c = b then (1 : EReal) else 0) * wv b = if c = b then wv b else 0 := by
    intro b
    by_cases hb : c = b
    · rw [if_pos hb, if_pos hb, one_mul]
    · rw [if_neg hb, if_neg hb, zero_mul]
  rw [Finset.sum_congr rfl (fun b _ => h b), Finset.sum_ite_eq Finset.univ c wv, if_pos (Finset.mem_univ c)]

/-- Rows grouped by their bin: the sum over the rows of the entry at the row's bin is the sum over the bins of
    (the number of rows in the bin, as a sum of indicators) times the entry. -/
theorem sum_fiber {ι : Type} [Fintype ι] (β : ι → Fin 10) (wv : Fin 10 → EReal) :
    ∑ b : Fin 10, (∑ r : ι, if β r = b then (1 : EReal) else 0) * wv b = ∑ r : ι, wv (β r) := by
  have hnn : ∀ (b : Fin 10) (r : ι), (0 : EReal) ≤ if β r = b then (1 : EReal) else 0 := by
    intro b r
    by_cases h : β r = b
    · rw [if_pos h]; exact zero_le_one
    · rw [if_neg h]
  rw [Finset.sum_congr rfl (fun b _ => sum_mul_of_nonneg Finset.univ _ (hnn b) (wv b)), Finset.sum_comm]
  exact Finset.sum_congr rfl (fun r _ => sum_indicator_mul (β r) wv)

end Cert.Spec
-- ==== Proof.Law.lean ====
/-
  The kernel's loss is the reference's loss, for every pair of input arrays.

  1. Both histograms count, for each bin `b`, the rows whose bin is `b`: the kernel adds the one-hot rows tile by tile,
     the reference scatters a one per row; every row lies in exactly one tile, so the two sums have the same terms.
  2. Hence the ten weights and their squares `wb` are the same table on both sides.
  3. The normalisers agree: the sum over the rows of `wb (bin r)` groups, bin by bin, into (count of the bin) · `wb`.
  4. The kernel's one-hot lookup of a row's weight returns the table's entry at the row's bin, which by 2 and 3 is the
     reference's per-row normalised weight (the same threshold applied to the same quotient).
  5. The two spellings of the row's mean cross-entropy differ only by `0 − a` against `−a`.
  6. The kernel's tile-by-tile sum of the products is the sum over all rows.

  No finiteness of the inputs is needed: every step is an identity of the extended reals (a product with the one-hot
  entries 0 and 1 is exact for every extended real, and sums of the nonnegative indicators distribute over a product).
-/
import proofs.«135723_j46686294508030_2_alg».proof.Proof.LawAcc
import proofs.«135723_j46686294508030_2_alg».proof.Proof.LawBin
import proofs.«135723_j46686294508030_2_alg».proof.Proof.LawSum

open scoped BigOperators

namespace Cert.Spec

open Idealize.ShloMosaic

/-- Every one of the 64 tiles is before 64: the full accumulator is the plain sum over the tiles. -/
theorem acc_all (f : Fin 64 → EReal) :
    zero + ∑ s : Fin 64, (if s.val < 64 then f s else 0) = ∑ s : Fin 64, f s := by
  rw [zero_eq, zero_add]
  exact Finset.sum_congr rfl (fun s _ => if_pos s.isLt)

section

variable (x t : Fin 1048576 → Fin 32 → EReal)

/-! ## 1. The two histograms -/

/-- The kernel's histogram: the number of rows in bin `b`, as a sum of indicators. -/
theorem kcount_eq (b : Fin 10) :
    kcount x t b = ∑ r : Fin 1048576, if binF x t r = b then (1 : EReal) else 0 := by
  refine (acc_all (fun s => tileCount x t s b)).trans ?_
  have h : ∀ s : Fin 64, tileCount x t s b = ∑ p : Fin 16384, (fun r => onehot x t r b) (tileRow s p) := by
    intro s
    unfold tileCount
    rw [zero_eq, zero_add]
  rw [Finset.sum_congr rfl (fun s _ => h s)]
  refine (sum_tiles (fun r => onehot x t r b)).trans ?_
  exact Finset.sum_congr rfl (fun r _ => onehot_eq x t r b)

/-- The reference's histogram: the same number. -/
theorem rcount_eq (b : Fin 10) :
    rcount x t b = ∑ r : Fin 1048576, if binF x t r = b then (1 : EReal) else 0 := by
  unfold rcount
  rw [zero_eq, zero_add]
  refine Finset.sum_congr rfl (fun r _ => ?_)
  by_cases h : binF x t r = b
  · rw [if_pos ((bin_eq_iff x t r b).mpr h), if_pos h, one_eq]
  · rw [if_neg (fun h' => h ((bin_eq_iff x t r b).mp h')), if_neg h]

theorem kcount_eq_rcount : kcount x t = rcount x t :=
  funext fun b => (kcount_eq x t b).trans (rcount_eq x t b).symm

/-! ## 2. The table of squared weights -/

/-- The squared weights from the (common) histogram. -/
noncomputable def wbT (b : Fin 10) : EReal := pbwOf (rcount x t) b * pbwOf (rcount x t) b

theorem kwb_eq (b : Fin 10) : kwb x t b = wbT x t b := by
  unfold kwb wbT
  rw [kcount_eq_rcount]

theorem rwb_eq (r : Fin 1048576) : rwb x t r = wbT x t (binF x t r) := rfl

/-! ## 3. The two normalisers -/

theorem ksum_eq_rsum : ksum x t = rsum x t := by
  unfold ksum rsum
  refine congrArg (fun a => zero + a) ?_
  rw [Finset.sum_congr rfl (fun b _ => by rw [kcount_eq x t b, kwb_eq x t b]),
    Finset.sum_congr rfl (fun r _ => rwb_eq x t r)]
  exact sum_fiber (binF x t) (wbT x t)

/-! ## 4. The row's weight -/

/-- The one-hot lookup returns the table's entry at the row's bin. -/
theorem wrow_eq (r : Fin 1048576) : wrow x t r = wtab x t (binF x t r) := by
  unfold wrow
  rw [zero_eq, zero_add, Finset.sum_congr rfl (fun b _ => by rw [onehot_eq x t r b])]
  exact sum_indicator_mul (binF x t r) (wtab x t)

/-- The kernel's per-bin normalised weight at the row's bin is the reference's per-row normalised weight. -/
theorem wtab_eq_w (r : Fin 1048576) : wtab x t (binF x t r) = w x t r := by
  unfold wtab w
  rw [kwb_eq, ksum_eq_rsum, rwb_eq]

/-! ## 5. The row's mean cross-entropy -/

theorem kml_eq_rml (r : Fin 1048576) : kml x t r = rml x t r := by
  unfold kml rml
  simp only [zero_eq, zero_sub]

/-! ## 6. The two losses -/

theorem kernelLoss_eq_refLoss : kernelLoss x t = refLoss x t := by
  refine (acc_all (fun s => tileLoss x t s)).trans ?_
  have h : ∀ s : Fin 64, tileLoss x t s = ∑ p : Fin 16384, (fun r => rml x t r * w x t r) (tileRow s p) := by
    intro s
    unfold tileLoss
    rw [zero_eq, zero_add]
    exact Finset.sum_congr rfl (fun p _ => by rw [kml_eq_rml, wrow_eq, wtab_eq_w])
  rw [Finset.sum_congr rfl (fun s _ => h s)]
  refine (sum_tiles (fun r => rml x t r * w x t r)).trans ?_
  unfold refLoss
  rw [zero_eq, zero_add]

end

end Cert.Spec
-- ==== Proof.lean ====
/-
  The weighted cross-entropy loss with histogram re-weighting, computed two ways.

  Every row of the two [1048576, 32] inputs has a mean absolute difference, which puts it in one of ten bins, and a mean
  cross-entropy. The histogram of the bins gives ten weights; a row's weight is its bin's, squared and normalised.

  * The kernel makes two passes over 64 tiles of 16384 rows. The first accumulates the histogram in a scratch buffer,
    cleared at the first tile; ten-entry arithmetic turns the histogram `cnt` into a table of weights normalised by
    `Σ_b cnt b · w b`; the second accumulates the weighted loss the same way, looking each row's weight up through its
    one-hot vector.
  * The reference scatters ones into the histogram, gathers each row's weight, normalises by the sum over ALL rows
    `Σ_r w (bin r)`, and adds all rows up at once.

  Over the extended reals the two normalisers are one number — rows grouped by their bin — and a sum taken tile by tile
  is the sum, so the two results agree for every input (`Cert.Spec.kernelLoss_eq_refLoss`); no finiteness is used.
  The three programs run to the end without a fault and leave their arguments alone: each kernel region's body is run
  at a generic tile in its two cases (first tile, later tile), its scratch carried from tile to tile by the region's
  invariant; the reference is a straight line of host operations.
-/
import proofs.«135723_j46686294508030_2_alg».proof.Defs
import proofs.«135723_j46686294508030_2_alg».proof.Proof.Gen.Kernel
import proofs.«135723_j46686294508030_2_alg».proof.Proof.Gen.KernelIdeal
import proofs.«135723_j46686294508030_2_alg».proof.Proof.Gen.ReferenceIdeal
import proofs.«135723_j46686294508030_2_alg».proof.Proof.Gen.Pre_finite_inputs
import proofs.«135723_j46686294508030_2_alg».proof.Proof.KbRun
import proofs.«135723_j46686294508030_2_alg».proof.Proof.KiFinal
import proofs.«135723_j46686294508030_2_alg».proof.Proof.RefFrame
import proofs.«135723_j46686294508030_2_alg».proof.Proof.RefValueC
import proofs.«135723_j46686294508030_2_alg».proof.Proof.Law

noncomputable section

namespace Cert.Proof

open Idealize.ShloMosaic Idealize.SL.Sem

/-- The kernel as printed runs and keeps its arguments. -/
theorem frame_k : Cert.frame_Kernel (hKernel := Cert.Kernel.Gen.facts) (hPre_finite_inputs := Cert.Pre_finite_inputs.Gen.facts) :=
  fun m ρ _ => Cert.Kernel.Fr.frame m ρ

/-- So does its reading over the extended reals. -/
theorem frame_ki : Cert.frame_KernelIdeal (hKernelIdeal := Cert.KernelIdeal.Gen.facts) (hPre_finite_inputs := Cert.Pre_finite_inputs.Gen.facts) :=
  fun m ρ _ => Cert.KernelIdeal.Fr.frame m ρ

/-- The kernel's result and the reference's are one function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.Spec.kernelLoss (Cert.KernelIdeal.Val.xr m c) (Cert.KernelIdeal.Val.tr m c),
    Cert.KernelIdeal.Val.value m ρ, ?_⟩
  refine (θ_run Cert.ReferenceIdeal.defs _ _).mono (fun _ h c => ⟨(h c).1.trans ?_, (h c).2⟩)
    (Cert.ReferenceIdeal.RefRun.run m' ρ')
  rw [Cert.ReferenceIdeal.RefValue.refTerm_eq, (hagree c).1, (hagree c).2, ← Cert.Spec.kernelLoss_eq_refLoss]
  rfl

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefRun.frame, trivial, algebraic⟩

end Cert.Proof

end
